-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)) (v2 : (c : Dev Cert.KernelIdeal.nD) → Buf (Elt Ideal) ((c.tc : Thread Cert.KernelIdeal.nD Cert.KernelIdeal.τ).loc Cert.KernelIdeal.main_v10_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_v10_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_v32) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S8192x2048 : Shape := ⟨2, ![8192, 2048]⟩
abbrev S4096x2048 : Shape := ⟨2, ![4096, 2048]⟩
abbrev S2048 : Shape := ⟨1, ![2048]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S4096x2048 : S_.BroadcastsInDim S4096x2048 (![] : Fin 0 → Fin S4096x2048.rank)
  reducesTo_S4096x2048_S_d0_1 : S4096x2048.ReducesTo [0, 1] S_
  bcast_S_S2048 : S_.BroadcastsInDim S2048 (![] : Fin 0 → Fin S2048.rank)
  reducesTo_S2048_S_d0 : S2048.ReducesTo [0] S_

variable [Facts]

def fn_part3 {F : FTy → Type} [FloatOps F] (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  main_v53

def fn_part2 {F : FTy → Type} [FloatOps F] (main_arg7 : FVec F S4096x2048 .f32) (main_arg8 : FVec F S2048 .f32) (main_arg9 : FVec F S4096x2048 .f32) (main_arg10 : FVec F S2048 .f32) (main_v33 : IVec S_ 1) : IVec S_ 1 :=
  let main_v34 : FVec F S4096x2048 .f32 := Host.absf main_arg7
  let main_cst_12 : FVec F S_ .f32 := constant S_ .f32 0x7F800000#32
  let main_v35 : FVec F S4096x2048 .f32 := broadcastInDim S4096x2048 ![] bcast_S_S4096x2048 main_cst_12
  let main_v36 : IVec S4096x2048 1 := cmpf .olt main_v34 main_v35
  let main_c_13 : IVec S_ 1 := constantI S_ 1 1#1
  let main_v37 : IVec S_ 1 := (fun x v => Host.reduce IntOp.andi x v reducesTo_S4096x2048_S_d0_1 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S4096x2048 .f32 := Host.absf main_arg9
  let main_cst_16 : FVec F S_ .f32 := constant S_ .f32 0x7F800000#32
  let main_v45 : FVec F S4096x2048 .f32 := broadcastInDim S4096x2048 ![] bcast_S_S4096x2048 main_cst_16
  let main_v46 : IVec S4096x2048 1 := cmpf .olt main_v44 main_v45
  let main_c_17 : IVec S_ 1 := constantI S_ 1 1#1
  let main_v47 : IVec S_ 1 := (fun x v => Host.reduce IntOp.andi x v reducesTo_S4096x2048_S_d0_1 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_v48 main_v49 main_v50

def fn_part1 {F : FTy → Type} [FloatOps F] (main_arg4 : FVec F S2048 .f32) (main_arg5 : FVec F S4096x2048 .f32) (main_arg6 : FVec F S2048 .f32) (main_arg7 : FVec F S4096x2048 .f32) (main_arg8 : FVec F S2048 .f32) (main_arg9 : FVec F S4096x2048 .f32) (main_arg10 : FVec F S2048 .f32) (main_v13 : IVec S_ 1) (main_v16 : IVec S4096x2048 1) : IVec S_ 1 :=
  let main_c_5 : IVec S_ 1 := constantI S_ 1 1#1
  let main_v17 : IVec S_ 1 := (fun x v => Host.reduce IntOp.andi x v reducesTo_S4096x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S4096x2048 .f32 := Host.absf main_arg5
  let main_cst_8 : FVec F S_ .f32 := constant S_ .f32 0x7F800000#32
  let main_v25 : FVec F S4096x2048 .f32 := broadcastInDim S4096x2048 ![] bcast_S_S4096x2048 main_cst_8
  let main_v26 : IVec S4096x2048 1 := cmpf .olt main_v24 main_v25
  let main_c_9 : IVec S_ 1 := constantI S_ 1 1#1
  let main_v27 : IVec S_ 1 := (fun x v => Host.reduce IntOp.andi x v reducesTo_S4096x2048_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S8192x4096 .f32) (main_arg1 : FVec F S8192x4096 .f32) (main_arg2 : FVec F S8192x2048 .f32) (main_arg3 : FVec F S4096x2048 .f32) (main_arg4 : FVec F S2048 .f32) (main_arg5 : FVec F S4096x2048 .f32) (main_arg6 : FVec F S2048 .f32) (main_arg7 : FVec F S4096x2048 .f32) (main_arg8 : FVec F S2048 .f32) (main_arg9 : FVec F S4096x2048 .f32) (main_arg10 : FVec F S2048 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S8192x4096 .f32 := Host.absf main_arg1
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_c_1 : IVec S_ 1 := constantI S_ 1 1#1
  let main_v7 : IVec S_ 1 := (fun x v => Host.reduce IntOp.andi x v reducesTo_S8192x4096_S_d0_1 h_S_) main_v6 main_c_1
  let main_v8 : IVec S_ 1 := andi main_v3 main_v7
  let main_v9 : FVec F S8192x2048 .f32 := Host.absf main_arg2
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  let main_v14 : FVec F S4096x2048 .f32 := Host.absf main_arg3
  let main_cst_4 : FVec F S_ .f32 := constant S_ .f32 0x7F800000#32
  let main_v15 : FVec F S4096x2048 .f32 := broadcastInDim S4096x2048 ![] bcast_S_S4096x2048 main_cst_4
  let main_v16 : IVec S4096x2048 1 := cmpf .olt main_v14 main_v15
  fn_part1 (F := F) main_arg4 main_arg5 main_arg6 main_arg7 main_arg8 main_arg9 main_arg10 main_v13 main_v16
-- ==== Kernel.lean ====
abbrev S8192x4096 : Shape := ⟨2, ![8192, 4096]⟩
abbrev S8192x2048 : Shape := ⟨2, ![8192, 2048]⟩
abbrev S4096x2048 : Shape := ⟨2, ![4096, 2048]⟩
abbrev S2048 : Shape := ⟨1, ![2048]⟩
abbrev S1x2048 : Shape := ⟨2, ![1, 2048]⟩
abbrev S512x512 : Shape := ⟨2, ![512, 512]⟩
abbrev S1x512 : Shape := ⟨2, ![1, 512]⟩

abbrev nBuf : Space → Nat
  | .hbm => 24
  | .vmem => 30
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S8192x2048, .f32⟩
  | .hbm, ⟨3, _⟩ => ⟨S4096x2048, .f32⟩
  | .hbm, ⟨4, _⟩ => ⟨S2048, .f32⟩
  | .hbm, ⟨5, _⟩ => ⟨S4096x2048, .f32⟩
  | .hbm, ⟨6, _⟩ => ⟨S2048, .f32⟩
  | .hbm, ⟨7, _⟩ => ⟨S4096x2048, .f32⟩
  | .hbm, ⟨8, _⟩ => ⟨S2048, .f32⟩
  | .hbm, ⟨9, _⟩ => ⟨S4096x2048, .f32⟩
  | .hbm, ⟨10, _⟩ => ⟨S2048, .f32⟩
  | .hbm, ⟨11, _⟩ => ⟨S8192x4096, .f32⟩
  | .hbm, ⟨12, _⟩ => ⟨S8192x4096, .bf16⟩
  | .hbm, ⟨13, _⟩ => ⟨S4096x2048, .bf16⟩
  | .hbm, ⟨14, _⟩ => ⟨S4096x2048, .bf16⟩
  | .hbm, ⟨15, _⟩ => ⟨S4096x2048, .bf16⟩
  | .hbm, ⟨16, _⟩ => ⟨S4096x2048, .bf16⟩
  | .hbm, ⟨17, _⟩ => ⟨S1x2048, .f32⟩
  | .hbm, ⟨18, _⟩ => ⟨S1x2048, .f32⟩
  | .hbm, ⟨19, _⟩ => ⟨S1x2048, .f32⟩
  | .hbm, ⟨20, _⟩ => ⟨S1x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S1x512, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S512x512, .f32⟩
  | .local _ .vmem, ⟨24, _⟩ => ⟨S512x512, .f32⟩
  | .local _ .vmem, ⟨25, _⟩ => ⟨S512x512, .f32⟩
  | .local _ .vmem, ⟨26, _⟩ => ⟨S512x512, .f32⟩
  | .local _ .vmem, ⟨27, _⟩ => ⟨S512x512, .f32⟩
  | .local _ .vmem, ⟨28, _⟩ => ⟨S512x512, .f32⟩
  | .local _ .vmem, ⟨29, _⟩ => ⟨S512x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10_0 : Ref sig .tc := ⟨.hbm, 21, rfl⟩
abbrev main_v10_1 : Ref sig .tc := ⟨.hbm, 22, rfl⟩
abbrev main_v10_2 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨3, ![16, 4, 8], ![false, false, false]⟩

def k0_cond2 (i : grid0.Coords) : BitVec 1 :=
  let arg2 : BitVec 32 := BitVec.ofNat 32 (i 2).val
  let c7_i32 : BitVec 32 := 7#32
  let v37 : BitVec 1 := Scalar.cmpi .eq arg2 c7_i32
  let v38 : BitVec 32 := Scalar.extui v37
  let c0_i32_29 : BitVec 32 := 0#32
  let v39 : BitVec 1 := Scalar.cmpi .ne v38 c0_i32_29
  v39

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, false]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, false]

class Facts₀ : Prop where
  bitsLt_bf16_f32 : FTy.bits .bf16 < FTy.bits .f32
  shapeCasts_S2048_S1x2048 : S2048.ShapeCasts S1x2048
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S8192x4096.size a
  hwx0_0 : ∀ i : grid0.Coords, EltTy.bits .bf16 = 32 ∨ (Rect.block (s := S8192x4096) S512x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S4096x2048.size a
  hwx0_1 : ∀ i : grid0.Coords, EltTy.bits .bf16 = 32 ∨ (Rect.block (s := S4096x2048) S512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S4096x2048.size a
  hwx0_2 : ∀ i : grid0.Coords, EltTy.bits .bf16 = 32 ∨ (Rect.block (s := S4096x2048) S512x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S4096x2048.size a
  hwx0_3 : ∀ i : grid0.Coords, EltTy.bits .bf16 = 32 ∨ (Rect.block (s := S4096x2048) S512x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S4096x2048.size a
  hwx0_4 : ∀ i : grid0.Coords, EltTy.bits .bf16 = 32 ∨ (Rect.block (s := S4096x2048) S512x512.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x2048.size a
  hwx0_5 : ∀ i : grid0.Coords, EltTy.bits .f32 = 32 ∨ (Rect.block (s := S1x2048) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x2048.size a
  hwx0_6 : ∀ i : grid0.Coords, EltTy.bits .f32 = 32 ∨ (Rect.block (s := S1x2048) S1x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x2048.size a
  hwx0_7 : ∀ i : grid0.Coords, EltTy.bits .f32 = 32 ∨ (Rect.block (s := S1x2048) S1x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x2048.size a
  hwx0_8 : ∀ i : grid0.Coords, EltTy.bits .f32 = 32 ∨ (Rect.block (s := S1x2048) S1x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x512.size a ≤ S8192x2048.size a
  hwx0_9 : ∀ i : grid0.Coords, EltTy.bits .f32 = 32 ∨ (Rect.block (s := S8192x2048) S512x512.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x512.size a ≤ S8192x2048.size a
  hwx0_10 : ∀ i : grid0.Coords, EltTy.bits .f32 = 32 ∨ (Rect.block (s := S8192x2048) S512x512.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S512x512.size a ≤ S8192x2048.size a
  hwx0_11 : ∀ i : grid0.Coords, EltTy.bits .f32 = 32 ∨ (Rect.block (s := S8192x2048) S512x512.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S512x512.size a ≤ S8192x2048.size a
  hwx0_12 : ∀ i : grid0.Coords, EltTy.bits .f32 = 32 ∨ (Rect.block (s := S8192x2048) S512x512.size (cc0_transform_12 i) (hinb0_12 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_v1) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S512x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S512x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x512.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v8) S1x512.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v9) S1x512.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_arg2) S512x512.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v10_0) S512x512.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v10_1) S512x512.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v10_2) S512x512.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev idle0 : Fin 13 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k0_cond2 i == 1#1) | 11 => fun i => !(k0_cond2 i == 1#1) | 12 => fun i => !(k0_cond2 i == 1#1) | ⟨_ + 13, h⟩ => absurd h (Nat.not_lt.2 (Nat.le_add_left _ _))

class Facts : Prop extends Facts₀ where

variable [Facts]
-- ==== ReferenceIdeal.lean ====
abbrev S8192x4096 : Shape := ⟨2, ![8192, 4096]⟩
abbrev S8192x2048 : Shape := ⟨2, ![8192, 2048]⟩
abbrev S4096x2048 : Shape := ⟨2, ![4096, 2048]⟩
abbrev S2048 : Shape := ⟨1, ![2048]⟩
abbrev S4096x8192 : Shape := ⟨2, ![4096, 8192]⟩
abbrev S8192 : Shape := ⟨1, ![8192]⟩
abbrev S8192x8192 : Shape := ⟨2, ![8192, 8192]⟩
abbrev S1x8192 : Shape := ⟨2, ![1, 8192]⟩
abbrev S_ : Shape := ⟨0, ![]⟩

abbrev nBuf : Space → Nat
  | .hbm => 60
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S8192x2048, .f32⟩
  | .hbm, ⟨3, _⟩ => ⟨S4096x2048, .f32⟩
  | .hbm, ⟨4, _⟩ => ⟨S2048, .f32⟩
  | .hbm, ⟨5, _⟩ => ⟨S4096x2048, .f32⟩
  | .hbm, ⟨6, _⟩ => ⟨S2048, .f32⟩
  | .hbm, ⟨7, _⟩ => ⟨S4096x2048, .f32⟩
  | .hbm, ⟨8, _⟩ => ⟨S2048, .f32⟩
  | .hbm, ⟨9, _⟩ => ⟨S4096x2048, .f32⟩
  | .hbm, ⟨10, _⟩ => ⟨S2048, .f32⟩
  | .hbm, ⟨11, _⟩ => ⟨S8192x4096, .f32⟩
  | .hbm, ⟨12, _⟩ => ⟨S4096x8192, .f32⟩
  | .hbm, ⟨13, _⟩ => ⟨S8192, .f32⟩
  | .hbm, ⟨14, _⟩ => ⟨S8192x8192, .f32⟩
  | .hbm, ⟨15, _⟩ => ⟨S1x8192, .f32⟩
  | .hbm, ⟨16, _⟩ => ⟨S8192x8192, .f32⟩
  | .hbm, ⟨17, _⟩ => ⟨S8192x8192, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S_, .f32⟩
  | .hbm, ⟨34, _⟩ => ⟨S8192x2048, .f32⟩
  | .hbm, ⟨35, _⟩ => ⟨S8192x2048, .f32⟩
  | .hbm, ⟨36, _⟩ => ⟨S_, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S_, .f32⟩
  | .hbm, ⟨42, _⟩ => ⟨S8192x2048, .f32⟩
  | .hbm, ⟨43, _⟩ => ⟨S8192x2048, .f32⟩
  | .hbm, ⟨44, _⟩ => ⟨S_, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S_, .f32⟩
  | .hbm, ⟨53, _⟩ => ⟨S8192x2048, .f32⟩
  | .hbm, ⟨54, _⟩ => ⟨S8192x2048, .f32⟩
  | .hbm, ⟨55, _⟩ => ⟨S_, .f32⟩
  | .hbm, ⟨56, _⟩ => ⟨S8192x2048, .f32⟩
  | .hbm, ⟨57, _⟩ => ⟨S8192x2048, .f32⟩
  | .hbm, ⟨58, _⟩ => ⟨S8192x2048, .f32⟩
  | .hbm, ⟨59, _⟩ => ⟨S8192x2048, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_cst_0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_1 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_5 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩

abbrev nD : Nat := 1
abbrev τ : Topo := Topo.v7x

variable {F : FTy → Type} [FloatOps F]

class Facts₀ : Prop where
  concatenates_S4096x2048_S4096x2048_S4096x2048_S4096x2048_S4096x8192_d1 : Shape.Concatenates [S4096x2048, S4096x2048, S4096x2048, S4096x2048] S4096x8192 1
  concatenates_S2048_S2048_S2048_S2048_S8192_d0 : Shape.Concatenates [S2048, S2048, S2048, S2048] S8192 0
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  slices_S8192x8192_S8192x2048_0_0 : S8192x8192.Slices ![0, 0] S8192x2048
  slices_S8192x8192_S8192x2048_0_2048 : S8192x8192.Slices ![0, 2048] S8192x2048
  slices_S8192x8192_S8192x2048_0_4096 : S8192x8192.Slices ![0, 4096] S8192x2048
  slices_S8192x8192_S8192x2048_0_6144 : S8192x8192.Slices ![0, 6144] S8192x2048
  bcast_S_S8192x2048 : S_.BroadcastsInDim S8192x2048 (![] : Fin 0 → Fin S8192x2048.rank)
  dot_S8192x4096_S4096x8192_S8192x8192_1_0_0_1_n_n_wf : DotDims.WF S8192x4096 S4096x8192 S8192x8192 [1] [0] [0] [1] [] []

variable [Facts₀]

def dot_S8192x4096_S4096x8192_S8192x8192_1_0_0_1_n_n : DotDims S8192x4096 S4096x8192 S8192x8192 where
  lhsContracting := [1]
  rhsContracting := [0]
  lhsNonContracting := [0]
  rhsNonContracting := [1]
  lhsBatch := []
  rhsBatch := []
  wf := dot_S8192x4096_S4096x8192_S8192x8192_1_0_0_1_n_n_wf

class Facts : Prop extends Facts₀ where

variable [Facts]
-- ==== Proof.Pieces.lean ====
/-
  What one grid point leaves behind, read back as values.

  The kernel visits the reduction axis in eight steps. Each step adds, into each of four accumulators (one
  per gate: forget, candidate, input, output), the product of the current block of the summed inputs with
  the current block of that gate's weights. At the first step the accumulator is first set to zero, so it
  ends at `0 + block product`; at every later step it ends at `previous + block product`. At the last
  step the three results are then computed from the four finished accumulators, the four bias rows and
  the block of the old cell state.

  Each statement below says that what the symbolic run of the body found in a buffer is exactly that
  expression of the values the step started from; nothing about the arithmetic itself is opened here.
-/
import proofs.«111009_j37924561224179_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- The block's origin, as the constant-zero offset function. -/
theorem hz : (![0, 0] : Fin 2 → Nat) = fun _ => 0 := funext fun a => by fin_cases a <;> rfl

/-- First step: the forget gate's accumulator ends at the zero block plus the block product. -/
theorem first_0 (c : Dev nD) (i : grid0.Coords) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S512x512 .f32) (harg18 : arg18.IsWhole) (arg19 : Memref sig .tc .vmem S512x512 .f32) (harg19 : arg19.IsWhole) (hc0 : cond0_0 i) (hc1 : ¬cond0_1 i)
    (x0 : Vec F S512x512 .bf16) (x1 : Vec F S512x512 .bf16) (x2 : Vec F S512x512 .bf16) (x3 : Vec F S512x512 .bf16) (x4 : Vec F S512x512 .bf16) (x5 : Vec F S1x512 .f32) (x6 : Vec F S1x512 .f32) (x7 : Vec F S1x512 .f32) (x8 : Vec F S1x512 .f32) (x9 : Vec F S512x512 .f32) :
    sout0_A_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 = k0_pay12 x0 x1 (k0_pay6 (F := F)) := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9)]
  unfold kernelRun0_A
  dsimp only
  try sl_unfold_words
  first
    | rw [View.canon_unit_zero hz]
    | rw [View.canon_cons_unit_zero (S := S512x512) hz, View.readCov_unit_zero (S := S512x512) _ hz]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S512x512) hz, View.ld_unit_zero (S := S1x512) hz]

/-- A middle step: the forget gate's accumulator ends at what it held plus the block product. -/
theorem mid_0 (c : Dev nD) (i : grid0.Coords) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S512x512 .f32) (harg18 : arg18.IsWhole) (arg19 : Memref sig .tc .vmem S512x512 .f32) (harg19 : arg19.IsWhole) (hc0 : ¬cond0_0 i) (hc1 : ¬cond0_1 i)
    (x0 : Vec F S512x512 .bf16) (x1 : Vec F S512x512 .bf16) (x2 : Vec F S512x512 .bf16) (x3 : Vec F S512x512 .bf16) (x4 : Vec F S512x512 .bf16) (x5 : Vec F S1x512 .f32) (x6 : Vec F S1x512 .f32) (x7 : Vec F S1x512 .f32) (x8 : Vec F S1x512 .f32) (x9 : Vec F S512x512 .f32) (xs0 : Vec F S512x512 .f32) (xs1 : Vec F S512x512 .f32) (xs2 : Vec F S512x512 .f32) (xs3 : Vec F S512x512 .f32) :
    sout0_B_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs2 xs3 = k0_pay12 x0 x1 xs0 := by
  unfold sout0_B_0
  rw [View.read_writes_eq_canon _ _ _ (scover0_B_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs2 xs3)]
  unfold kernelRun0_B
  dsimp only
  try sl_unfold_words
  first
    | rw [View.canon_unit_zero hz]
    | rw [View.canon_cons_unit_zero (S := S512x512) hz, View.readCov_unit_zero (S := S512x512) _ hz]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S512x512) hz, View.ld_unit_zero (S := S1x512) hz]

/-- The last step: the forget gate's accumulator ends at what it held plus the block product. -/
theorem last_0 (c : Dev nD) (i : grid0.Coords) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S512x512 .f32) (harg18 : arg18.IsWhole) (arg19 : Memref sig .tc .vmem S512x512 .f32) (harg19 : arg19.IsWhole) (hc0 : ¬cond0_0 i) (hc1 : cond0_1 i)
    (x0 : Vec F S512x512 .bf16) (x1 : Vec F S512x512 .bf16) (x2 : Vec F S512x512 .bf16) (x3 : Vec F S512x512 .bf16) (x4 : Vec F S512x512 .bf16) (x5 : Vec F S1x512 .f32) (x6 : Vec F S1x512 .f32) (x7 : Vec F S1x512 .f32) (x8 : Vec F S1x512 .f32) (x9 : Vec F S512x512 .f32) (xs0 : Vec F S512x512 .f32) (xs1 : Vec F S512x512 .f32) (xs2 : Vec F S512x512 .f32) (xs3 : Vec F S512x512 .f32) :
    sout0_C_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs2 xs3 = k0_pay12 x0 x1 xs0 := by
  unfold sout0_C_0
  rw [View.read_writes_eq_canon _ _ _ (scover0_C_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs2 xs3)]
  unfold kernelRun0_C
  dsimp only
  try sl_unfold_words
  first
    | rw [View.canon_unit_zero hz]
    | rw [View.canon_cons_unit_zero (S := S512x512) hz, View.readCov_unit_zero (S := S512x512) _ hz]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S512x512) hz, View.ld_unit_zero (S := S1x512) hz]

/-- First step: the candidate gate's accumulator ends at the zero block plus the block product. -/
theorem first_1 (c : Dev nD) (i : grid0.Coords) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S512x512 .f32) (harg18 : arg18.IsWhole) (arg19 : Memref sig .tc .vmem S512x512 .f32) (harg19 : arg19.IsWhole) (hc0 : cond0_0 i) (hc1 : ¬cond0_1 i)
    (x0 : Vec F S512x512 .bf16) (x1 : Vec F S512x512 .bf16) (x2 : Vec F S512x512 .bf16) (x3 : Vec F S512x512 .bf16) (x4 : Vec F S512x512 .bf16) (x5 : Vec F S1x512 .f32) (x6 : Vec F S1x512 .f32) (x7 : Vec F S1x512 .f32) (x8 : Vec F S1x512 .f32) (x9 : Vec F S512x512 .f32) :
    sout0_A_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 = k0_pay13 x0 x2 (k0_pay7 (F := F)) := by
  unfold sout0_A_1
  rw [View.read_writes_eq_canon _ _ _ (scover0_A_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9)]
  unfold kernelRun0_A
  dsimp only
  try sl_unfold_words
  first
    | rw [View.canon_unit_zero hz]
    | rw [View.canon_cons_unit_zero (S := S512x512) hz, View.readCov_unit_zero (S := S512x512) _ hz]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S512x512) hz, View.ld_unit_zero (S := S1x512) hz]

/-- A middle step: the candidate gate's accumulator ends at what it held plus the block product. -/
theorem mid_1 (c : Dev nD) (i : grid0.Coords) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S512x512 .f32) (harg18 : arg18.IsWhole) (arg19 : Memref sig .tc .vmem S512x512 .f32) (harg19 : arg19.IsWhole) (hc0 : ¬cond0_0 i) (hc1 : ¬cond0_1 i)
    (x0 : Vec F S512x512 .bf16) (x1 : Vec F S512x512 .bf16) (x2 : Vec F S512x512 .bf16) (x3 : Vec F S512x512 .bf16) (x4 : Vec F S512x512 .bf16) (x5 : Vec F S1x512 .f32) (x6 : Vec F S1x512 .f32) (x7 : Vec F S1x512 .f32) (x8 : Vec F S1x512 .f32) (x9 : Vec F S512x512 .f32) (xs0 : Vec F S512x512 .f32) (xs1 : Vec F S512x512 .f32) (xs2 : Vec F S512x512 .f32) (xs3 : Vec F S512x512 .f32) :
    sout0_B_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs2 xs3 = k0_pay13 x0 x2 xs1 := by
  unfold sout0_B_1
  rw [View.read_writes_eq_canon _ _ _ (scover0_B_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs2 xs3)]
  unfold kernelRun0_B
  dsimp only
  try sl_unfold_words
  first
    | rw [View.canon_unit_zero hz]
    | rw [View.canon_cons_unit_zero (S := S512x512) hz, View.readCov_unit_zero (S := S512x512) _ hz]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S512x512) hz, View.ld_unit_zero (S := S1x512) hz]

/-- The last step: the candidate gate's accumulator ends at what it held plus the block product. -/
theorem last_1 (c : Dev nD) (i : grid0.Coords) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S512x512 .f32) (harg18 : arg18.IsWhole) (arg19 : Memref sig .tc .vmem S512x512 .f32) (harg19 : arg19.IsWhole) (hc0 : ¬cond0_0 i) (hc1 : cond0_1 i)
    (x0 : Vec F S512x512 .bf16) (x1 : Vec F S512x512 .bf16) (x2 : Vec F S512x512 .bf16) (x3 : Vec F S512x512 .bf16) (x4 : Vec F S512x512 .bf16) (x5 : Vec F S1x512 .f32) (x6 : Vec F S1x512 .f32) (x7 : Vec F S1x512 .f32) (x8 : Vec F S1x512 .f32) (x9 : Vec F S512x512 .f32) (xs0 : Vec F S512x512 .f32) (xs1 : Vec F S512x512 .f32) (xs2 : Vec F S512x512 .f32) (xs3 : Vec F S512x512 .f32) :
    sout0_C_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs2 xs3 = k0_pay13 x0 x2 xs1 := by
  unfold sout0_C_1
  rw [View.read_writes_eq_canon _ _ _ (scover0_C_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs2 xs3)]
  unfold kernelRun0_C
  dsimp only
  try sl_unfold_words
  first
    | rw [View.canon_unit_zero hz]
    | rw [View.canon_cons_unit_zero (S := S512x512) hz, View.readCov_unit_zero (S := S512x512) _ hz]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S512x512) hz, View.ld_unit_zero (S := S1x512) hz]

/-- First step: the input gate's accumulator ends at the zero block plus the block product. -/
theorem first_2 (c : Dev nD) (i : grid0.Coords) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S512x512 .f32) (harg18 : arg18.IsWhole) (arg19 : Memref sig .tc .vmem S512x512 .f32) (harg19 : arg19.IsWhole) (hc0 : cond0_0 i) (hc1 : ¬cond0_1 i)
    (x0 : Vec F S512x512 .bf16) (x1 : Vec F S512x512 .bf16) (x2 : Vec F S512x512 .bf16) (x3 : Vec F S512x512 .bf16) (x4 : Vec F S512x512 .bf16) (x5 : Vec F S1x512 .f32) (x6 : Vec F S1x512 .f32) (x7 : Vec F S1x512 .f32) (x8 : Vec F S1x512 .f32) (x9 : Vec F S512x512 .f32) :
    sout0_A_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 = k0_pay1 (k0_pay14 x0 x3 (k0_pay8 (F := F))) := by
  unfold sout0_A_2
  rw [View.read_writes_eq_canon _ _ _ (scover0_A_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9)]
  unfold kernelRun0_A
  dsimp only
  try sl_unfold_words
  first
    | rw [View.canon_unit_zero hz]
    | rw [View.canon_cons_unit_zero (S := S512x512) hz, View.readCov_unit_zero (S := S512x512) _ hz]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S512x512) hz, View.ld_unit_zero (S := S1x512) hz]

/-- A middle step: the input gate's accumulator ends at what it held plus the block product. -/
theorem mid_2 (c : Dev nD) (i : grid0.Coords) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S512x512 .f32) (harg18 : arg18.IsWhole) (arg19 : Memref sig .tc .vmem S512x512 .f32) (harg19 : arg19.IsWhole) (hc0 : ¬cond0_0 i) (hc1 : ¬cond0_1 i)
    (x0 : Vec F S512x512 .bf16) (x1 : Vec F S512x512 .bf16) (x2 : Vec F S512x512 .bf16) (x3 : Vec F S512x512 .bf16) (x4 : Vec F S512x512 .bf16) (x5 : Vec F S1x512 .f32) (x6 : Vec F S1x512 .f32) (x7 : Vec F S1x512 .f32) (x8 : Vec F S1x512 .f32) (x9 : Vec F S512x512 .f32) (xs0 : Vec F S512x512 .f32) (xs1 : Vec F S512x512 .f32) (xs2 : Vec F S512x512 .f32) (xs3 : Vec F S512x512 .f32) :
    sout0_B_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs2 xs3 = k0_pay1 (k0_pay14 x0 x3 xs2) := by
  unfold sout0_B_2
  rw [View.read_writes_eq_canon _ _ _ (scover0_B_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs2 xs3)]
  unfold kernelRun0_B
  dsimp only
  try sl_unfold_words
  first
    | rw [View.canon_unit_zero hz]
    | rw [View.canon_cons_unit_zero (S := S512x512) hz, View.readCov_unit_zero (S := S512x512) _ hz]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S512x512) hz, View.ld_unit_zero (S := S1x512) hz]

/-- The last step: the input gate's accumulator ends at what it held plus the block product. -/
theorem last_2 (c : Dev nD) (i : grid0.Coords) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S512x512 .f32) (harg18 : arg18.IsWhole) (arg19 : Memref sig .tc .vmem S512x512 .f32) (harg19 : arg19.IsWhole) (hc0 : ¬cond0_0 i) (hc1 : cond0_1 i)
    (x0 : Vec F S512x512 .bf16) (x1 : Vec F S512x512 .bf16) (x2 : Vec F S512x512 .bf16) (x3 : Vec F S512x512 .bf16) (x4 : Vec F S512x512 .bf16) (x5 : Vec F S1x512 .f32) (x6 : Vec F S1x512 .f32) (x7 : Vec F S1x512 .f32) (x8 : Vec F S1x512 .f32) (x9 : Vec F S512x512 .f32) (xs0 : Vec F S512x512 .f32) (xs1 : Vec F S512x512 .f32) (xs2 : Vec F S512x512 .f32) (xs3 : Vec F S512x512 .f32) :
    sout0_C_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs2 xs3 = k0_pay1 (k0_pay14 x0 x3 xs2) := by
  unfold sout0_C_2
  rw [View.read_writes_eq_canon _ _ _ (scover0_C_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs2 xs3)]
  unfold kernelRun0_C
  dsimp only
  try sl_unfold_words
  first
    | rw [View.canon_unit_zero hz]
    | rw [View.canon_cons_unit_zero (S := S512x512) hz, View.readCov_unit_zero (S := S512x512) _ hz]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S512x512) hz, View.ld_unit_zero (S := S1x512) hz]

/-- First step: the output gate's accumulator ends at the zero block plus the block product. -/
theorem first_3 (c : Dev nD) (i : grid0.Coords) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S512x512 .f32) (harg18 : arg18.IsWhole) (arg19 : Memref sig .tc .vmem S512x512 .f32) (harg19 : arg19.IsWhole) (hc0 : cond0_0 i) (hc1 : ¬cond0_1 i)
    (x0 : Vec F S512x512 .bf16) (x1 : Vec F S512x512 .bf16) (x2 : Vec F S512x512 .bf16) (x3 : Vec F S512x512 .bf16) (x4 : Vec F S512x512 .bf16) (x5 : Vec F S1x512 .f32) (x6 : Vec F S1x512 .f32) (x7 : Vec F S1x512 .f32) (x8 : Vec F S1x512 .f32) (x9 : Vec F S512x512 .f32) :
    sout0_A_3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 = k0_pay2 (k0_pay10 x0) (k0_pay11 x4) (k0_pay9 (F := F)) := by
  unfold sout0_A_3
  rw [View.read_writes_eq_canon _ _ _ (scover0_A_3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9)]
  unfold kernelRun0_A
  dsimp only
  try sl_unfold_words
  first
    | rw [View.canon_unit_zero hz]
    | rw [View.canon_cons_unit_zero (S := S512x512) hz, View.readCov_unit_zero (S := S512x512) _ hz]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S512x512) hz, View.ld_unit_zero (S := S1x512) hz]

/-- A middle step: the output gate's accumulator ends at what it held plus the block product. -/
theorem mid_3 (c : Dev nD) (i : grid0.Coords) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S512x512 .f32) (harg18 : arg18.IsWhole) (arg19 : Memref sig .tc .vmem S512x512 .f32) (harg19 : arg19.IsWhole) (hc0 : ¬cond0_0 i) (hc1 : ¬cond0_1 i)
    (x0 : Vec F S512x512 .bf16) (x1 : Vec F S512x512 .bf16) (x2 : Vec F S512x512 .bf16) (x3 : Vec F S512x512 .bf16) (x4 : Vec F S512x512 .bf16) (x5 : Vec F S1x512 .f32) (x6 : Vec F S1x512 .f32) (x7 : Vec F S1x512 .f32) (x8 : Vec F S1x512 .f32) (x9 : Vec F S512x512 .f32) (xs0 : Vec F S512x512 .f32) (xs1 : Vec F S512x512 .f32) (xs2 : Vec F S512x512 .f32) (xs3 : Vec F S512x512 .f32) :
    sout0_B_3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs2 xs3 = k0_pay2 (k0_pay10 x0) (k0_pay11 x4) xs3 := by
  unfold sout0_B_3
  rw [View.read_writes_eq_canon _ _ _ (scover0_B_3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs2 xs3)]
  unfold kernelRun0_B
  dsimp only
  try sl_unfold_words
  first
    | rw [View.canon_unit_zero hz]
    | rw [View.canon_cons_unit_zero (S := S512x512) hz, View.readCov_unit_zero (S := S512x512) _ hz]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S512x512) hz, View.ld_unit_zero (S := S1x512) hz]

/-- The last step: the output gate's accumulator ends at what it held plus the block product. -/
theorem last_3 (c : Dev nD) (i : grid0.Coords) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S512x512 .f32) (harg18 : arg18.IsWhole) (arg19 : Memref sig .tc .vmem S512x512 .f32) (harg19 : arg19.IsWhole) (hc0 : ¬cond0_0 i) (hc1 : cond0_1 i)
    (x0 : Vec F S512x512 .bf16) (x1 : Vec F S512x512 .bf16) (x2 : Vec F S512x512 .bf16) (x3 : Vec F S512x512 .bf16) (x4 : Vec F S512x512 .bf16) (x5 : Vec F S1x512 .f32) (x6 : Vec F S1x512 .f32) (x7 : Vec F S1x512 .f32) (x8 : Vec F S1x512 .f32) (x9 : Vec F S512x512 .f32) (xs0 : Vec F S512x512 .f32) (xs1 : Vec F S512x512 .f32) (xs2 : Vec F S512x512 .f32) (xs3 : Vec F S512x512 .f32) :
    sout0_C_3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs2 xs3 = k0_pay2 (k0_pay10 x0) (k0_pay11 x4) xs3 := by
  unfold sout0_C_3
  rw [View.read_writes_eq_canon _ _ _ (scover0_C_3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs2 xs3)]
  unfold kernelRun0_C
  dsimp only
  try sl_unfold_words
  first
    | rw [View.canon_unit_zero hz]
    | rw [View.canon_cons_unit_zero (S := S512x512) hz, View.readCov_unit_zero (S := S512x512) _ hz]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S512x512) hz, View.ld_unit_zero (S := S1x512) hz]

/-- The last step's first result (the output gate): the logistic of the finished output accumulator plus its bias row. -/
theorem last_out (c : Dev nD) (i : grid0.Coords) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S512x512 .f32) (harg18 : arg18.IsWhole) (arg19 : Memref sig .tc .vmem S512x512 .f32) (harg19 : arg19.IsWhole) (hc0 : ¬cond0_0 i) (hc1 : cond0_1 i)
    (x0 : Vec F S512x512 .bf16) (x1 : Vec F S512x512 .bf16) (x2 : Vec F S512x512 .bf16) (x3 : Vec F S512x512 .bf16) (x4 : Vec F S512x512 .bf16) (x5 : Vec F S1x512 .f32) (x6 : Vec F S1x512 .f32) (x7 : Vec F S1x512 .f32) (x8 : Vec F S1x512 .f32) (x9 : Vec F S512x512 .f32) (xs0 : Vec F S512x512 .f32) (xs1 : Vec F S512x512 .f32) (xs2 : Vec F S512x512 .f32) (xs3 : Vec F S512x512 .f32) :
    out0_C_10 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs2 xs3 = k0_pay4 (k0_pay2 (k0_pay10 x0) (k0_pay11 x4) xs3) x8 := by
  unfold out0_C_10
  rw [View.read_writes_eq_canon _ _ _ (cover0_C_10 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs2 xs3)]
  unfold kernelRun0_C
  dsimp only
  try sl_unfold_words
  first
    | rw [View.canon_unit_zero hz]
    | rw [View.canon_cons_unit_zero (S := S512x512) hz, View.readCov_unit_zero (S := S512x512) _ hz]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S512x512) hz, View.ld_unit_zero (S := S1x512) hz]
  simp only [View.readCov_unit_zero (S := S512x512) _ hz]

/-- The last step's second result (the new hidden state), from the four finished accumulators, the bias rows and the old cell block. -/
theorem last_hidden (c : Dev nD) (i : grid0.Coords) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S512x512 .f32) (harg18 : arg18.IsWhole) (arg19 : Memref sig .tc .vmem S512x512 .f32) (harg19 : arg19.IsWhole) (hc0 : ¬cond0_0 i) (hc1 : cond0_1 i)
    (x0 : Vec F S512x512 .bf16) (x1 : Vec F S512x512 .bf16) (x2 : Vec F S512x512 .bf16) (x3 : Vec F S512x512 .bf16) (x4 : Vec F S512x512 .bf16) (x5 : Vec F S1x512 .f32) (x6 : Vec F S1x512 .f32) (x7 : Vec F S1x512 .f32) (x8 : Vec F S1x512 .f32) (x9 : Vec F S512x512 .f32) (xs0 : Vec F S512x512 .f32) (xs1 : Vec F S512x512 .f32) (xs2 : Vec F S512x512 .f32) (xs3 : Vec F S512x512 .f32) :
    out0_C_11 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs2 xs3 = k0_pay5 (k0_pay12 x0 x1 xs0) x5 (k0_pay13 x0 x2 xs1) x6 (k0_pay1 (k0_pay14 x0 x3 xs2)) x7 (k0_pay2 (k0_pay10 x0) (k0_pay11 x4) xs3) x8 x9 := by
  unfold out0_C_11
  rw [View.read_writes_eq_canon _ _ _ (cover0_C_11 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs2 xs3)]
  unfold kernelRun0_C
  dsimp only
  try sl_unfold_words
  first
    | rw [View.canon_unit_zero hz]
    | rw [View.canon_cons_unit_zero (S := S512x512) hz, View.readCov_unit_zero (S := S512x512) _ hz]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S512x512) hz, View.ld_unit_zero (S := S1x512) hz]
  simp only [View.readCov_unit_zero (S := S512x512) _ hz]

/-- The last step's third result (the new cell state), from the forget, candidate and input accumulators, their bias rows and the old cell block. -/
theorem last_cell (c : Dev nD) (i : grid0.Coords) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S512x512 .f32) (harg18 : arg18.IsWhole) (arg19 : Memref sig .tc .vmem S512x512 .f32) (harg19 : arg19.IsWhole) (hc0 : ¬cond0_0 i) (hc1 : cond0_1 i)
    (x0 : Vec F S512x512 .bf16) (x1 : Vec F S512x512 .bf16) (x2 : Vec F S512x512 .bf16) (x3 : Vec F S512x512 .bf16) (x4 : Vec F S512x512 .bf16) (x5 : Vec F S1x512 .f32) (x6 : Vec F S1x512 .f32) (x7 : Vec F S1x512 .f32) (x8 : Vec F S1x512 .f32) (x9 : Vec F S512x512 .f32) (xs0 : Vec F S512x512 .f32) (xs1 : Vec F S512x512 .f32) (xs2 : Vec F S512x512 .f32) (xs3 : Vec F S512x512 .f32) :
    out0_C_12 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs2 xs3 = k0_pay3 (k0_pay12 x0 x1 xs0) x5 (k0_pay13 x0 x2 xs1) x6 (k0_pay1 (k0_pay14 x0 x3 xs2)) x7 x9 := by
  unfold out0_C_12
  rw [View.read_writes_eq_canon _ _ _ (cover0_C_12 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs2 xs3)]
  unfold kernelRun0_C
  dsimp only
  try sl_unfold_words
  first
    | rw [View.canon_unit_zero hz]
    | rw [View.canon_cons_unit_zero (S := S512x512) hz, View.readCov_unit_zero (S := S512x512) _ hz]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S512x512) hz, View.ld_unit_zero (S := S1x512) hz]
  simp only [View.readCov_unit_zero (S := S512x512) _ hz]

end Cert.KernelIdeal.Pieces

end
-- ==== Proof.LibBlockSum.lean ====
/-
  Regrouping a long sum into consecutive blocks.

  A sum over `a * b` consecutive indices is the sum, over the `a` blocks, of the sum over the `b`
  indices inside each block: index `k` of the long sum is `j + b * i` for block `i` and offset `j`.
  Only commutativity and associativity of addition are used, so the law holds in every commutative
  additive monoid — in particular on the extended reals, infinities included.
-/
import Idealize.ShloMosaic.PureOps.Ideal

namespace Cert.BlockSum

open BigOperators

/-- The sum over `Fin (a * b)` split into `a` blocks of `b` consecutive terms. -/
theorem sum_blocks {M : Type*} [AddCommMonoid M] (a b : ℕ) (f : Fin (a * b) → M) :
    ∑ k : Fin (a * b), f k = ∑ i : Fin a, ∑ j : Fin b, f (finProdFinEquiv (i, j)) := by
  rw [← finProdFinEquiv.sum_comp, Fintype.sum_prod_type]

/-- The position of offset `j` of block `i` in the long sum. -/
theorem block_index_val (a b : ℕ) (i : Fin a) (j : Fin b) :
    (finProdFinEquiv (i, j) : Fin (a * b)).val = j.val + b * i.val := rfl

/-- The same law for a function of the natural position: the long sum runs over positions `0 … a·b − 1`, block `s`
    holds positions `b·s … b·s + b − 1`, and the blocks are counted by `Finset.range a`. -/
theorem sum_range_blocks {M : Type*} [AddCommMonoid M] (a b : ℕ) (f : ℕ → M) :
    ∑ k : Fin (a * b), f k.val = ∑ s ∈ Finset.range a, ∑ j : Fin b, f (b * s + j.val) := by
  rw [Finset.sum_range, sum_blocks a b (fun k => f k.val)]
  refine Finset.sum_congr rfl fun i _ => Finset.sum_congr rfl fun j _ => ?_
  rw [block_index_val, Nat.add_comm]

/-- 4096 terms as 8 blocks of 512. -/
theorem sum_4096 {M : Type*} [AddCommMonoid M] (f : ℕ → M) :
    ∑ k : Fin 4096, f k.val = ∑ s ∈ Finset.range 8, ∑ j : Fin 512, f (512 * s + j.val) :=
  sum_range_blocks 8 512 f

end Cert.BlockSum
-- ==== Proof.Accum.lean ====
/-
  The four accumulators as partial sums over the reduction axis.

  A [512, 512] block of the summed inputs times a [512, 512] block of a gate's weights is, at row `p` and
  column `q`, the inner product over the block's 512 features (`blockProd`): the matrix unit's product into a
  zero accumulator is exactly that sum on the extended reals. One step of the kernel adds this product to what
  the gate's accumulator held; the first step of a run of eight starts from the zero block.

  The grid's points are numbered so that eight consecutive points `8u … 8u + 7` sweep the reduction axis for one
  output block. The generated value leg states what an accumulator holds after any point as the fold of the
  per-point step from the run's first point; here that fold is unrolled: after point `t` the accumulator holds,
  at each position, zero plus the sum of the block products of the points `8·(t / 8) … t`.
-/
import proofs.«111009_j37924561224179_2_alg».proof.Proof.Gen.KernelIdeal.Value
import proofs.«111009_j37924561224179_2_alg».proof.Proof.Pieces
import proofs.«111009_j37924561224179_2_alg».proof.Proof.LibBlockSum
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.TcCoe Idealize.SL.Sem Idealize.ShloMosaic.ValueIdx

namespace Cert.KernelIdeal.Accum

open Cert.KernelIdeal Cert.KernelIdeal.Gen

/-- The product of a [512, 512] block of the summed inputs with a [512, 512] block of a gate's weights,
    at row `p` and column `q` of the block: the inner product over the block's 512 features. -/
def blockProd (a b : Vec Ideal S512x512 .bf16) (p q : Fin 512) : EReal :=
  ∑ kk : Fin 512, a (ix2 p kk) * b (ix2 kk q)

theorem lhs_row (i : S512x512.Idx) (u : dot_S512x512_S512x512_S512x512_1_0_0_1_n_n.contr.Idx) : (dot_S512x512_S512x512_S512x512_1_0_0_1_n_n.lhsIdx i u 0).val = (i 0).val := by
  unfold DotDims.lhsIdx
  rw [dif_neg (show ¬(0 : Fin S512x512.rank) ∈ dot_S512x512_S512x512_S512x512_1_0_0_1_n_n.lhsBatch by decide), dif_pos (show (0 : Fin S512x512.rank) ∈ dot_S512x512_S512x512_S512x512_1_0_0_1_n_n.lhsNonContracting by decide)]
  rfl
theorem lhs_feature (i : S512x512.Idx) (u : dot_S512x512_S512x512_S512x512_1_0_0_1_n_n.contr.Idx) : (dot_S512x512_S512x512_S512x512_1_0_0_1_n_n.lhsIdx i u 1).val = (u ⟨0, by decide⟩).val :=
  dot_S512x512_S512x512_S512x512_1_0_0_1_n_n.lhsIdx_val_of_single rfl i u
theorem rhs_feature (i : S512x512.Idx) (u : dot_S512x512_S512x512_S512x512_1_0_0_1_n_n.contr.Idx) : (dot_S512x512_S512x512_S512x512_1_0_0_1_n_n.rhsIdx i u 0).val = (u ⟨0, by decide⟩).val :=
  dot_S512x512_S512x512_S512x512_1_0_0_1_n_n.rhsIdx_val_of_single rfl i u
theorem rhs_col (i : S512x512.Idx) (u : dot_S512x512_S512x512_S512x512_1_0_0_1_n_n.contr.Idx) : (dot_S512x512_S512x512_S512x512_1_0_0_1_n_n.rhsIdx i u 1).val = (i 1).val := by
  unfold DotDims.rhsIdx
  rw [dif_neg (show ¬(1 : Fin S512x512.rank) ∈ dot_S512x512_S512x512_S512x512_1_0_0_1_n_n.rhsBatch by decide), dif_pos (show (1 : Fin S512x512.rank) ∈ dot_S512x512_S512x512_S512x512_1_0_0_1_n_n.rhsNonContracting by decide)]
  rfl

/-- The matrix unit's product into a zero accumulator, at row `p` and column `q`, is the block product there. -/
theorem matmul_zero_at (a b : FVec Ideal S512x512 .bf16) (p q : Fin 512) :
    FloatOps.matmul dot_S512x512_S512x512_S512x512_1_0_0_1_n_n none a b (constant S512x512 .f32 0x00000000#32) (ix2 p q) = blockProd a b p q := by
  unfold blockProd
  rw [Ideal.matmul_constant_zero_apply, ← Equiv.sum_comp (contrEquiv1 dot_S512x512_S512x512_S512x512_1_0_0_1_n_n 512 rfl rfl).symm]
  refine Finset.sum_congr rfl fun k _ => ?_
  have hk := contrEquiv1_symm_val dot_S512x512_S512x512_S512x512_1_0_0_1_n_n 512 rfl rfl k
  have el : dot_S512x512_S512x512_S512x512_1_0_0_1_n_n.lhsIdx (ix2 p q) ((contrEquiv1 dot_S512x512_S512x512_S512x512_1_0_0_1_n_n 512 rfl rfl).symm k) = ix2 p k := funext fun a => Fin.ext (by
    match a with
    | ⟨0, _⟩ => exact lhs_row _ _
    | ⟨1, _⟩ => exact (lhs_feature _ _).trans hk)
  have er : dot_S512x512_S512x512_S512x512_1_0_0_1_n_n.rhsIdx (ix2 p q) ((contrEquiv1 dot_S512x512_S512x512_S512x512_1_0_0_1_n_n 512 rfl rfl).symm k) = ix2 k q := funext fun a => Fin.ext (by
    match a with
    | ⟨0, _⟩ => exact (rhs_feature _ _).trans hk
    | ⟨1, _⟩ => exact rhs_col _ _)
  rw [el, er]

/-- One accumulation step of the forget gate, at row `p` and column `q`: what the accumulator held plus the block product. -/
theorem step_0_at (a b : Vec Ideal S512x512 .bf16) (s : Vec Ideal S512x512 .f32) (p q : Fin 512) :
    k0_pay12 (F := Ideal) a b s (ix2 p q) = s (ix2 p q) + blockProd a b p q := by
  unfold k0_pay12 k0_pay10
  simp only [shapeCast_self]
  show s (ix2 p q) + FloatOps.matmul (F := Ideal) dot_S512x512_S512x512_S512x512_1_0_0_1_n_n none a b (constant (F := Ideal) S512x512 .f32 0x00000000#32) (ix2 p q) = _
  rw [matmul_zero_at]

/-- The block the first step stores into the forget gate's accumulator before accumulating is zero everywhere. -/
theorem zero_0_at (y : S512x512.Idx) : k0_pay6 (F := Ideal) y = 0 := by
  unfold k0_pay6
  simp only [shapeCast_self, broadcast_apply]
  exact Ideal.ofBits_zero_f32

/-- One accumulation step of the candidate gate, at row `p` and column `q`: what the accumulator held plus the block product. -/
theorem step_1_at (a b : Vec Ideal S512x512 .bf16) (s : Vec Ideal S512x512 .f32) (p q : Fin 512) :
    k0_pay13 (F := Ideal) a b s (ix2 p q) = s (ix2 p q) + blockProd a b p q := by
  unfold k0_pay13 k0_pay10
  simp only [shapeCast_self]
  show s (ix2 p q) + FloatOps.matmul (F := Ideal) dot_S512x512_S512x512_S512x512_1_0_0_1_n_n none a b (constant (F := Ideal) S512x512 .f32 0x00000000#32) (ix2 p q) = _
  rw [matmul_zero_at]

/-- The block the first step stores into the candidate gate's accumulator before accumulating is zero everywhere. -/
theorem zero_1_at (y : S512x512.Idx) : k0_pay7 (F := Ideal) y = 0 := by
  unfold k0_pay7
  simp only [shapeCast_self, broadcast_apply]
  exact Ideal.ofBits_zero_f32

/-- One accumulation step of the input gate, at row `p` and column `q`: what the accumulator held plus the block product. -/
theorem step_2_at (a b : Vec Ideal S512x512 .bf16) (s : Vec Ideal S512x512 .f32) (p q : Fin 512) :
    k0_pay1 (F := Ideal) (k0_pay14 a b s) (ix2 p q) = s (ix2 p q) + blockProd a b p q := by
  unfold k0_pay1 k0_pay14 k0_pay10
  simp only [shapeCast_self]
  show s (ix2 p q) + FloatOps.matmul (F := Ideal) dot_S512x512_S512x512_S512x512_1_0_0_1_n_n none a b (constant (F := Ideal) S512x512 .f32 0x00000000#32) (ix2 p q) = _
  rw [matmul_zero_at]

/-- The block the first step stores into the input gate's accumulator before accumulating is zero everywhere. -/
theorem zero_2_at (y : S512x512.Idx) : k0_pay8 (F := Ideal) y = 0 := by
  unfold k0_pay8
  simp only [shapeCast_self, broadcast_apply]
  exact Ideal.ofBits_zero_f32

/-- One accumulation step of the output gate, at row `p` and column `q`: what the accumulator held plus the block product. -/
theorem step_3_at (a b : Vec Ideal S512x512 .bf16) (s : Vec Ideal S512x512 .f32) (p q : Fin 512) :
    k0_pay2 (F := Ideal) (k0_pay10 a) (k0_pay11 b) s (ix2 p q) = s (ix2 p q) + blockProd a b p q := by
  unfold k0_pay2 k0_pay10 k0_pay11
  simp only [shapeCast_self]
  show s (ix2 p q) + FloatOps.matmul (F := Ideal) dot_S512x512_S512x512_S512x512_1_0_0_1_n_n none a b (constant (F := Ideal) S512x512 .f32 0x00000000#32) (ix2 p q) = _
  rw [matmul_zero_at]

/-- The block the first step stores into the output gate's accumulator before accumulating is zero everywhere. -/
theorem zero_3_at (y : S512x512.Idx) : k0_pay9 (F := Ideal) y = 0 := by
  unfold k0_pay9
  simp only [shapeCast_self, broadcast_apply]
  exact Ideal.ofBits_zero_f32

/-- The row and the column of a position in a [512, 512] block. -/
def row (y : S512x512.Idx) : Fin 512 := y 0
def col (y : S512x512.Idx) : Fin 512 := y 1
theorem row_ix2 (p q : Fin 512) : row (ix2 p q) = p := rfl
theorem col_ix2 (p q : Fin 512) : col (ix2 p q) = q := rfl

variable (m : (ℓ : Loc nD τ sig) → Buf (Elt Ideal) ℓ)

/-- What grid point `n` adds to the forget gate's accumulator: the product of the point's block of the summed
    inputs with its block of the gate's weights (zero for a number past the grid, which is never used). -/
def addend_0 (c : Dev nD) (n : ℕ) (y : S512x512.Idx) : EReal :=
  if h : n < cfg0.N then blockProd (iblk m c 0 ⟨n, h⟩) (iblk m c 1 ⟨n, h⟩) (row y) (col y) else 0

theorem addend_0_at (c : Dev nD) (n : ℕ) (h : n < cfg0.N) (p q : Fin 512) :
    addend_0 m c n (ix2 p q) = blockProd (iblk m c 0 ⟨n, h⟩) (iblk m c 1 ⟨n, h⟩) p q := by
  unfold addend_0
  rw [dif_pos h, row_ix2, col_ix2]

/-- At the first point of a run of eight the forget gate's accumulator ends at zero plus the point's addend. -/
theorem first_point_0 (c : Dev nD) (b : ℕ) (hb8 : b % 8 = 0) (h : b < cfg0.N) (i : S512x512.Idx) :
    Value.scAt0_0 m c b h (VS0_0.read (Elt Ideal) VS0_0.junk) i = 0 + addend_0 m c b i := by
  obtain ⟨p, q, rfl⟩ : ∃ (p q : Fin 512), i = ix2 p q := ⟨i 0, i 1, eq_ix2 i⟩
  have h1 : ¬ b % 8 = 7 := by omega
  unfold Value.scAt0_0
  rw [dif_pos hb8, dif_neg h1]
  refine (congrFun (Pieces.first_0 (F := Ideal) c (grid0.coords (⟨b, h⟩ : Fin cfg0.N)) (ms0_0 (⟨b, h⟩ : Fin cfg0.N)) (hs0_0 (⟨b, h⟩ : Fin cfg0.N)) (ms0_1 (⟨b, h⟩ : Fin cfg0.N)) (hs0_1 (⟨b, h⟩ : Fin cfg0.N)) (ms0_2 (⟨b, h⟩ : Fin cfg0.N)) (hs0_2 (⟨b, h⟩ : Fin cfg0.N)) (ms0_3 (⟨b, h⟩ : Fin cfg0.N)) (hs0_3 (⟨b, h⟩ : Fin cfg0.N)) (ms0_4 (⟨b, h⟩ : Fin cfg0.N)) (hs0_4 (⟨b, h⟩ : Fin cfg0.N)) (ms0_5 (⟨b, h⟩ : Fin cfg0.N)) (hs0_5 (⟨b, h⟩ : Fin cfg0.N)) (ms0_6 (⟨b, h⟩ : Fin cfg0.N)) (hs0_6 (⟨b, h⟩ : Fin cfg0.N)) (ms0_7 (⟨b, h⟩ : Fin cfg0.N)) (hs0_7 (⟨b, h⟩ : Fin cfg0.N)) (ms0_8 (⟨b, h⟩ : Fin cfg0.N)) (hs0_8 (⟨b, h⟩ : Fin cfg0.N)) (ms0_9 (⟨b, h⟩ : Fin cfg0.N)) (hs0_9 (⟨b, h⟩ : Fin cfg0.N)) (ms0_10 (⟨b, h⟩ : Fin cfg0.N)) (hs0_10 (⟨b, h⟩ : Fin cfg0.N)) (ms0_11 (⟨b, h⟩ : Fin cfg0.N)) (hs0_11 (⟨b, h⟩ : Fin cfg0.N)) (ms0_12 (⟨b, h⟩ : Fin cfg0.N)) (hs0_12 (⟨b, h⟩ : Fin cfg0.N)) scM0_0 (Memref.isWhole_whole _) scM0_1 (Memref.isWhole_whole _) scM0_2 (Memref.isWhole_whole _) scM0_3 (Memref.isWhole_whole _) _ _ (iblk m c 0 (⟨b, h⟩ : Fin cfg0.N)) (iblk m c 1 (⟨b, h⟩ : Fin cfg0.N)) (iblk m c 2 (⟨b, h⟩ : Fin cfg0.N)) (iblk m c 3 (⟨b, h⟩ : Fin cfg0.N)) (iblk m c 4 (⟨b, h⟩ : Fin cfg0.N)) (iblk m c 5 (⟨b, h⟩ : Fin cfg0.N)) (iblk m c 6 (⟨b, h⟩ : Fin cfg0.N)) (iblk m c 7 (⟨b, h⟩ : Fin cfg0.N)) (iblk m c 8 (⟨b, h⟩ : Fin cfg0.N)) (iblk m c 9 (⟨b, h⟩ : Fin cfg0.N))) (ix2 p q)).trans ?_
  refine (step_0_at (iblk m c 0 (⟨b, h⟩ : Fin cfg0.N)) (iblk m c 1 (⟨b, h⟩ : Fin cfg0.N)) (k0_pay6 (F := Ideal)) p q).trans ?_
  rw [zero_0_at (ix2 p q), addend_0_at m c b h p q]

/-- At every later point of the run it ends at what the point before left plus the point's addend. -/
theorem later_point_0 (c : Dev nD) (b : ℕ) (hb8 : b % 8 = 0) (n : ℕ) (h : n < cfg0.N) (acc : Vec Ideal S512x512 .f32)
    (i : S512x512.Idx) (hlo : b < n) (hhi : n ≤ b + 7) :
    Value.scAt0_0 m c n h acc i = acc i + addend_0 m c n i := by
  obtain ⟨p, q, rfl⟩ : ∃ (p q : Fin 512), i = ix2 p q := ⟨i 0, i 1, eq_ix2 i⟩
  have h0 : ¬ n % 8 = 0 := by omega
  by_cases h1 : n % 8 = 7
  · unfold Value.scAt0_0
    rw [dif_neg h0, dif_pos h1]
    refine (congrFun (Pieces.last_0 (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) (ms0_6 (⟨n, h⟩ : Fin cfg0.N)) (hs0_6 (⟨n, h⟩ : Fin cfg0.N)) (ms0_7 (⟨n, h⟩ : Fin cfg0.N)) (hs0_7 (⟨n, h⟩ : Fin cfg0.N)) (ms0_8 (⟨n, h⟩ : Fin cfg0.N)) (hs0_8 (⟨n, h⟩ : Fin cfg0.N)) (ms0_9 (⟨n, h⟩ : Fin cfg0.N)) (hs0_9 (⟨n, h⟩ : Fin cfg0.N)) (ms0_10 (⟨n, h⟩ : Fin cfg0.N)) (hs0_10 (⟨n, h⟩ : Fin cfg0.N)) (ms0_11 (⟨n, h⟩ : Fin cfg0.N)) (hs0_11 (⟨n, h⟩ : Fin cfg0.N)) (ms0_12 (⟨n, h⟩ : Fin cfg0.N)) (hs0_12 (⟨n, h⟩ : Fin cfg0.N)) scM0_0 (Memref.isWhole_whole _) scM0_1 (Memref.isWhole_whole _) scM0_2 (Memref.isWhole_whole _) scM0_3 (Memref.isWhole_whole _) _ _ (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (iblk m c 4 (⟨n, h⟩ : Fin cfg0.N)) (iblk m c 5 (⟨n, h⟩ : Fin cfg0.N)) (iblk m c 6 (⟨n, h⟩ : Fin cfg0.N)) (iblk m c 7 (⟨n, h⟩ : Fin cfg0.N)) (iblk m c 8 (⟨n, h⟩ : Fin cfg0.N)) (iblk m c 9 (⟨n, h⟩ : Fin cfg0.N)) acc _ _ _) (ix2 p q)).trans ?_
    refine (step_0_at (iblk m c 0 (⟨n, h⟩ : Fin cfg0.N)) (iblk m c 1 (⟨n, h⟩ : Fin cfg0.N)) acc p q).trans ?_
    rw [addend_0_at m c n h p q]
  · unfold Value.scAt0_0
    rw [dif_neg h0, dif_neg h1]
    refine (congrFun (Pieces.mid_0 (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) (ms0_6 (⟨n, h⟩ : Fin cfg0.N)) (hs0_6 (⟨n, h⟩ : Fin cfg0.N)) (ms0_7 (⟨n, h⟩ : Fin cfg0.N)) (hs0_7 (⟨n, h⟩ : Fin cfg0.N)) (ms0_8 (⟨n, h⟩ : Fin cfg0.N)) (hs0_8 (⟨n, h⟩ : Fin cfg0.N)) (ms0_9 (⟨n, h⟩ : Fin cfg0.N)) (hs0_9 (⟨n, h⟩ : Fin cfg0.N)) (ms0_10 (⟨n, h⟩ : Fin cfg0.N)) (hs0_10 (⟨n, h⟩ : Fin cfg0.N)) (ms0_11 (⟨n, h⟩ : Fin cfg0.N)) (hs0_11 (⟨n, h⟩ : Fin cfg0.N)) (ms0_12 (⟨n, h⟩ : Fin cfg0.N)) (hs0_12 (⟨n, h⟩ : Fin cfg0.N)) scM0_0 (Memref.isWhole_whole _) scM0_1 (Memref.isWhole_whole _) scM0_2 (Memref.isWhole_whole _) scM0_3 (Memref.isWhole_whole _) _ _ (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (iblk m c 4 (⟨n, h⟩ : Fin cfg0.N)) (iblk m c 5 (⟨n, h⟩ : Fin cfg0.N)) (iblk m c 6 (⟨n, h⟩ : Fin cfg0.N)) (iblk m c 7 (⟨n, h⟩ : Fin cfg0.N)) (iblk m c 8 (⟨n, h⟩ : Fin cfg0.N)) (iblk m c 9 (⟨n, h⟩ : Fin cfg0.N)) acc _ _ _) (ix2 p q)).trans ?_
    refine (step_0_at (iblk m c 0 (⟨n, h⟩ : Fin cfg0.N)) (iblk m c 1 (⟨n, h⟩ : Fin cfg0.N)) acc p q).trans ?_
    rw [addend_0_at m c n h p q]

/-- After point `t` the forget gate's accumulator holds, at row `p` and column `q`, zero plus the addends of the
    points of `t`'s run of eight up to `t`. -/
theorem acc_0_at (c : Dev nD) (t : Fin cfg0.N) (p q : Fin 512) :
    (outsAt0 m c t.val t.isLt).2.2.2.1 (ix2 p q)
      = 0 + ∑ s ∈ Finset.range (t.val % 8 + 1), addend_0 m c (8 * (t.val / 8) + s) (ix2 p q) := by
  rw [Value.soutsAt0_0_eq m c t]
  exact Pipeline.accAt_add_apply (fun n h => Value.scAt0_0 m c n h (VS0_0.read (Elt Ideal) VS0_0.junk)) (Value.scAt0_0 m c)
    (fun _ => 0) (addend_0 m c) (8 * (t.val / 8)) 7
    (fun h i => first_point_0 m c _ (Nat.mul_mod_right 8 _) h i)
    (fun n h acc i hlo hhi => later_point_0 m c _ (Nat.mul_mod_right 8 _) n h acc i hlo hhi)
    (t.val % 8) (by omega) _ (ix2 p q)

/-- What grid point `n` adds to the candidate gate's accumulator: the product of the point's block of the summed
    inputs with its block of the gate's weights (zero for a number past the grid, which is never used). -/
def addend_1 (c : Dev nD) (n : ℕ) (y : S512x512.Idx) : EReal :=
  if h : n < cfg0.N then blockProd (iblk m c 0 ⟨n, h⟩) (iblk m c 2 ⟨n, h⟩) (row y) (col y) else 0

theorem addend_1_at (c : Dev nD) (n : ℕ) (h : n < cfg0.N) (p q : Fin 512) :
    addend_1 m c n (ix2 p q) = blockProd (iblk m c 0 ⟨n, h⟩) (iblk m c 2 ⟨n, h⟩) p q := by
  unfold addend_1
  rw [dif_pos h, row_ix2, col_ix2]

/-- At the first point of a run of eight the candidate gate's accumulator ends at zero plus the point's addend. -/
theorem first_point_1 (c : Dev nD) (b : ℕ) (hb8 : b % 8 = 0) (h : b < cfg0.N) (i : S512x512.Idx) :
    Value.scAt0_1 m c b h (VS0_1.read (Elt Ideal) VS0_1.junk) i = 0 + addend_1 m c b i := by
  obtain ⟨p, q, rfl⟩ : ∃ (p q : Fin 512), i = ix2 p q := ⟨i 0, i 1, eq_ix2 i⟩
  have h1 : ¬ b % 8 = 7 := by omega
  unfold Value.scAt0_1
  rw [dif_pos hb8, dif_neg h1]
  refine (congrFun (Pieces.first_1 (F := Ideal) c (grid0.coords (⟨b, h⟩ : Fin cfg0.N)) (ms0_0 (⟨b, h⟩ : Fin cfg0.N)) (hs0_0 (⟨b, h⟩ : Fin cfg0.N)) (ms0_1 (⟨b, h⟩ : Fin cfg0.N)) (hs0_1 (⟨b, h⟩ : Fin cfg0.N)) (ms0_2 (⟨b, h⟩ : Fin cfg0.N)) (hs0_2 (⟨b, h⟩ : Fin cfg0.N)) (ms0_3 (⟨b, h⟩ : Fin cfg0.N)) (hs0_3 (⟨b, h⟩ : Fin cfg0.N)) (ms0_4 (⟨b, h⟩ : Fin cfg0.N)) (hs0_4 (⟨b, h⟩ : Fin cfg0.N)) (ms0_5 (⟨b, h⟩ : Fin cfg0.N)) (hs0_5 (⟨b, h⟩ : Fin cfg0.N)) (ms0_6 (⟨b, h⟩ : Fin cfg0.N)) (hs0_6 (⟨b, h⟩ : Fin cfg0.N)) (ms0_7 (⟨b, h⟩ : Fin cfg0.N)) (hs0_7 (⟨b, h⟩ : Fin cfg0.N)) (ms0_8 (⟨b, h⟩ : Fin cfg0.N)) (hs0_8 (⟨b, h⟩ : Fin cfg0.N)) (ms0_9 (⟨b, h⟩ : Fin cfg0.N)) (hs0_9 (⟨b, h⟩ : Fin cfg0.N)) (ms0_10 (⟨b, h⟩ : Fin cfg0.N)) (hs0_10 (⟨b, h⟩ : Fin cfg0.N)) (ms0_11 (⟨b, h⟩ : Fin cfg0.N)) (hs0_11 (⟨b, h⟩ : Fin cfg0.N)) (ms0_12 (⟨b, h⟩ : Fin cfg0.N)) (hs0_12 (⟨b, h⟩ : Fin cfg0.N)) scM0_0 (Memref.isWhole_whole _) scM0_1 (Memref.isWhole_whole _) scM0_2 (Memref.isWhole_whole _) scM0_3 (Memref.isWhole_whole _) _ _ (iblk m c 0 (⟨b, h⟩ : Fin cfg0.N)) (iblk m c 1 (⟨b, h⟩ : Fin cfg0.N)) (iblk m c 2 (⟨b, h⟩ : Fin cfg0.N)) (iblk m c 3 (⟨b, h⟩ : Fin cfg0.N)) (iblk m c 4 (⟨b, h⟩ : Fin cfg0.N)) (iblk m c 5 (⟨b, h⟩ : Fin cfg0.N)) (iblk m c 6 (⟨b, h⟩ : Fin cfg0.N)) (iblk m c 7 (⟨b, h⟩ : Fin cfg0.N)) (iblk m c 8 (⟨b, h⟩ : Fin cfg0.N)) (iblk m c 9 (⟨b, h⟩ : Fin cfg0.N))) (ix2 p q)).trans ?_
  refine (step_1_at (iblk m c 0 (⟨b, h⟩ : Fin cfg0.N)) (iblk m c 2 (⟨b, h⟩ : Fin cfg0.N)) (k0_pay7 (F := Ideal)) p q).trans ?_
  rw [zero_1_at (ix2 p q), addend_1_at m c b h p q]

/-- At every later point of the run it ends at what the point before left plus the point's addend. -/
theorem later_point_1 (c : Dev nD) (b : ℕ) (hb8 : b % 8 = 0) (n : ℕ) (h : n < cfg0.N) (acc : Vec Ideal S512x512 .f32)
    (i : S512x512.Idx) (hlo : b < n) (hhi : n ≤ b + 7) :
    Value.scAt0_1 m c n h acc i = acc i + addend_1 m c n i := by
  obtain ⟨p, q, rfl⟩ : ∃ (p q : Fin 512), i = ix2 p q := ⟨i 0, i 1, eq_ix2 i⟩
  have h0 : ¬ n % 8 = 0 := by omega
  by_cases h1 : n % 8 = 7
  · unfold Value.scAt0_1
    rw [dif_neg h0, dif_pos h1]
    refine (congrFun (Pieces.last_1 (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) (ms0_6 (⟨n, h⟩ : Fin cfg0.N)) (hs0_6 (⟨n, h⟩ : Fin cfg0.N)) (ms0_7 (⟨n, h⟩ : Fin cfg0.N)) (hs0_7 (⟨n, h⟩ : Fin cfg0.N)) (ms0_8 (⟨n, h⟩ : Fin cfg0.N)) (hs0_8 (⟨n, h⟩ : Fin cfg0.N)) (ms0_9 (⟨n, h⟩ : Fin cfg0.N)) (hs0_9 (⟨n, h⟩ : Fin cfg0.N)) (ms0_10 (⟨n, h⟩ : Fin cfg0.N)) (hs0_10 (⟨n, h⟩ : Fin cfg0.N)) (ms0_11 (⟨n, h⟩ : Fin cfg0.N)) (hs0_11 (⟨n, h⟩ : Fin cfg0.N)) (ms0_12 (⟨n, h⟩ : Fin cfg0.N)) (hs0_12 (⟨n, h⟩ : Fin cfg0.N)) scM0_0 (Memref.isWhole_whole _) scM0_1 (Memref.isWhole_whole _) scM0_2 (Memref.isWhole_whole _) scM0_3 (Memref.isWhole_whole _) _ _ (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (iblk m c 4 (⟨n, h⟩ : Fin cfg0.N)) (iblk m c 5 (⟨n, h⟩ : Fin cfg0.N)) (iblk m c 6 (⟨n, h⟩ : Fin cfg0.N)) (iblk m c 7 (⟨n, h⟩ : Fin cfg0.N)) (iblk m c 8 (⟨n, h⟩ : Fin cfg0.N)) (iblk m c 9 (⟨n, h⟩ : Fin cfg0.N)) _ acc _ _) (ix2 p q)).trans ?_
    refine (step_1_at (iblk m c 0 (⟨n, h⟩ : Fin cfg0.N)) (iblk m c 2 (⟨n, h⟩ : Fin cfg0.N)) acc p q).trans ?_
    rw [addend_1_at m c n h p q]
  · unfold Value.scAt0_1
    rw [dif_neg h0, dif_neg h1]
    refine (congrFun (Pieces.mid_1 (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) (ms0_6 (⟨n, h⟩ : Fin cfg0.N)) (hs0_6 (⟨n, h⟩ : Fin cfg0.N)) (ms0_7 (⟨n, h⟩ : Fin cfg0.N)) (hs0_7 (⟨n, h⟩ : Fin cfg0.N)) (ms0_8 (⟨n, h⟩ : Fin cfg0.N)) (hs0_8 (⟨n, h⟩ : Fin cfg0.N)) (ms0_9 (⟨n, h⟩ : Fin cfg0.N)) (hs0_9 (⟨n, h⟩ : Fin cfg0.N)) (ms0_10 (⟨n, h⟩ : Fin cfg0.N)) (hs0_10 (⟨n, h⟩ : Fin cfg0.N)) (ms0_11 (⟨n, h⟩ : Fin cfg0.N)) (hs0_11 (⟨n, h⟩ : Fin cfg0.N)) (ms0_12 (⟨n, h⟩ : Fin cfg0.N)) (hs0_12 (⟨n, h⟩ : Fin cfg0.N)) scM0_0 (Memref.isWhole_whole _) scM0_1 (Memref.isWhole_whole _) scM0_2 (Memref.isWhole_whole _) scM0_3 (Memref.isWhole_whole _) _ _ (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (iblk m c 4 (⟨n, h⟩ : Fin cfg0.N)) (iblk m c 5 (⟨n, h⟩ : Fin cfg0.N)) (iblk m c 6 (⟨n, h⟩ : Fin cfg0.N)) (iblk m c 7 (⟨n, h⟩ : Fin cfg0.N)) (iblk m c 8 (⟨n, h⟩ : Fin cfg0.N)) (iblk m c 9 (⟨n, h⟩ : Fin cfg0.N)) _ acc _ _) (ix2 p q)).trans ?_
    refine (step_1_at (iblk m c 0 (⟨n, h⟩ : Fin cfg0.N)) (iblk m c 2 (⟨n, h⟩ : Fin cfg0.N)) acc p q).trans ?_
    rw [addend_1_at m c n h p q]

/-- After point `t` the candidate gate's accumulator holds, at row `p` and column `q`, zero plus the addends of the
    points of `t`'s run of eight up to `t`. -/
theorem acc_1_at (c : Dev nD) (t : Fin cfg0.N) (p q : Fin 512) :
    (outsAt0 m c t.val t.isLt).2.2.2.2.1 (ix2 p q)
      = 0 + ∑ s ∈ Finset.range (t.val % 8 + 1), addend_1 m c (8 * (t.val / 8) + s) (ix2 p q) := by
  rw [Value.soutsAt0_1_eq m c t]
  exact Pipeline.accAt_add_apply (fun n h => Value.scAt0_1 m c n h (VS0_1.read (Elt Ideal) VS0_1.junk)) (Value.scAt0_1 m c)
    (fun _ => 0) (addend_1 m c) (8 * (t.val / 8)) 7
    (fun h i => first_point_1 m c _ (Nat.mul_mod_right 8 _) h i)
    (fun n h acc i hlo hhi => later_point_1 m c _ (Nat.mul_mod_right 8 _) n h acc i hlo hhi)
    (t.val % 8) (by omega) _ (ix2 p q)

/-- What grid point `n` adds to the input gate's accumulator: the product of the point's block of the summed
    inputs with its block of the gate's weights (zero for a number past the grid, which is never used). -/
def addend_2 (c : Dev nD) (n : ℕ) (y : S512x512.Idx) : EReal :=
  if h : n < cfg0.N then blockProd (iblk m c 0 ⟨n, h⟩) (iblk m c 3 ⟨n, h⟩) (row y) (col y) else 0

theorem addend_2_at (c : Dev nD) (n : ℕ) (h : n < cfg0.N) (p q : Fin 512) :
    addend_2 m c n (ix2 p q) = blockProd (iblk m c 0 ⟨n, h⟩) (iblk m c 3 ⟨n, h⟩) p q := by
  unfold addend_2
  rw [dif_pos h, row_ix2, col_ix2]

/-- At the first point of a run of eight the input gate's accumulator ends at zero plus the point's addend. -/
theorem first_point_2 (c : Dev nD) (b : ℕ) (hb8 : b % 8 = 0) (h : b < cfg0.N) (i : S512x512.Idx) :
    Value.scAt0_2 m c b h (VS0_2.read (Elt Ideal) VS0_2.junk) i = 0 + addend_2 m c b i := by
  obtain ⟨p, q, rfl⟩ : ∃ (p q : Fin 512), i = ix2 p q := ⟨i 0, i 1, eq_ix2 i⟩
  have h1 : ¬ b % 8 = 7 := by omega
  unfold Value.scAt0_2
  rw [dif_pos hb8, dif_neg h1]
  refine (congrFun (Pieces.first_2 (F := Ideal) c (grid0.coords (⟨b, h⟩ : Fin cfg0.N)) (ms0_0 (⟨b, h⟩ : Fin cfg0.N)) (hs0_0 (⟨b, h⟩ : Fin cfg0.N)) (ms0_1 (⟨b, h⟩ : Fin cfg0.N)) (hs0_1 (⟨b, h⟩ : Fin cfg0.N)) (ms0_2 (⟨b, h⟩ : Fin cfg0.N)) (hs0_2 (⟨b, h⟩ : Fin cfg0.N)) (ms0_3 (⟨b, h⟩ : Fin cfg0.N)) (hs0_3 (⟨b, h⟩ : Fin cfg0.N)) (ms0_4 (⟨b, h⟩ : Fin cfg0.N)) (hs0_4 (⟨b, h⟩ : Fin cfg0.N)) (ms0_5 (⟨b, h⟩ : Fin cfg0.N)) (hs0_5 (⟨b, h⟩ : Fin cfg0.N)) (ms0_6 (⟨b, h⟩ : Fin cfg0.N)) (hs0_6 (⟨b, h⟩ : Fin cfg0.N)) (ms0_7 (⟨b, h⟩ : Fin cfg0.N)) (hs0_7 (⟨b, h⟩ : Fin cfg0.N)) (ms0_8 (⟨b, h⟩ : Fin cfg0.N)) (hs0_8 (⟨b, h⟩ : Fin cfg0.N)) (ms0_9 (⟨b, h⟩ : Fin cfg0.N)) (hs0_9 (⟨b, h⟩ : Fin cfg0.N)) (ms0_10 (⟨b, h⟩ : Fin cfg0.N)) (hs0_10 (⟨b, h⟩ : Fin cfg0.N)) (ms0_11 (⟨b, h⟩ : Fin cfg0.N)) (hs0_11 (⟨b, h⟩ : Fin cfg0.N)) (ms0_12 (⟨b, h⟩ : Fin cfg0.N)) (hs0_12 (⟨b, h⟩ : Fin cfg0.N)) scM0_0 (Memref.isWhole_whole _) scM0_1 (Memref.isWhole_whole _) scM0_2 (Memref.isWhole_whole _) scM0_3 (Memref.isWhole_whole _) _ _ (iblk m c 0 (⟨b, h⟩ : Fin cfg0.N)) (iblk m c 1 (⟨b, h⟩ : Fin cfg0.N)) (iblk m c 2 (⟨b, h⟩ : Fin cfg0.N)) (iblk m c 3 (⟨b, h⟩ : Fin cfg0.N)) (iblk m c 4 (⟨b, h⟩ : Fin cfg0.N)) (iblk m c 5 (⟨b, h⟩ : Fin cfg0.N)) (iblk m c 6 (⟨b, h⟩ : Fin cfg0.N)) (iblk m c 7 (⟨b, h⟩ : Fin cfg0.N)) (iblk m c 8 (⟨b, h⟩ : Fin cfg0.N)) (iblk m c 9 (⟨b, h⟩ : Fin cfg0.N))) (ix2 p q)).trans ?_
  refine (step_2_at (iblk m c 0 (⟨b, h⟩ : Fin cfg0.N)) (iblk m c 3 (⟨b, h⟩ : Fin cfg0.N)) (k0_pay8 (F := Ideal)) p q).trans ?_
  rw [zero_2_at (ix2 p q), addend_2_at m c b h p q]

/-- At every later point of the run it ends at what the point before left plus the point's addend. -/
theorem later_point_2 (c : Dev nD) (b : ℕ) (hb8 : b % 8 = 0) (n : ℕ) (h : n < cfg0.N) (acc : Vec Ideal S512x512 .f32)
    (i : S512x512.Idx) (hlo : b < n) (hhi : n ≤ b + 7) :
    Value.scAt0_2 m c n h acc i = acc i + addend_2 m c n i := by
  obtain ⟨p, q, rfl⟩ : ∃ (p q : Fin 512), i = ix2 p q := ⟨i 0, i 1, eq_ix2 i⟩
  have h0 : ¬ n % 8 = 0 := by omega
  by_cases h1 : n % 8 = 7
  · unfold Value.scAt0_2
    rw [dif_neg h0, dif_pos h1]
    refine (congrFun (Pieces.last_2 (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) (ms0_6 (⟨n, h⟩ : Fin cfg0.N)) (hs0_6 (⟨n, h⟩ : Fin cfg0.N)) (ms0_7 (⟨n, h⟩ : Fin cfg0.N)) (hs0_7 (⟨n, h⟩ : Fin cfg0.N)) (ms0_8 (⟨n, h⟩ : Fin cfg0.N)) (hs0_8 (⟨n, h⟩ : Fin cfg0.N)) (ms0_9 (⟨n, h⟩ : Fin cfg0.N)) (hs0_9 (⟨n, h⟩ : Fin cfg0.N)) (ms0_10 (⟨n, h⟩ : Fin cfg0.N)) (hs0_10 (⟨n, h⟩ : Fin cfg0.N)) (ms0_11 (⟨n, h⟩ : Fin cfg0.N)) (hs0_11 (⟨n, h⟩ : Fin cfg0.N)) (ms0_12 (⟨n, h⟩ : Fin cfg0.N)) (hs0_12 (⟨n, h⟩ : Fin cfg0.N)) scM0_0 (Memref.isWhole_whole _) scM0_1 (Memref.isWhole_whole _) scM0_2 (Memref.isWhole_whole _) scM0_3 (Memref.isWhole_whole _) _ _ (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (iblk m c 4 (⟨n, h⟩ : Fin cfg0.N)) (iblk m c 5 (⟨n, h⟩ : Fin cfg0.N)) (iblk m c 6 (⟨n, h⟩ : Fin cfg0.N)) (iblk m c 7 (⟨n, h⟩ : Fin cfg0.N)) (iblk m c 8 (⟨n, h⟩ : Fin cfg0.N)) (iblk m c 9 (⟨n, h⟩ : Fin cfg0.N)) _ _ acc _) (ix2 p q)).trans ?_
    refine (step_2_at (iblk m c 0 (⟨n, h⟩ : Fin cfg0.N)) (iblk m c 3 (⟨n, h⟩ : Fin cfg0.N)) acc p q).trans ?_
    rw [addend_2_at m c n h p q]
  · unfold Value.scAt0_2
    rw [dif_neg h0, dif_neg h1]
    refine (congrFun (Pieces.mid_2 (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) (ms0_6 (⟨n, h⟩ : Fin cfg0.N)) (hs0_6 (⟨n, h⟩ : Fin cfg0.N)) (ms0_7 (⟨n, h⟩ : Fin cfg0.N)) (hs0_7 (⟨n, h⟩ : Fin cfg0.N)) (ms0_8 (⟨n, h⟩ : Fin cfg0.N)) (hs0_8 (⟨n, h⟩ : Fin cfg0.N)) (ms0_9 (⟨n, h⟩ : Fin cfg0.N)) (hs0_9 (⟨n, h⟩ : Fin cfg0.N)) (ms0_10 (⟨n, h⟩ : Fin cfg0.N)) (hs0_10 (⟨n, h⟩ : Fin cfg0.N)) (ms0_11 (⟨n, h⟩ : Fin cfg0.N)) (hs0_11 (⟨n, h⟩ : Fin cfg0.N)) (ms0_12 (⟨n, h⟩ : Fin cfg0.N)) (hs0_12 (⟨n, h⟩ : Fin cfg0.N)) scM0_0 (Memref.isWhole_whole _) scM0_1 (Memref.isWhole_whole _) scM0_2 (Memref.isWhole_whole _) scM0_3 (Memref.isWhole_whole _) _ _ (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (iblk m c 4 (⟨n, h⟩ : Fin cfg0.N)) (iblk m c 5 (⟨n, h⟩ : Fin cfg0.N)) (iblk m c 6 (⟨n, h⟩ : Fin cfg0.N)) (iblk m c 7 (⟨n, h⟩ : Fin cfg0.N)) (iblk m c 8 (⟨n, h⟩ : Fin cfg0.N)) (iblk m c 9 (⟨n, h⟩ : Fin cfg0.N)) _ _ acc _) (ix2 p q)).trans ?_
    refine (step_2_at (iblk m c 0 (⟨n, h⟩ : Fin cfg0.N)) (iblk m c 3 (⟨n, h⟩ : Fin cfg0.N)) acc p q).trans ?_
    rw [addend_2_at m c n h p q]

/-- After point `t` the input gate's accumulator holds, at row `p` and column `q`, zero plus the addends of the
    points of `t`'s run of eight up to `t`. -/
theorem acc_2_at (c : Dev nD) (t : Fin cfg0.N) (p q : Fin 512) :
    (outsAt0 m c t.val t.isLt).2.2.2.2.2.1 (ix2 p q)
      = 0 + ∑ s ∈ Finset.range (t.val % 8 + 1), addend_2 m c (8 * (t.val / 8) + s) (ix2 p q) := by
  rw [Value.soutsAt0_2_eq m c t]
  exact Pipeline.accAt_add_apply (fun n h => Value.scAt0_2 m c n h (VS0_2.read (Elt Ideal) VS0_2.junk)) (Value.scAt0_2 m c)
    (fun _ => 0) (addend_2 m c) (8 * (t.val / 8)) 7
    (fun h i => first_point_2 m c _ (Nat.mul_mod_right 8 _) h i)
    (fun n h acc i hlo hhi => later_point_2 m c _ (Nat.mul_mod_right 8 _) n h acc i hlo hhi)
    (t.val % 8) (by omega) _ (ix2 p q)

/-- What grid point `n` adds to the output gate's accumulator: the product of the point's block of the summed
    inputs with its block of the gate's weights (zero for a number past the grid, which is never used). -/
def addend_3 (c : Dev nD) (n : ℕ) (y : S512x512.Idx) : EReal :=
  if h : n < cfg0.N then blockProd (iblk m c 0 ⟨n, h⟩) (iblk m c 4 ⟨n, h⟩) (row y) (col y) else 0

theorem addend_3_at (c : Dev nD) (n : ℕ) (h : n < cfg0.N) (p q : Fin 512) :
    addend_3 m c n (ix2 p q) = blockProd (iblk m c 0 ⟨n, h⟩) (iblk m c 4 ⟨n, h⟩) p q := by
  unfold addend_3
  rw [dif_pos h, row_ix2, col_ix2]

/-- At the first point of a run of eight the output gate's accumulator ends at zero plus the point's addend. -/
theorem first_point_3 (c : Dev nD) (b : ℕ) (hb8 : b % 8 = 0) (h : b < cfg0.N) (i : S512x512.Idx) :
    Value.scAt0_3 m c b h (VS0_3.read (Elt Ideal) VS0_3.junk) i = 0 + addend_3 m c b i := by
  obtain ⟨p, q, rfl⟩ : ∃ (p q : Fin 512), i = ix2 p q := ⟨i 0, i 1, eq_ix2 i⟩
  have h1 : ¬ b % 8 = 7 := by omega
  unfold Value.scAt0_3
  rw [dif_pos hb8, dif_neg h1]
  refine (congrFun (Pieces.first_3 (F := Ideal) c (grid0.coords (⟨b, h⟩ : Fin cfg0.N)) (ms0_0 (⟨b, h⟩ : Fin cfg0.N)) (hs0_0 (⟨b, h⟩ : Fin cfg0.N)) (ms0_1 (⟨b, h⟩ : Fin cfg0.N)) (hs0_1 (⟨b, h⟩ : Fin cfg0.N)) (ms0_2 (⟨b, h⟩ : Fin cfg0.N)) (hs0_2 (⟨b, h⟩ : Fin cfg0.N)) (ms0_3 (⟨b, h⟩ : Fin cfg0.N)) (hs0_3 (⟨b, h⟩ : Fin cfg0.N)) (ms0_4 (⟨b, h⟩ : Fin cfg0.N)) (hs0_4 (⟨b, h⟩ : Fin cfg0.N)) (ms0_5 (⟨b, h⟩ : Fin cfg0.N)) (hs0_5 (⟨b, h⟩ : Fin cfg0.N)) (ms0_6 (⟨b, h⟩ : Fin cfg0.N)) (hs0_6 (⟨b, h⟩ : Fin cfg0.N)) (ms0_7 (⟨b, h⟩ : Fin cfg0.N)) (hs0_7 (⟨b, h⟩ : Fin cfg0.N)) (ms0_8 (⟨b, h⟩ : Fin cfg0.N)) (hs0_8 (⟨b, h⟩ : Fin cfg0.N)) (ms0_9 (⟨b, h⟩ : Fin cfg0.N)) (hs0_9 (⟨b, h⟩ : Fin cfg0.N)) (ms0_10 (⟨b, h⟩ : Fin cfg0.N)) (hs0_10 (⟨b, h⟩ : Fin cfg0.N)) (ms0_11 (⟨b, h⟩ : Fin cfg0.N)) (hs0_11 (⟨b, h⟩ : Fin cfg0.N)) (ms0_12 (⟨b, h⟩ : Fin cfg0.N)) (hs0_12 (⟨b, h⟩ : Fin cfg0.N)) scM0_0 (Memref.isWhole_whole _) scM0_1 (Memref.isWhole_whole _) scM0_2 (Memref.isWhole_whole _) scM0_3 (Memref.isWhole_whole _) _ _ (iblk m c 0 (⟨b, h⟩ : Fin cfg0.N)) (iblk m c 1 (⟨b, h⟩ : Fin cfg0.N)) (iblk m c 2 (⟨b, h⟩ : Fin cfg0.N)) (iblk m c 3 (⟨b, h⟩ : Fin cfg0.N)) (iblk m c 4 (⟨b, h⟩ : Fin cfg0.N)) (iblk m c 5 (⟨b, h⟩ : Fin cfg0.N)) (iblk m c 6 (⟨b, h⟩ : Fin cfg0.N)) (iblk m c 7 (⟨b, h⟩ : Fin cfg0.N)) (iblk m c 8 (⟨b, h⟩ : Fin cfg0.N)) (iblk m c 9 (⟨b, h⟩ : Fin cfg0.N))) (ix2 p q)).trans ?_
  refine (step_3_at (iblk m c 0 (⟨b, h⟩ : Fin cfg0.N)) (iblk m c 4 (⟨b, h⟩ : Fin cfg0.N)) (k0_pay9 (F := Ideal)) p q).trans ?_
  rw [zero_3_at (ix2 p q), addend_3_at m c b h p q]

/-- At every later point of the run it ends at what the point before left plus the point's addend. -/
theorem later_point_3 (c : Dev nD) (b : ℕ) (hb8 : b % 8 = 0) (n : ℕ) (h : n < cfg0.N) (acc : Vec Ideal S512x512 .f32)
    (i : S512x512.Idx) (hlo : b < n) (hhi : n ≤ b + 7) :
    Value.scAt0_3 m c n h acc i = acc i + addend_3 m c n i := by
  obtain ⟨p, q, rfl⟩ : ∃ (p q : Fin 512), i = ix2 p q := ⟨i 0, i 1, eq_ix2 i⟩
  have h0 : ¬ n % 8 = 0 := by omega
  by_cases h1 : n % 8 = 7
  · unfold Value.scAt0_3
    rw [dif_neg h0, dif_pos h1]
    refine (congrFun (Pieces.last_3 (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) (ms0_6 (⟨n, h⟩ : Fin cfg0.N)) (hs0_6 (⟨n, h⟩ : Fin cfg0.N)) (ms0_7 (⟨n, h⟩ : Fin cfg0.N)) (hs0_7 (⟨n, h⟩ : Fin cfg0.N)) (ms0_8 (⟨n, h⟩ : Fin cfg0.N)) (hs0_8 (⟨n, h⟩ : Fin cfg0.N)) (ms0_9 (⟨n, h⟩ : Fin cfg0.N)) (hs0_9 (⟨n, h⟩ : Fin cfg0.N)) (ms0_10 (⟨n, h⟩ : Fin cfg0.N)) (hs0_10 (⟨n, h⟩ : Fin cfg0.N)) (ms0_11 (⟨n, h⟩ : Fin cfg0.N)) (hs0_11 (⟨n, h⟩ : Fin cfg0.N)) (ms0_12 (⟨n, h⟩ : Fin cfg0.N)) (hs0_12 (⟨n, h⟩ : Fin cfg0.N)) scM0_0 (Memref.isWhole_whole _) scM0_1 (Memref.isWhole_whole _) scM0_2 (Memref.isWhole_whole _) scM0_3 (Memref.isWhole_whole _) _ _ (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (iblk m c 4 (⟨n, h⟩ : Fin cfg0.N)) (iblk m c 5 (⟨n, h⟩ : Fin cfg0.N)) (iblk m c 6 (⟨n, h⟩ : Fin cfg0.N)) (iblk m c 7 (⟨n, h⟩ : Fin cfg0.N)) (iblk m c 8 (⟨n, h⟩ : Fin cfg0.N)) (iblk m c 9 (⟨n, h⟩ : Fin cfg0.N)) _ _ _ acc) (ix2 p q)).trans ?_
    refine (step_3_at (iblk m c 0 (⟨n, h⟩ : Fin cfg0.N)) (iblk m c 4 (⟨n, h⟩ : Fin cfg0.N)) acc p q).trans ?_
    rw [addend_3_at m c n h p q]
  · unfold Value.scAt0_3
    rw [dif_neg h0, dif_neg h1]
    refine (congrFun (Pieces.mid_3 (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) (ms0_6 (⟨n, h⟩ : Fin cfg0.N)) (hs0_6 (⟨n, h⟩ : Fin cfg0.N)) (ms0_7 (⟨n, h⟩ : Fin cfg0.N)) (hs0_7 (⟨n, h⟩ : Fin cfg0.N)) (ms0_8 (⟨n, h⟩ : Fin cfg0.N)) (hs0_8 (⟨n, h⟩ : Fin cfg0.N)) (ms0_9 (⟨n, h⟩ : Fin cfg0.N)) (hs0_9 (⟨n, h⟩ : Fin cfg0.N)) (ms0_10 (⟨n, h⟩ : Fin cfg0.N)) (hs0_10 (⟨n, h⟩ : Fin cfg0.N)) (ms0_11 (⟨n, h⟩ : Fin cfg0.N)) (hs0_11 (⟨n, h⟩ : Fin cfg0.N)) (ms0_12 (⟨n, h⟩ : Fin cfg0.N)) (hs0_12 (⟨n, h⟩ : Fin cfg0.N)) scM0_0 (Memref.isWhole_whole _) scM0_1 (Memref.isWhole_whole _) scM0_2 (Memref.isWhole_whole _) scM0_3 (Memref.isWhole_whole _) _ _ (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (iblk m c 4 (⟨n, h⟩ : Fin cfg0.N)) (iblk m c 5 (⟨n, h⟩ : Fin cfg0.N)) (iblk m c 6 (⟨n, h⟩ : Fin cfg0.N)) (iblk m c 7 (⟨n, h⟩ : Fin cfg0.N)) (iblk m c 8 (⟨n, h⟩ : Fin cfg0.N)) (iblk m c 9 (⟨n, h⟩ : Fin cfg0.N)) _ _ _ acc) (ix2 p q)).trans ?_
    refine (step_3_at (iblk m c 0 (⟨n, h⟩ : Fin cfg0.N)) (iblk m c 4 (⟨n, h⟩ : Fin cfg0.N)) acc p q).trans ?_
    rw [addend_3_at m c n h p q]

/-- After point `t` the output gate's accumulator holds, at row `p` and column `q`, zero plus the addends of the
    points of `t`'s run of eight up to `t`. -/
theorem acc_3_at (c : Dev nD) (t : Fin cfg0.N) (p q : Fin 512) :
    (outsAt0 m c t.val t.isLt).2.2.2.2.2.2 (ix2 p q)
      = 0 + ∑ s ∈ Finset.range (t.val % 8 + 1), addend_3 m c (8 * (t.val / 8) + s) (ix2 p q) := by
  rw [Value.soutsAt0_3_eq m c t]
  exact Pipeline.accAt_add_apply (fun n h => Value.scAt0_3 m c n h (VS0_3.read (Elt Ideal) VS0_3.junk)) (Value.scAt0_3 m c)
    (fun _ => 0) (addend_3 m c) (8 * (t.val / 8)) 7
    (fun h i => first_point_3 m c _ (Nat.mul_mod_right 8 _) h i)
    (fun n h acc i hlo hhi => later_point_3 m c _ (Nat.mul_mod_right 8 _) n h acc i hlo hhi)
    (t.val % 8) (by omega) _ (ix2 p q)

end Cert.KernelIdeal.Accum

end
-- ==== Proof.Epilogue.lean ====
/-
  The last step of a run: the three results from the finished accumulators.

  At the eighth point of a run the body, after its accumulation step, reads the four accumulators back and
  computes, with the gates' bias rows and the block of the old cell state,

    out          = σ(acc_o + b_o)
    cell_state   = cell · σ(acc_f + b_f) + tanh(acc_c + b_c) · σ(σ(acc_i + b_i))
    hidden_state = out · tanh(cell_state)

  where each bias row [1, 512] is repeated down the 512 rows of the block. The statements below say that the
  three result blocks at such a point are these expressions of the accumulators AS THE POINT LEAVES THEM, and
  read the expressions at one position of the block.
-/
import proofs.«111009_j37924561224179_2_alg».proof.Proof.Gen.KernelIdeal.Value
import proofs.«111009_j37924561224179_2_alg».proof.Proof.Pieces
import proofs.«111009_j37924561224179_2_alg».proof.Proof.Accum
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.TcCoe Idealize.SL.Sem Idealize.ShloMosaic.ValueIdx

namespace Cert.KernelIdeal.Epilogue

open Cert.KernelIdeal Cert.KernelIdeal.Gen Cert.KernelIdeal.Accum

/-- A bias row [1, 512] repeated down a [512, 512] block, at row `p` and column `q`, is the row's entry at column `q`. -/
theorem bias_row_at (v : Vec Ideal S1x512 .f32) (p q : Fin 512) :
    broadcastTo S512x512 v broadcasts_S1x512_S512x512 (ix2 p q) = v (ix2 (0 : Fin 1) q) :=
  broadcastTo_apply v broadcasts_S1x512_S512x512 (ix2 p q) (ix2 (0 : Fin 1) q) (fun a => by
    match a with
    | ⟨0, _⟩ => show (0 : ℕ) = if (1 : ℕ) = 1 then 0 else _; rw [if_pos rfl]
    | ⟨1, _⟩ => show q.val = if (512 : ℕ) = 1 then 0 else _; rw [if_neg (by decide)]; rfl)

/-- The output gate's block at a position: the logistic of the accumulator plus the bias entry of the column. -/
theorem out_pay_at (so : Vec Ideal S512x512 .f32) (bo : Vec Ideal S1x512 .f32) (p q : Fin 512) :
    k0_pay4 (F := Ideal) so bo (ix2 p q) = Ideal.logistic (so (ix2 p q) + bo (ix2 (0 : Fin 1) q)) := by
  unfold k0_pay4
  simp only [shapeCast_self]
  show Ideal.logistic (so (ix2 p q) + broadcastTo S512x512 bo broadcasts_S1x512_S512x512 (ix2 p q)) = _
  rw [bias_row_at]

/-- The new cell state's block at a position. -/
theorem cell_pay_at (sf : Vec Ideal S512x512 .f32) (bf : Vec Ideal S1x512 .f32) (sc : Vec Ideal S512x512 .f32) (bc : Vec Ideal S1x512 .f32)
    (si : Vec Ideal S512x512 .f32) (bi : Vec Ideal S1x512 .f32) (cell : Vec Ideal S512x512 .f32) (p q : Fin 512) :
    k0_pay3 (F := Ideal) sf bf sc bc si bi cell (ix2 p q)
      = cell (ix2 p q) * Ideal.logistic (sf (ix2 p q) + bf (ix2 (0 : Fin 1) q))
        + Ideal.tanh (sc (ix2 p q) + bc (ix2 (0 : Fin 1) q)) * Ideal.logistic (Ideal.logistic (si (ix2 p q) + bi (ix2 (0 : Fin 1) q))) := by
  unfold k0_pay3
  simp only [shapeCast_self]
  show cell (ix2 p q) * Ideal.logistic (sf (ix2 p q) + broadcastTo S512x512 bf broadcasts_S1x512_S512x512 (ix2 p q))
      + Ideal.tanh (sc (ix2 p q) + broadcastTo S512x512 bc broadcasts_S1x512_S512x512 (ix2 p q))
        * Ideal.logistic (Ideal.logistic (si (ix2 p q) + broadcastTo S512x512 bi broadcasts_S1x512_S512x512 (ix2 p q))) = _
  rw [bias_row_at, bias_row_at, bias_row_at]

/-- The new hidden state's block at a position: the output gate's entry times the hyperbolic tangent of the new cell state's. -/
theorem hidden_pay_at (sf : Vec Ideal S512x512 .f32) (bf : Vec Ideal S1x512 .f32) (sc : Vec Ideal S512x512 .f32) (bc : Vec Ideal S1x512 .f32)
    (si : Vec Ideal S512x512 .f32) (bi : Vec Ideal S1x512 .f32) (so : Vec Ideal S512x512 .f32) (bo : Vec Ideal S1x512 .f32)
    (cell : Vec Ideal S512x512 .f32) (p q : Fin 512) :
    k0_pay5 (F := Ideal) sf bf sc bc si bi so bo cell (ix2 p q)
      = k0_pay4 (F := Ideal) so bo (ix2 p q) * Ideal.tanh (k0_pay3 (F := Ideal) sf bf sc bc si bi cell (ix2 p q)) := by
  unfold k0_pay5
  rfl

variable (m : (ℓ : Loc nD τ sig) → Buf (Elt Ideal) ℓ)

/-- At the last point of a run the first result's block is the output gate's expression of the output accumulator as that point leaves it. -/
theorem out_at_last (c : Dev nD) (t : Fin cfg0.N) (h0 : ¬t.val % 8 = 0) (h1 : t.val % 8 = 7) :
    (outsAt0 m c t.val t.isLt).1 = k0_pay4 (F := Ideal) ((outsAt0 m c t.val t.isLt).2.2.2.2.2.2) (iblk m c 8 t) := by
  rw [outsAt0_C m c t h0 h1]
  dsimp only
  rw [Pieces.last_out (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, Pieces.last_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2]

/-- … the second result's block is the hidden state's expression of the four accumulators as that point leaves them. -/
theorem hidden_at_last (c : Dev nD) (t : Fin cfg0.N) (h0 : ¬t.val % 8 = 0) (h1 : t.val % 8 = 7) :
    (outsAt0 m c t.val t.isLt).2.1 = k0_pay5 (F := Ideal) ((outsAt0 m c t.val t.isLt).2.2.2.1) (iblk m c 5 t) ((outsAt0 m c t.val t.isLt).2.2.2.2.1) (iblk m c 6 t) ((outsAt0 m c t.val t.isLt).2.2.2.2.2.1) (iblk m c 7 t) ((outsAt0 m c t.val t.isLt).2.2.2.2.2.2) (iblk m c 8 t) (iblk m c 9 t) := by
  rw [outsAt0_C m c t h0 h1]
  dsimp only
  rw [Pieces.last_hidden (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, Pieces.last_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, Pieces.last_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, Pieces.last_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, Pieces.last_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2]

/-- … and the third result's block the cell state's expression of the forget, candidate and input accumulators. -/
theorem cell_at_last (c : Dev nD) (t : Fin cfg0.N) (h0 : ¬t.val % 8 = 0) (h1 : t.val % 8 = 7) :
    (outsAt0 m c t.val t.isLt).2.2.1 = k0_pay3 (F := Ideal) ((outsAt0 m c t.val t.isLt).2.2.2.1) (iblk m c 5 t) ((outsAt0 m c t.val t.isLt).2.2.2.2.1) (iblk m c 6 t) ((outsAt0 m c t.val t.isLt).2.2.2.2.2.1) (iblk m c 7 t) (iblk m c 9 t) := by
  rw [outsAt0_C m c t h0 h1]
  dsimp only
  rw [Pieces.last_cell (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, Pieces.last_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, Pieces.last_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, Pieces.last_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2]

end Cert.KernelIdeal.Epilogue

end
-- ==== Proof.Index.lean ====
/-
  Which block each window holds at a grid point.

  The grid has 16 × 4 × 8 points, numbered row-major: point `t` has row-block `t / 32`, column-block
  `(t / 8) mod 4` and reduction step `t mod 8`. The summed inputs are read at (row-block, step), each weight
  matrix at (step, column-block), each bias row at (0, column-block), and the old cell state and the three
  results at (row-block, column-block). The printed index maps compute exactly these, which is decided here
  once over all 512 points.
-/
import proofs.«111009_j37924561224179_2_alg».proof.Proof.Gen.KernelIdeal.Frame

noncomputable section

namespace Cert.KernelIdeal.Index

open Cert.KernelIdeal Cert.KernelIdeal.Gen Idealize.ShloMosaic

/-- The block of the summed inputs at point `t`. -/
theorem block_0 : ∀ t : Fin cfg0.N, win0_0.index t (0 : Fin 2) = t.val / 32 ∧ win0_0.index t (1 : Fin 2) = t.val % 8 :=
  (by decide +kernel : ∀ t : Fin grid0.N, win0_0.index t (0 : Fin 2) = t.val / 32 ∧ win0_0.index t (1 : Fin 2) = t.val % 8)

/-- The block of the forget gate's weights at point `t`. -/
theorem block_1 : ∀ t : Fin cfg0.N, win0_1.index t (0 : Fin 2) = t.val % 8 ∧ win0_1.index t (1 : Fin 2) = t.val / 8 % 4 :=
  (by decide +kernel : ∀ t : Fin grid0.N, win0_1.index t (0 : Fin 2) = t.val % 8 ∧ win0_1.index t (1 : Fin 2) = t.val / 8 % 4)

/-- The block of the candidate gate's weights at point `t`. -/
theorem block_2 : ∀ t : Fin cfg0.N, win0_2.index t (0 : Fin 2) = t.val % 8 ∧ win0_2.index t (1 : Fin 2) = t.val / 8 % 4 :=
  (by decide +kernel : ∀ t : Fin grid0.N, win0_2.index t (0 : Fin 2) = t.val % 8 ∧ win0_2.index t (1 : Fin 2) = t.val / 8 % 4)

/-- The block of the input gate's weights at point `t`. -/
theorem block_3 : ∀ t : Fin cfg0.N, win0_3.index t (0 : Fin 2) = t.val % 8 ∧ win0_3.index t (1 : Fin 2) = t.val / 8 % 4 :=
  (by decide +kernel : ∀ t : Fin grid0.N, win0_3.index t (0 : Fin 2) = t.val % 8 ∧ win0_3.index t (1 : Fin 2) = t.val / 8 % 4)

/-- The block of the output gate's weights at point `t`. -/
theorem block_4 : ∀ t : Fin cfg0.N, win0_4.index t (0 : Fin 2) = t.val % 8 ∧ win0_4.index t (1 : Fin 2) = t.val / 8 % 4 :=
  (by decide +kernel : ∀ t : Fin grid0.N, win0_4.index t (0 : Fin 2) = t.val % 8 ∧ win0_4.index t (1 : Fin 2) = t.val / 8 % 4)

/-- The block of the forget gate's bias row at point `t`. -/
theorem block_5 : ∀ t : Fin cfg0.N, win0_5.index t (0 : Fin 2) = 0 ∧ win0_5.index t (1 : Fin 2) = t.val / 8 % 4 :=
  (by decide +kernel : ∀ t : Fin grid0.N, win0_5.index t (0 : Fin 2) = 0 ∧ win0_5.index t (1 : Fin 2) = t.val / 8 % 4)

/-- The block of the candidate gate's bias row at point `t`. -/
theorem block_6 : ∀ t : Fin cfg0.N, win0_6.index t (0 : Fin 2) = 0 ∧ win0_6.index t (1 : Fin 2) = t.val / 8 % 4 :=
  (by decide +kernel : ∀ t : Fin grid0.N, win0_6.index t (0 : Fin 2) = 0 ∧ win0_6.index t (1 : Fin 2) = t.val / 8 % 4)

/-- The block of the input gate's bias row at point `t`. -/
theorem block_7 : ∀ t : Fin cfg0.N, win0_7.index t (0 : Fin 2) = 0 ∧ win0_7.index t (1 : Fin 2) = t.val / 8 % 4 :=
  (by decide +kernel : ∀ t : Fin grid0.N, win0_7.index t (0 : Fin 2) = 0 ∧ win0_7.index t (1 : Fin 2) = t.val / 8 % 4)

/-- The block of the output gate's bias row at point `t`. -/
theorem block_8 : ∀ t : Fin cfg0.N, win0_8.index t (0 : Fin 2) = 0 ∧ win0_8.index t (1 : Fin 2) = t.val / 8 % 4 :=
  (by decide +kernel : ∀ t : Fin grid0.N, win0_8.index t (0 : Fin 2) = 0 ∧ win0_8.index t (1 : Fin 2) = t.val / 8 % 4)

/-- The block of the old cell state at point `t`. -/
theorem block_9 : ∀ t : Fin cfg0.N, win0_9.index t (0 : Fin 2) = t.val / 32 ∧ win0_9.index t (1 : Fin 2) = t.val / 8 % 4 :=
  (by decide +kernel : ∀ t : Fin grid0.N, win0_9.index t (0 : Fin 2) = t.val / 32 ∧ win0_9.index t (1 : Fin 2) = t.val / 8 % 4)

/-- The block of the first result at point `t`. -/
theorem block_10 : ∀ t : Fin cfg0.N, win0_10.index t (0 : Fin 2) = t.val / 32 ∧ win0_10.index t (1 : Fin 2) = t.val / 8 % 4 :=
  (by decide +kernel : ∀ t : Fin grid0.N, win0_10.index t (0 : Fin 2) = t.val / 32 ∧ win0_10.index t (1 : Fin 2) = t.val / 8 % 4)

/-- The block of the second result at point `t`. -/
theorem block_11 : ∀ t : Fin cfg0.N, win0_11.index t (0 : Fin 2) = t.val / 32 ∧ win0_11.index t (1 : Fin 2) = t.val / 8 % 4 :=
  (by decide +kernel : ∀ t : Fin grid0.N, win0_11.index t (0 : Fin 2) = t.val / 32 ∧ win0_11.index t (1 : Fin 2) = t.val / 8 % 4)

/-- The block of the third result at point `t`. -/
theorem block_12 : ∀ t : Fin cfg0.N, win0_12.index t (0 : Fin 2) = t.val / 32 ∧ win0_12.index t (1 : Fin 2) = t.val / 8 % 4 :=
  (by decide +kernel : ∀ t : Fin grid0.N, win0_12.index t (0 : Fin 2) = t.val / 32 ∧ win0_12.index t (1 : Fin 2) = t.val / 8 % 4)

/-- The grid has 512 points. -/
theorem points : cfg0.N = 512 := N_0

end Cert.KernelIdeal.Index

end
-- ==== Proof.Spec.lean ====
/-
  The LSTM cell as ONE function of its argument arrays, on the extended reals.

  With `s = input + hidden` (an elementwise sum of two [8192, 4096] arrays), each of the four gates is
  the affine map `g(r, c) = (Σ_k s(r, k) · W(k, c)) + b(c)` over the 4096 features, with its own weight
  matrix [4096, 2048] and bias [2048]. Writing σ for the logistic function `1 / (1 + e^(-x))`:

    out          = σ(g_o)
    cell_state   = cell · σ(g_f) + tanh(g_c) · σ(σ(g_i))      (the input gate's logistic is applied twice)
    hidden_state = out · tanh(cell_state)

  Everything is stated index by index over the literal shapes, so that a blocked computation and a
  whole-array computation can both be compared with it one element at a time.
-/
import Idealize.ShloMosaic.PureOps.Ideal
import Idealize.ShloMosaic.PureOps.Ideal.Laws
import Idealize.ShloMosaic.Lib.ValueIdx

noncomputable section

open scoped BigOperators

namespace Cert.LstmSpec

open Idealize.ShloMosaic Idealize.ShloMosaic.ValueIdx

/-- The two summed inputs: 8192 rows of 4096 features. -/
abbrev SX : Shape := ⟨2, ![8192, 4096]⟩
/-- The cell state and each of the three results: 8192 rows of 2048 units. -/
abbrev SH : Shape := ⟨2, ![8192, 2048]⟩
/-- One gate's weights: 4096 features by 2048 units. -/
abbrev SW : Shape := ⟨2, ![4096, 2048]⟩
/-- One gate's bias: 2048 units. -/
abbrev SB : Shape := ⟨1, ![2048]⟩

/-- A gate before its nonlinearity, at row `r` and unit `c`: the inner product of the summed inputs' row
    with the weight column, plus the unit's bias. -/
def gate (x h : SX.Idx → EReal) (W : SW.Idx → EReal) (b : SB.Idx → EReal) (r : Fin 8192) (c : Fin 2048) : EReal :=
  (∑ k : Fin 4096, (x (ix2 r k) + h (ix2 r k)) * W (ix2 k c)) + b (ix1 c)

/-- The output gate `σ(g_o)` at row `r`, unit `c`. -/
def outGateAt (x h : SX.Idx → EReal) (Wo : SW.Idx → EReal) (bo : SB.Idx → EReal) (r : Fin 8192) (c : Fin 2048) : EReal :=
  Ideal.logistic (gate x h Wo bo r c)

/-- The new cell state `cell · σ(g_f) + tanh(g_c) · σ(σ(g_i))` at row `r`, unit `c`. -/
def cellStateAt (x h : SX.Idx → EReal) (cell : SH.Idx → EReal) (Wf : SW.Idx → EReal) (bf : SB.Idx → EReal)
    (Wc : SW.Idx → EReal) (bc : SB.Idx → EReal) (Wi : SW.Idx → EReal) (bi : SB.Idx → EReal) (r : Fin 8192) (c : Fin 2048) : EReal :=
  cell (ix2 r c) * Ideal.logistic (gate x h Wf bf r c)
    + Ideal.tanh (gate x h Wc bc r c) * Ideal.logistic (Ideal.logistic (gate x h Wi bi r c))

/-- The new hidden state `out · tanh(cell_state)` at row `r`, unit `c`. -/
def hiddenStateAt (x h : SX.Idx → EReal) (cell : SH.Idx → EReal) (Wf : SW.Idx → EReal) (bf : SB.Idx → EReal)
    (Wc : SW.Idx → EReal) (bc : SB.Idx → EReal) (Wi : SW.Idx → EReal) (bi : SB.Idx → EReal)
    (Wo : SW.Idx → EReal) (bo : SB.Idx → EReal) (r : Fin 8192) (c : Fin 2048) : EReal :=
  outGateAt x h Wo bo r c * Ideal.tanh (cellStateAt x h cell Wf bf Wc bc Wi bi r c)

/-- The output gate as an array. -/
def outGate (x h : SX.Idx → EReal) (Wo : SW.Idx → EReal) (bo : SB.Idx → EReal) : SH.Idx → EReal := fun i =>
  outGateAt x h Wo bo (i 0) (i 1)

/-- The new cell state as an array. -/
def cellState (x h : SX.Idx → EReal) (cell : SH.Idx → EReal) (Wf : SW.Idx → EReal) (bf : SB.Idx → EReal)
    (Wc : SW.Idx → EReal) (bc : SB.Idx → EReal) (Wi : SW.Idx → EReal) (bi : SB.Idx → EReal) : SH.Idx → EReal := fun i =>
  cellStateAt x h cell Wf bf Wc bc Wi bi (i 0) (i 1)

/-- The new hidden state as an array. -/
def hiddenState (x h : SX.Idx → EReal) (cell : SH.Idx → EReal) (Wf : SW.Idx → EReal) (bf : SB.Idx → EReal)
    (Wc : SW.Idx → EReal) (bc : SB.Idx → EReal) (Wi : SW.Idx → EReal) (bi : SB.Idx → EReal)
    (Wo : SW.Idx → EReal) (bo : SB.Idx → EReal) : SH.Idx → EReal := fun i =>
  hiddenStateAt x h cell Wf bf Wc bc Wi bi Wo bo (i 0) (i 1)

theorem outGate_at (x h : SX.Idx → EReal) (Wo : SW.Idx → EReal) (bo : SB.Idx → EReal) (r : Fin 8192) (c : Fin 2048) :
    outGate x h Wo bo (ix2 r c) = outGateAt x h Wo bo r c := rfl

theorem cellState_at (x h : SX.Idx → EReal) (cell : SH.Idx → EReal) (Wf : SW.Idx → EReal) (bf : SB.Idx → EReal)
    (Wc : SW.Idx → EReal) (bc : SB.Idx → EReal) (Wi : SW.Idx → EReal) (bi : SB.Idx → EReal) (r : Fin 8192) (c : Fin 2048) :
    cellState x h cell Wf bf Wc bc Wi bi (ix2 r c) = cellStateAt x h cell Wf bf Wc bc Wi bi r c := rfl

theorem hiddenState_at (x h : SX.Idx → EReal) (cell : SH.Idx → EReal) (Wf : SW.Idx → EReal) (bf : SB.Idx → EReal)
    (Wc : SW.Idx → EReal) (bc : SB.Idx → EReal) (Wi : SW.Idx → EReal) (bi : SB.Idx → EReal)
    (Wo : SW.Idx → EReal) (bo : SB.Idx → EReal) (r : Fin 8192) (c : Fin 2048) :
    hiddenState x h cell Wf bf Wc bc Wi bi Wo bo (ix2 r c) = hiddenStateAt x h cell Wf bf Wc bc Wi bi Wo bo r c := rfl

/-- The f32 word of 1.0 denotes the real number one. -/
theorem one_word : Ideal.ofBits .f32 0x3F800000#32 = 1 := by
  simp [Ideal.ofBits, Ideal.ieee, -EReal.coe_mul]; norm_num

/-- The logistic function spelt with its quotient: one over one plus the exponential of the negation,
    the ones written as the f32 word of 1.0. -/
theorem logistic_spelt (x : EReal) :
    Ideal.div (Ideal.ofBits .f32 0x3F800000#32) (Ideal.ofBits .f32 0x3F800000#32 + Ideal.exp (-x)) = Ideal.logistic x := by
  rw [one_word]; rfl

end Cert.LstmSpec

end
-- ==== Proof.GateBlocks.lean ====
/-
  A gate's long sum, block by block.

  The gate's inner product over 4096 features is the sum, over the 8 consecutive blocks of 512 features, of the
  inner products over each block. To say so with positions that are plain natural numbers, one term of the sum is
  written as a function of the feature's number (and is zero for a number past the last feature, which never
  occurs in either sum). Only the regrouping of a finite sum is used: no term is moved across a product, so the
  statement holds for all extended reals, infinities included.
-/
import proofs.«111009_j37924561224179_2_alg».proof.Proof.Spec
import proofs.«111009_j37924561224179_2_alg».proof.Proof.LibBlockSum

noncomputable section

open scoped BigOperators

namespace Cert.LstmSpec

open Idealize.ShloMosaic Idealize.ShloMosaic.ValueIdx

/-- The term of feature number `n` in the inner product of row `r` of the summed inputs with column `u` of a weight matrix. -/
def term (x h : SX.Idx → EReal) (W : SW.Idx → EReal) (r : Fin 8192) (u : Fin 2048) (n : ℕ) : EReal :=
  if hn : n < 4096 then (x (ix2 r ⟨n, hn⟩) + h (ix2 r ⟨n, hn⟩)) * W (ix2 ⟨n, hn⟩ u) else 0

theorem term_of_lt (x h : SX.Idx → EReal) (W : SW.Idx → EReal) (r : Fin 8192) (u : Fin 2048) (n : ℕ) (hn : n < 4096) :
    term x h W r u n = (x (ix2 r ⟨n, hn⟩) + h (ix2 r ⟨n, hn⟩)) * W (ix2 ⟨n, hn⟩ u) := dif_pos hn

/-- The gate with its inner product regrouped into 8 blocks of 512 features. -/
theorem gate_blocks (x h : SX.Idx → EReal) (W : SW.Idx → EReal) (b : SB.Idx → EReal) (r : Fin 8192) (u : Fin 2048) :
    gate x h W b r u = (∑ s ∈ Finset.range 8, ∑ kk : Fin 512, term x h W r u (512 * s + kk.val)) + b (ix1 u) := by
  unfold gate
  rw [← Cert.BlockSum.sum_4096 (term x h W r u)]
  refine congrArg (· + b (ix1 u)) ?_
  exact Finset.sum_congr rfl fun k _ => (term_of_lt x h W r u k.val k.isLt).symm

end Cert.LstmSpec

end
-- ==== Proof.Blocks.lean ====
/-
  The kernel's three result arrays are the specification's arrays.

  Each window of the kernel reads, at grid point `t`, one rectangle of its array: the summed inputs at rows
  `512·(t / 32) …` and features `512·(t mod 8) …`, a gate's weights at those features and units `512·((t / 8) mod 4) …`,
  a bias row at those units, the old cell state and the three results at those rows and units. The arrays
  themselves are what the host operations before the region left: the elementwise sum of the two inputs, the four
  weight matrices, and the four bias vectors laid out as rows (a change of float format being the identity on the
  extended reals).

  At the last point `t` of a run of eight, a gate's accumulator holds the block products of the points
  `8·(t / 8) … 8·(t / 8) + 7`; block product `s` is the inner product over features `512·s … 512·s + 511`, so the eight
  together are the gate's inner product over all 4096 features, and with the bias this is the specification's gate at
  the block's row and unit. The three blocks written back there are therefore the blocks of the specification's output
  gate, hidden state and cell state; every position of a result lies in exactly such a block (row-block `i / 512`,
  column-block `j / 512`, written back at point `32·(i / 512) + 8·(j / 512) + 7`); hence the arrays after the run.
-/
import proofs.«111009_j37924561224179_2_alg».proof.Proof.Gen.KernelIdeal.Value
import proofs.«111009_j37924561224179_2_alg».proof.Proof.Pieces
import proofs.«111009_j37924561224179_2_alg».proof.Proof.LibBlockSum
import proofs.«111009_j37924561224179_2_alg».proof.Proof.Epilogue
import proofs.«111009_j37924561224179_2_alg».proof.Proof.Index
import proofs.«111009_j37924561224179_2_alg».proof.Proof.Spec
import proofs.«111009_j37924561224179_2_alg».proof.Proof.GateBlocks
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.TcCoe Idealize.SL.Sem Idealize.ShloMosaic.ValueIdx Idealize.ShloMosaic.StableHlo
open Idealize.ShloMosaic.Pipeline (Dat)

namespace Cert.KernelIdeal.Blocks

open Cert.KernelIdeal Cert.KernelIdeal.Gen Cert.KernelIdeal.Accum Cert.KernelIdeal.Epilogue Cert.LstmSpec

variable (m : (ℓ : Loc nD τ sig) → Buf (Elt Ideal) ℓ)

/-! ## The eleven argument arrays of one device, as functions on their index sets -/

/-- The input. -/
abbrev inp (c : Dev nD) : S8192x4096.Idx → EReal := m ((c : Thread nD τ).loc main_arg0)
/-- The previous hidden state. -/
abbrev hid (c : Dev nD) : S8192x4096.Idx → EReal := m ((c : Thread nD τ).loc main_arg1)
/-- The previous cell state. -/
abbrev cel (c : Dev nD) : S8192x2048.Idx → EReal := m ((c : Thread nD τ).loc main_arg2)
/-- The forget gate's weights and bias. -/
abbrev wgtF (c : Dev nD) : S4096x2048.Idx → EReal := m ((c : Thread nD τ).loc main_arg3)
abbrev biaF (c : Dev nD) : S2048.Idx → EReal := m ((c : Thread nD τ).loc main_arg4)
/-- The candidate gate's weights and bias. -/
abbrev wgtC (c : Dev nD) : S4096x2048.Idx → EReal := m ((c : Thread nD τ).loc main_arg5)
abbrev biaC (c : Dev nD) : S2048.Idx → EReal := m ((c : Thread nD τ).loc main_arg6)
/-- The input gate's weights and bias. -/
abbrev wgtI (c : Dev nD) : S4096x2048.Idx → EReal := m ((c : Thread nD τ).loc main_arg7)
abbrev biaI (c : Dev nD) : S2048.Idx → EReal := m ((c : Thread nD τ).loc main_arg8)
/-- The output gate's weights and bias. -/
abbrev wgtO (c : Dev nD) : S4096x2048.Idx → EReal := m ((c : Thread nD τ).loc main_arg9)
abbrev biaO (c : Dev nD) : S2048.Idx → EReal := m ((c : Thread nD τ).loc main_arg10)

/-! ## The arrays the windows read, as the region finds them -/

/-- The array the first window reads is the elementwise sum of the two inputs (the change of float format is the identity). -/
theorem host_sum_at (c : Dev nD) (j : S8192x4096.Idx) :
    (V m c main_v1 : S8192x4096.Idx → EReal) j = inp m c j + hid m c j := by
  have e : (V m c main_v1 : S8192x4096.Idx → EReal) = fun j => inp m c j + hid m c j := by
    dsimp only [Gen.V, Gen.hostOps0]; after_results; rfl
  exact congrFun e j

/-- The array the forget gate's weight window reads is the gate's weight matrix. -/
theorem host_weights_0_at (c : Dev nD) (j : S4096x2048.Idx) :
    (V m c main_v2 : S4096x2048.Idx → EReal) j = wgtF m c j := by
  have e : (V m c main_v2 : S4096x2048.Idx → EReal) = wgtF m c := by
    dsimp only [Gen.V, Gen.hostOps0]; after_results; rfl
  exact congrFun e j

/-- The array the forget gate's bias window reads is the gate's bias vector laid out as one row. -/
theorem host_bias_0_at (c : Dev nD) (u : Fin 2048) :
    (V m c main_v6 : S1x2048.Idx → EReal) (ix2 (0 : Fin 1) u) = biaF m c (ix1 u) := by
  have e : (V m c main_v6 : S1x2048.Idx → EReal) = shapeCast S1x2048 (biaF m c) shapeCasts_S2048_S1x2048 := by
    dsimp only [Gen.V, Gen.hostOps0]; after_results; rfl
  rw [e]
  refine shapeCast_apply _ shapeCasts_S2048_S1x2048 (ix2 (0 : Fin 1) u) (ix1 u) ?_
  rw [Shape.rowMajor_val_one, Shape.rowMajor_val_two]
  show u.val = 0 * 2048 + u.val
  omega

/-- The array the candidate gate's weight window reads is the gate's weight matrix. -/
theorem host_weights_1_at (c : Dev nD) (j : S4096x2048.Idx) :
    (V m c main_v3 : S4096x2048.Idx → EReal) j = wgtC m c j := by
  have e : (V m c main_v3 : S4096x2048.Idx → EReal) = wgtC m c := by
    dsimp only [Gen.V, Gen.hostOps0]; after_results; rfl
  exact congrFun e j

/-- The array the candidate gate's bias window reads is the gate's bias vector laid out as one row. -/
theorem host_bias_1_at (c : Dev nD) (u : Fin 2048) :
    (V m c main_v7 : S1x2048.Idx → EReal) (ix2 (0 : Fin 1) u) = biaC m c (ix1 u) := by
  have e : (V m c main_v7 : S1x2048.Idx → EReal) = shapeCast S1x2048 (biaC m c) shapeCasts_S2048_S1x2048 := by
    dsimp only [Gen.V, Gen.hostOps0]; after_results; rfl
  rw [e]
  refine shapeCast_apply _ shapeCasts_S2048_S1x2048 (ix2 (0 : Fin 1) u) (ix1 u) ?_
  rw [Shape.rowMajor_val_one, Shape.rowMajor_val_two]
  show u.val = 0 * 2048 + u.val
  omega

/-- The array the input gate's weight window reads is the gate's weight matrix. -/
theorem host_weights_2_at (c : Dev nD) (j : S4096x2048.Idx) :
    (V m c main_v4 : S4096x2048.Idx → EReal) j = wgtI m c j := by
  have e : (V m c main_v4 : S4096x2048.Idx → EReal) = wgtI m c := by
    dsimp only [Gen.V, Gen.hostOps0]; after_results; rfl
  exact congrFun e j

/-- The array the input gate's bias window reads is the gate's bias vector laid out as one row. -/
theorem host_bias_2_at (c : Dev nD) (u : Fin 2048) :
    (V m c main_v8 : S1x2048.Idx → EReal) (ix2 (0 : Fin 1) u) = biaI m c (ix1 u) := by
  have e : (V m c main_v8 : S1x2048.Idx → EReal) = shapeCast S1x2048 (biaI m c) shapeCasts_S2048_S1x2048 := by
    dsimp only [Gen.V, Gen.hostOps0]; after_results; rfl
  rw [e]
  refine shapeCast_apply _ shapeCasts_S2048_S1x2048 (ix2 (0 : Fin 1) u) (ix1 u) ?_
  rw [Shape.rowMajor_val_one, Shape.rowMajor_val_two]
  show u.val = 0 * 2048 + u.val
  omega

/-- The array the output gate's weight window reads is the gate's weight matrix. -/
theorem host_weights_3_at (c : Dev nD) (j : S4096x2048.Idx) :
    (V m c main_v5 : S4096x2048.Idx → EReal) j = wgtO m c j := by
  have e : (V m c main_v5 : S4096x2048.Idx → EReal) = wgtO m c := by
    dsimp only [Gen.V, Gen.hostOps0]; after_results; rfl
  exact congrFun e j

/-- The array the output gate's bias window reads is the gate's bias vector laid out as one row. -/
theorem host_bias_3_at (c : Dev nD) (u : Fin 2048) :
    (V m c main_v9 : S1x2048.Idx → EReal) (ix2 (0 : Fin 1) u) = biaO m c (ix1 u) := by
  have e : (V m c main_v9 : S1x2048.Idx → EReal) = shapeCast S1x2048 (biaO m c) shapeCasts_S2048_S1x2048 := by
    dsimp only [Gen.V, Gen.hostOps0]; after_results; rfl
  rw [e]
  refine shapeCast_apply _ shapeCasts_S2048_S1x2048 (ix2 (0 : Fin 1) u) (ix1 u) ?_
  rw [Shape.rowMajor_val_one, Shape.rowMajor_val_two]
  show u.val = 0 * 2048 + u.val
  omega

/-! ## A window's block at a point is a rectangle of its array

  An entry of a block sits in the array at block index × block size + the entry's position in the block, on each axis. -/

/-- The block of the summed inputs at point `t`: rows `512·(t / 32) …`, features `512·(t mod 8) …`. -/
theorem sum_blk (c : Dev nD) (t : Fin cfg0.N) (p kk : Fin 512) (r : Fin 8192) (k : Fin 4096)
    (hr : r.val = 512 * (t.val / 32) + p.val) (hk : k.val = 512 * (t.val % 8) + kk.val) :
    iblk m c 0 t (ix2 p kk) = inp m c (ix2 r k) + hid m c (ix2 r k) := by
  obtain ⟨e0, e1⟩ := Index.block_0 t
  unfold iblk
  rw [View.read_apply]
  have hi : ((cfg0.win 0).blk t).view.emb (ix2 p kk) = ix2 r k := by
    funext a; apply Fin.ext
    match a with
    | ⟨0, _⟩ => show win0_0.index t (0 : Fin 2) * 512 + 1 * p.val = r.val; rw [e0]; omega
    | ⟨1, _⟩ => show win0_0.index t (1 : Fin 2) * 512 + 1 * kk.val = k.val; rw [e1]; omega
  rw [hi]
  exact host_sum_at m c (ix2 r k)

/-- The block of the forget gate's weights at point `t`: features `512·(t mod 8) …`, units `512·((t / 8) mod 4) …`. -/
theorem weights_blk_0 (c : Dev nD) (t : Fin cfg0.N) (kk q : Fin 512) (k : Fin 4096) (u : Fin 2048)
    (hk : k.val = 512 * (t.val % 8) + kk.val) (hu : u.val = 512 * (t.val / 8 % 4) + q.val) :
    iblk m c 1 t (ix2 kk q) = wgtF m c (ix2 k u) := by
  obtain ⟨e0, e1⟩ := Index.block_1 t
  unfold iblk
  rw [View.read_apply]
  have hi : ((cfg0.win 1).blk t).view.emb (ix2 kk q) = ix2 k u := by
    funext a; apply Fin.ext
    match a with
    | ⟨0, _⟩ => show win0_1.index t (0 : Fin 2) * 512 + 1 * kk.val = k.val; rw [e0]; omega
    | ⟨1, _⟩ => show win0_1.index t (1 : Fin 2) * 512 + 1 * q.val = u.val; rw [e1]; omega
  rw [hi]
  exact host_weights_0_at m c (ix2 k u)

/-- The block of the forget gate's bias row at point `t`: units `512·((t / 8) mod 4) …`. -/
theorem bias_blk_0 (c : Dev nD) (t : Fin cfg0.N) (q : Fin 512) (u : Fin 2048)
    (hu : u.val = 512 * (t.val / 8 % 4) + q.val) :
    iblk m c 5 t (ix2 (0 : Fin 1) q) = biaF m c (ix1 u) := by
  obtain ⟨e0, e1⟩ := Index.block_5 t
  unfold iblk
  rw [View.read_apply]
  have hi : ((cfg0.win 5).blk t).view.emb (ix2 (0 : Fin 1) q) = ix2 (0 : Fin 1) u := by
    funext a; apply Fin.ext
    match a with
    | ⟨0, _⟩ => show win0_5.index t (0 : Fin 2) * 1 + 1 * 0 = 0; rw [e0]
    | ⟨1, _⟩ => show win0_5.index t (1 : Fin 2) * 512 + 1 * q.val = u.val; rw [e1]; omega
  rw [hi]
  exact host_bias_0_at m c u

/-- The block of the candidate gate's weights at point `t`: features `512·(t mod 8) …`, units `512·((t / 8) mod 4) …`. -/
theorem weights_blk_1 (c : Dev nD) (t : Fin cfg0.N) (kk q : Fin 512) (k : Fin 4096) (u : Fin 2048)
    (hk : k.val = 512 * (t.val % 8) + kk.val) (hu : u.val = 512 * (t.val / 8 % 4) + q.val) :
    iblk m c 2 t (ix2 kk q) = wgtC m c (ix2 k u) := by
  obtain ⟨e0, e1⟩ := Index.block_2 t
  unfold iblk
  rw [View.read_apply]
  have hi : ((cfg0.win 2).blk t).view.emb (ix2 kk q) = ix2 k u := by
    funext a; apply Fin.ext
    match a with
    | ⟨0, _⟩ => show win0_2.index t (0 : Fin 2) * 512 + 1 * kk.val = k.val; rw [e0]; omega
    | ⟨1, _⟩ => show win0_2.index t (1 : Fin 2) * 512 + 1 * q.val = u.val; rw [e1]; omega
  rw [hi]
  exact host_weights_1_at m c (ix2 k u)

/-- The block of the candidate gate's bias row at point `t`: units `512·((t / 8) mod 4) …`. -/
theorem bias_blk_1 (c : Dev nD) (t : Fin cfg0.N) (q : Fin 512) (u : Fin 2048)
    (hu : u.val = 512 * (t.val / 8 % 4) + q.val) :
    iblk m c 6 t (ix2 (0 : Fin 1) q) = biaC m c (ix1 u) := by
  obtain ⟨e0, e1⟩ := Index.block_6 t
  unfold iblk
  rw [View.read_apply]
  have hi : ((cfg0.win 6).blk t).view.emb (ix2 (0 : Fin 1) q) = ix2 (0 : Fin 1) u := by
    funext a; apply Fin.ext
    match a with
    | ⟨0, _⟩ => show win0_6.index t (0 : Fin 2) * 1 + 1 * 0 = 0; rw [e0]
    | ⟨1, _⟩ => show win0_6.index t (1 : Fin 2) * 512 + 1 * q.val = u.val; rw [e1]; omega
  rw [hi]
  exact host_bias_1_at m c u

/-- The block of the input gate's weights at point `t`: features `512·(t mod 8) …`, units `512·((t / 8) mod 4) …`. -/
theorem weights_blk_2 (c : Dev nD) (t : Fin cfg0.N) (kk q : Fin 512) (k : Fin 4096) (u : Fin 2048)
    (hk : k.val = 512 * (t.val % 8) + kk.val) (hu : u.val = 512 * (t.val / 8 % 4) + q.val) :
    iblk m c 3 t (ix2 kk q) = wgtI m c (ix2 k u) := by
  obtain ⟨e0, e1⟩ := Index.block_3 t
  unfold iblk
  rw [View.read_apply]
  have hi : ((cfg0.win 3).blk t).view.emb (ix2 kk q) = ix2 k u := by
    funext a; apply Fin.ext
    match a with
    | ⟨0, _⟩ => show win0_3.index t (0 : Fin 2) * 512 + 1 * kk.val = k.val; rw [e0]; omega
    | ⟨1, _⟩ => show win0_3.index t (1 : Fin 2) * 512 + 1 * q.val = u.val; rw [e1]; omega
  rw [hi]
  exact host_weights_2_at m c (ix2 k u)

/-- The block of the input gate's bias row at point `t`: units `512·((t / 8) mod 4) …`. -/
theorem bias_blk_2 (c : Dev nD) (t : Fin cfg0.N) (q : Fin 512) (u : Fin 2048)
    (hu : u.val = 512 * (t.val / 8 % 4) + q.val) :
    iblk m c 7 t (ix2 (0 : Fin 1) q) = biaI m c (ix1 u) := by
  obtain ⟨e0, e1⟩ := Index.block_7 t
  unfold iblk
  rw [View.read_apply]
  have hi : ((cfg0.win 7).blk t).view.emb (ix2 (0 : Fin 1) q) = ix2 (0 : Fin 1) u := by
    funext a; apply Fin.ext
    match a with
    | ⟨0, _⟩ => show win0_7.index t (0 : Fin 2) * 1 + 1 * 0 = 0; rw [e0]
    | ⟨1, _⟩ => show win0_7.index t (1 : Fin 2) * 512 + 1 * q.val = u.val; rw [e1]; omega
  rw [hi]
  exact host_bias_2_at m c u

/-- The block of the output gate's weights at point `t`: features `512·(t mod 8) …`, units `512·((t / 8) mod 4) …`. -/
theorem weights_blk_3 (c : Dev nD) (t : Fin cfg0.N) (kk q : Fin 512) (k : Fin 4096) (u : Fin 2048)
    (hk : k.val = 512 * (t.val % 8) + kk.val) (hu : u.val = 512 * (t.val / 8 % 4) + q.val) :
    iblk m c 4 t (ix2 kk q) = wgtO m c (ix2 k u) := by
  obtain ⟨e0, e1⟩ := Index.block_4 t
  unfold iblk
  rw [View.read_apply]
  have hi : ((cfg0.win 4).blk t).view.emb (ix2 kk q) = ix2 k u := by
    funext a; apply Fin.ext
    match a with
    | ⟨0, _⟩ => show win0_4.index t (0 : Fin 2) * 512 + 1 * kk.val = k.val; rw [e0]; omega
    | ⟨1, _⟩ => show win0_4.index t (1 : Fin 2) * 512 + 1 * q.val = u.val; rw [e1]; omega
  rw [hi]
  exact host_weights_3_at m c (ix2 k u)

/-- The block of the output gate's bias row at point `t`: units `512·((t / 8) mod 4) …`. -/
theorem bias_blk_3 (c : Dev nD) (t : Fin cfg0.N) (q : Fin 512) (u : Fin 2048)
    (hu : u.val = 512 * (t.val / 8 % 4) + q.val) :
    iblk m c 8 t (ix2 (0 : Fin 1) q) = biaO m c (ix1 u) := by
  obtain ⟨e0, e1⟩ := Index.block_8 t
  unfold iblk
  rw [View.read_apply]
  have hi : ((cfg0.win 8).blk t).view.emb (ix2 (0 : Fin 1) q) = ix2 (0 : Fin 1) u := by
    funext a; apply Fin.ext
    match a with
    | ⟨0, _⟩ => show win0_8.index t (0 : Fin 2) * 1 + 1 * 0 = 0; rw [e0]
    | ⟨1, _⟩ => show win0_8.index t (1 : Fin 2) * 512 + 1 * q.val = u.val; rw [e1]; omega
  rw [hi]
  exact host_bias_3_at m c u

/-- The block of the old cell state at point `t`: rows `512·(t / 32) …`, units `512·((t / 8) mod 4) …`. -/
theorem cell_blk (c : Dev nD) (t : Fin cfg0.N) (p q : Fin 512) (r : Fin 8192) (u : Fin 2048)
    (hr : r.val = 512 * (t.val / 32) + p.val) (hu : u.val = 512 * (t.val / 8 % 4) + q.val) :
    iblk m c 9 t (ix2 p q) = cel m c (ix2 r u) := by
  obtain ⟨e0, e1⟩ := Index.block_9 t
  unfold iblk
  rw [View.read_apply]
  have hi : ((cfg0.win 9).blk t).view.emb (ix2 p q) = ix2 r u := by
    funext a; apply Fin.ext
    match a with
    | ⟨0, _⟩ => show win0_9.index t (0 : Fin 2) * 512 + 1 * p.val = r.val; rw [e0]; omega
    | ⟨1, _⟩ => show win0_9.index t (1 : Fin 2) * 512 + 1 * q.val = u.val; rw [e1]; omega
  rw [hi]
  exact congrFun (V_main_arg2 m c) (ix2 r u)

/-! ## A finished accumulator plus its bias is the gate

  At the last point of a run the accumulator holds the eight block products of the run. Block `s` of the run
  multiplies features `512·s … 512·s + 511` of the output block's rows with the same features of the output
  block's units, so the eight products are the eight blocks of the gate's long sum. -/

/-- The forget gate from its accumulator and bias row, at the last point `t` of a run. -/
theorem gate_of_acc_0 (c : Dev nD) (t : Fin cfg0.N) (h1 : t.val % 8 = 7) (p q : Fin 512) (r : Fin 8192) (u : Fin 2048)
    (hr : r.val = 512 * (t.val / 32) + p.val) (hu : u.val = 512 * (t.val / 8 % 4) + q.val) :
    (outsAt0 m c t.val t.isLt).2.2.2.1 (ix2 p q) + iblk m c 5 t (ix2 (0 : Fin 1) q) = gate (inp m c) (hid m c) (wgtF m c) (biaF m c) r u := by
  have hN : cfg0.N = 512 := Index.points
  have ht : t.val < 512 := lt_of_lt_of_eq t.isLt hN
  rw [acc_0_at m c t p q, bias_blk_0 m c t q u hu, h1, zero_add, gate_blocks]
  refine congrArg (· + biaF m c (ix1 u)) ?_
  refine Finset.sum_congr rfl fun s hs => ?_
  have hs8 : s < 8 := Finset.mem_range.mp hs
  have hn : 8 * (t.val / 8) + s < cfg0.N := by omega
  rw [addend_0_at m c (8 * (t.val / 8) + s) hn p q]
  unfold blockProd
  refine Finset.sum_congr rfl fun kk _ => ?_
  have hkk : kk.val < 512 := kk.isLt
  have hlt : 512 * s + kk.val < 4096 := by omega
  rw [sum_blk m c ⟨8 * (t.val / 8) + s, hn⟩ p kk r ⟨512 * s + kk.val, hlt⟩
      (by show r.val = 512 * ((8 * (t.val / 8) + s) / 32) + p.val; omega)
      (by show 512 * s + kk.val = 512 * ((8 * (t.val / 8) + s) % 8) + kk.val; omega),
    weights_blk_0 m c ⟨8 * (t.val / 8) + s, hn⟩ kk q ⟨512 * s + kk.val, hlt⟩ u
      (by show 512 * s + kk.val = 512 * ((8 * (t.val / 8) + s) % 8) + kk.val; omega)
      (by show u.val = 512 * ((8 * (t.val / 8) + s) / 8 % 4) + q.val; omega)]
  exact (term_of_lt _ _ _ r u (512 * s + kk.val) hlt).symm

/-- The candidate gate from its accumulator and bias row, at the last point `t` of a run. -/
theorem gate_of_acc_1 (c : Dev nD) (t : Fin cfg0.N) (h1 : t.val % 8 = 7) (p q : Fin 512) (r : Fin 8192) (u : Fin 2048)
    (hr : r.val = 512 * (t.val / 32) + p.val) (hu : u.val = 512 * (t.val / 8 % 4) + q.val) :
    (outsAt0 m c t.val t.isLt).2.2.2.2.1 (ix2 p q) + iblk m c 6 t (ix2 (0 : Fin 1) q) = gate (inp m c) (hid m c) (wgtC m c) (biaC m c) r u := by
  have hN : cfg0.N = 512 := Index.points
  have ht : t.val < 512 := lt_of_lt_of_eq t.isLt hN
  rw [acc_1_at m c t p q, bias_blk_1 m c t q u hu, h1, zero_add, gate_blocks]
  refine congrArg (· + biaC m c (ix1 u)) ?_
  refine Finset.sum_congr rfl fun s hs => ?_
  have hs8 : s < 8 := Finset.mem_range.mp hs
  have hn : 8 * (t.val / 8) + s < cfg0.N := by omega
  rw [addend_1_at m c (8 * (t.val / 8) + s) hn p q]
  unfold blockProd
  refine Finset.sum_congr rfl fun kk _ => ?_
  have hkk : kk.val < 512 := kk.isLt
  have hlt : 512 * s + kk.val < 4096 := by omega
  rw [sum_blk m c ⟨8 * (t.val / 8) + s, hn⟩ p kk r ⟨512 * s + kk.val, hlt⟩
      (by show r.val = 512 * ((8 * (t.val / 8) + s) / 32) + p.val; omega)
      (by show 512 * s + kk.val = 512 * ((8 * (t.val / 8) + s) % 8) + kk.val; omega),
    weights_blk_1 m c ⟨8 * (t.val / 8) + s, hn⟩ kk q ⟨512 * s + kk.val, hlt⟩ u
      (by show 512 * s + kk.val = 512 * ((8 * (t.val / 8) + s) % 8) + kk.val; omega)
      (by show u.val = 512 * ((8 * (t.val / 8) + s) / 8 % 4) + q.val; omega)]
  exact (term_of_lt _ _ _ r u (512 * s + kk.val) hlt).symm

/-- The input gate from its accumulator and bias row, at the last point `t` of a run. -/
theorem gate_of_acc_2 (c : Dev nD) (t : Fin cfg0.N) (h1 : t.val % 8 = 7) (p q : Fin 512) (r : Fin 8192) (u : Fin 2048)
    (hr : r.val = 512 * (t.val / 32) + p.val) (hu : u.val = 512 * (t.val / 8 % 4) + q.val) :
    (outsAt0 m c t.val t.isLt).2.2.2.2.2.1 (ix2 p q) + iblk m c 7 t (ix2 (0 : Fin 1) q) = gate (inp m c) (hid m c) (wgtI m c) (biaI m c) r u := by
  have hN : cfg0.N = 512 := Index.points
  have ht : t.val < 512 := lt_of_lt_of_eq t.isLt hN
  rw [acc_2_at m c t p q, bias_blk_2 m c t q u hu, h1, zero_add, gate_blocks]
  refine congrArg (· + biaI m c (ix1 u)) ?_
  refine Finset.sum_congr rfl fun s hs => ?_
  have hs8 : s < 8 := Finset.mem_range.mp hs
  have hn : 8 * (t.val / 8) + s < cfg0.N := by omega
  rw [addend_2_at m c (8 * (t.val / 8) + s) hn p q]
  unfold blockProd
  refine Finset.sum_congr rfl fun kk _ => ?_
  have hkk : kk.val < 512 := kk.isLt
  have hlt : 512 * s + kk.val < 4096 := by omega
  rw [sum_blk m c ⟨8 * (t.val / 8) + s, hn⟩ p kk r ⟨512 * s + kk.val, hlt⟩
      (by show r.val = 512 * ((8 * (t.val / 8) + s) / 32) + p.val; omega)
      (by show 512 * s + kk.val = 512 * ((8 * (t.val / 8) + s) % 8) + kk.val; omega),
    weights_blk_2 m c ⟨8 * (t.val / 8) + s, hn⟩ kk q ⟨512 * s + kk.val, hlt⟩ u
      (by show 512 * s + kk.val = 512 * ((8 * (t.val / 8) + s) % 8) + kk.val; omega)
      (by show u.val = 512 * ((8 * (t.val / 8) + s) / 8 % 4) + q.val; omega)]
  exact (term_of_lt _ _ _ r u (512 * s + kk.val) hlt).symm

/-- The output gate from its accumulator and bias row, at the last point `t` of a run. -/
theorem gate_of_acc_3 (c : Dev nD) (t : Fin cfg0.N) (h1 : t.val % 8 = 7) (p q : Fin 512) (r : Fin 8192) (u : Fin 2048)
    (hr : r.val = 512 * (t.val / 32) + p.val) (hu : u.val = 512 * (t.val / 8 % 4) + q.val) :
    (outsAt0 m c t.val t.isLt).2.2.2.2.2.2 (ix2 p q) + iblk m c 8 t (ix2 (0 : Fin 1) q) = gate (inp m c) (hid m c) (wgtO m c) (biaO m c) r u := by
  have hN : cfg0.N = 512 := Index.points
  have ht : t.val < 512 := lt_of_lt_of_eq t.isLt hN
  rw [acc_3_at m c t p q, bias_blk_3 m c t q u hu, h1, zero_add, gate_blocks]
  refine congrArg (· + biaO m c (ix1 u)) ?_
  refine Finset.sum_congr rfl fun s hs => ?_
  have hs8 : s < 8 := Finset.mem_range.mp hs
  have hn : 8 * (t.val / 8) + s < cfg0.N := by omega
  rw [addend_3_at m c (8 * (t.val / 8) + s) hn p q]
  unfold blockProd
  refine Finset.sum_congr rfl fun kk _ => ?_
  have hkk : kk.val < 512 := kk.isLt
  have hlt : 512 * s + kk.val < 4096 := by omega
  rw [sum_blk m c ⟨8 * (t.val / 8) + s, hn⟩ p kk r ⟨512 * s + kk.val, hlt⟩
      (by show r.val = 512 * ((8 * (t.val / 8) + s) / 32) + p.val; omega)
      (by show 512 * s + kk.val = 512 * ((8 * (t.val / 8) + s) % 8) + kk.val; omega),
    weights_blk_3 m c ⟨8 * (t.val / 8) + s, hn⟩ kk q ⟨512 * s + kk.val, hlt⟩ u
      (by show 512 * s + kk.val = 512 * ((8 * (t.val / 8) + s) % 8) + kk.val; omega)
      (by show u.val = 512 * ((8 * (t.val / 8) + s) / 8 % 4) + q.val; omega)]
  exact (term_of_lt _ _ _ r u (512 * s + kk.val) hlt).symm

/-! ## What a flushing point writes back is its block of the specification's array -/

/-- The first result: the block written back at the last point of a run is that block of the output gate's array. -/
theorem flushed_out (c : Dev nD) (t : Fin cfg0.N) (hf : (cfg0.win 10).flush t = true) :
    (dats m 0 c).flushed 10 t = ((cfg0.win 10).blk t).view.read (Elt Ideal) (outGate (inp m c) (hid m c) (wgtO m c) (biaO m c)) := by
  have h1 : t.val % 8 = 7 := (flush0_10 t).mp hf
  have h0 : ¬t.val % 8 = 0 := by omega
  have ht : t.val < 512 := lt_of_lt_of_eq t.isLt Index.points
  obtain ⟨e0, e1⟩ := Index.block_10 t
  rw [Value.flushed10 m c t]
  funext y
  obtain ⟨p, q, rfl⟩ : ∃ (p q : Fin 512), y = ix2 p q := ⟨y 0, y 1, eq_ix2 y⟩
  have hp : p.val < 512 := p.isLt
  have hq : q.val < 512 := q.isLt
  obtain ⟨r, hr⟩ : ∃ r : Fin 8192, r.val = 512 * (t.val / 32) + p.val := ⟨⟨512 * (t.val / 32) + p.val, by omega⟩, rfl⟩
  obtain ⟨u, hu⟩ : ∃ u : Fin 2048, u.val = 512 * (t.val / 8 % 4) + q.val := ⟨⟨512 * (t.val / 8 % 4) + q.val, by omega⟩, rfl⟩
  have hi : ((cfg0.win 10).blk t).view.emb (ix2 p q) = ix2 r u := by
    funext a; apply Fin.ext
    match a with
    | ⟨0, _⟩ => show win0_10.index t (0 : Fin 2) * 512 + 1 * p.val = r.val; rw [e0]; omega
    | ⟨1, _⟩ => show win0_10.index t (1 : Fin 2) * 512 + 1 * q.val = u.val; rw [e1]; omega
  show (outsAt0 m c t.val t.isLt).1 (ix2 p q) = outGate (inp m c) (hid m c) (wgtO m c) (biaO m c) (((cfg0.win 10).blk t).view.emb (ix2 p q))
  rw [hi, outGate_at]
  unfold outGateAt
  refine (congrFun (out_at_last m c t h0 h1) (ix2 p q)).trans ?_
  refine (out_pay_at _ (iblk m c 8 t) p q).trans ?_
  rw [gate_of_acc_3 m c t h1 p q r u hr hu]

/-- The third result: the block written back is that block of the new cell state's array. -/
theorem flushed_cell (c : Dev nD) (t : Fin cfg0.N) (hf : (cfg0.win 12).flush t = true) :
    (dats m 0 c).flushed 12 t = ((cfg0.win 12).blk t).view.read (Elt Ideal) (cellState (inp m c) (hid m c) (cel m c) (wgtF m c) (biaF m c) (wgtC m c) (biaC m c) (wgtI m c) (biaI m c)) := by
  have h1 : t.val % 8 = 7 := (flush0_12 t).mp hf
  have h0 : ¬t.val % 8 = 0 := by omega
  have ht : t.val < 512 := lt_of_lt_of_eq t.isLt Index.points
  obtain ⟨e0, e1⟩ := Index.block_12 t
  rw [Value.flushed12 m c t]
  funext y
  obtain ⟨p, q, rfl⟩ : ∃ (p q : Fin 512), y = ix2 p q := ⟨y 0, y 1, eq_ix2 y⟩
  have hp : p.val < 512 := p.isLt
  have hq : q.val < 512 := q.isLt
  obtain ⟨r, hr⟩ : ∃ r : Fin 8192, r.val = 512 * (t.val / 32) + p.val := ⟨⟨512 * (t.val / 32) + p.val, by omega⟩, rfl⟩
  obtain ⟨u, hu⟩ : ∃ u : Fin 2048, u.val = 512 * (t.val / 8 % 4) + q.val := ⟨⟨512 * (t.val / 8 % 4) + q.val, by omega⟩, rfl⟩
  have hi : ((cfg0.win 12).blk t).view.emb (ix2 p q) = ix2 r u := by
    funext a; apply Fin.ext
    match a with
    | ⟨0, _⟩ => show win0_12.index t (0 : Fin 2) * 512 + 1 * p.val = r.val; rw [e0]; omega
    | ⟨1, _⟩ => show win0_12.index t (1 : Fin 2) * 512 + 1 * q.val = u.val; rw [e1]; omega
  show (outsAt0 m c t.val t.isLt).2.2.1 (ix2 p q) = cellState (inp m c) (hid m c) (cel m c) (wgtF m c) (biaF m c) (wgtC m c) (biaC m c) (wgtI m c) (biaI m c) (((cfg0.win 12).blk t).view.emb (ix2 p q))
  rw [hi, cellState_at]
  unfold cellStateAt
  refine (congrFun (cell_at_last m c t h0 h1) (ix2 p q)).trans ?_
  refine (cell_pay_at _ (iblk m c 5 t) _ (iblk m c 6 t) _ (iblk m c 7 t) (iblk m c 9 t) p q).trans ?_
  rw [cell_blk m c t p q r u hr hu, gate_of_acc_0 m c t h1 p q r u hr hu, gate_of_acc_1 m c t h1 p q r u hr hu,
    gate_of_acc_2 m c t h1 p q r u hr hu]

/-- The second result: the block written back is that block of the new hidden state's array. -/
theorem flushed_hidden (c : Dev nD) (t : Fin cfg0.N) (hf : (cfg0.win 11).flush t = true) :
    (dats m 0 c).flushed 11 t = ((cfg0.win 11).blk t).view.read (Elt Ideal) (hiddenState (inp m c) (hid m c) (cel m c) (wgtF m c) (biaF m c) (wgtC m c) (biaC m c) (wgtI m c) (biaI m c) (wgtO m c) (biaO m c)) := by
  have h1 : t.val % 8 = 7 := (flush0_11 t).mp hf
  have h0 : ¬t.val % 8 = 0 := by omega
  have ht : t.val < 512 := lt_of_lt_of_eq t.isLt Index.points
  obtain ⟨e0, e1⟩ := Index.block_11 t
  rw [Value.flushed11 m c t]
  funext y
  obtain ⟨p, q, rfl⟩ : ∃ (p q : Fin 512), y = ix2 p q := ⟨y 0, y 1, eq_ix2 y⟩
  have hp : p.val < 512 := p.isLt
  have hq : q.val < 512 := q.isLt
  obtain ⟨r, hr⟩ : ∃ r : Fin 8192, r.val = 512 * (t.val / 32) + p.val := ⟨⟨512 * (t.val / 32) + p.val, by omega⟩, rfl⟩
  obtain ⟨u, hu⟩ : ∃ u : Fin 2048, u.val = 512 * (t.val / 8 % 4) + q.val := ⟨⟨512 * (t.val / 8 % 4) + q.val, by omega⟩, rfl⟩
  have hi : ((cfg0.win 11).blk t).view.emb (ix2 p q) = ix2 r u := by
    funext a; apply Fin.ext
    match a with
    | ⟨0, _⟩ => show win0_11.index t (0 : Fin 2) * 512 + 1 * p.val = r.val; rw [e0]; omega
    | ⟨1, _⟩ => show win0_11.index t (1 : Fin 2) * 512 + 1 * q.val = u.val; rw [e1]; omega
  show (outsAt0 m c t.val t.isLt).2.1 (ix2 p q) = hiddenState (inp m c) (hid m c) (cel m c) (wgtF m c) (biaF m c) (wgtC m c) (biaC m c) (wgtI m c) (biaI m c) (wgtO m c) (biaO m c) (((cfg0.win 11).blk t).view.emb (ix2 p q))
  rw [hi, hiddenState_at]
  unfold hiddenStateAt outGateAt cellStateAt
  refine (congrFun (hidden_at_last m c t h0 h1) (ix2 p q)).trans ?_
  refine (hidden_pay_at _ (iblk m c 5 t) _ (iblk m c 6 t) _ (iblk m c 7 t) _ (iblk m c 8 t) (iblk m c 9 t) p q).trans ?_
  refine (congrArg₂ (· * ·) (out_pay_at _ (iblk m c 8 t) p q)
    (congrArg Ideal.tanh (cell_pay_at _ (iblk m c 5 t) _ (iblk m c 6 t) _ (iblk m c 7 t) (iblk m c 9 t) p q))).trans ?_
  rw [cell_blk m c t p q r u hr hu, gate_of_acc_0 m c t h1 p q r u hr hu, gate_of_acc_1 m c t h1 p q r u hr hu,
    gate_of_acc_2 m c t h1 p q r u hr hu, gate_of_acc_3 m c t h1 p q r u hr hu]

/-! ## The flushed blocks cover the result arrays

  Row `i` and unit `j` of a result lie in the block of row-block `i / 512` and column-block `j / 512`, which the last
  point of that block's run writes back: point `32·(i / 512) + 8·(j / 512) + 7`. -/

/-- An index of result 0's array is in point `t`'s block iff each coordinate is in the block's range on its axis. -/
theorem mem_blk_10 (t : Fin cfg0.N) (i : S8192x2048.Idx) :
    i ∈ ((cfg0.win 10).blk t).view.set ↔ ∀ a : Fin 2, win0_10.index t a * S512x512.size a ≤ (i a).val ∧ (i a).val < win0_10.index t a * S512x512.size a + S512x512.size a := by
  show i ∈ ((View.whole main_v10_0).slice (win0_10.rect t)).set ↔ _
  rw [View.set_slice_whole, Rect.mem_set_unit]
  exact Iff.rfl

/-- Every index of result 0's array is in the block of some point that writes back. -/
theorem covered_10 (i : S8192x2048.Idx) :
    ∃ t : Fin cfg0.N, (cfg0.win 10).flush t = true ∧ i ∈ ((cfg0.win 10).blk t).view.set := by
  have hi0 : (i 0).val < 8192 := (i 0).isLt
  have hi1 : (i 1).val < 2048 := (i 1).isLt
  obtain ⟨n, hn⟩ : ∃ n : ℕ, n = 32 * ((i 0).val / 512) + 8 * ((i 1).val / 512) + 7 := ⟨_, rfl⟩
  have hlt : n < cfg0.N := by rw [Index.points]; omega
  obtain ⟨e0, e1⟩ := Index.block_10 ⟨n, hlt⟩
  refine ⟨⟨n, hlt⟩, (flush0_10 ⟨n, hlt⟩).mpr (by show n % 8 = 7; omega), ?_⟩
  rw [mem_blk_10]
  intro a
  match a with
  | ⟨0, _⟩ =>
    show win0_10.index ⟨n, hlt⟩ (0 : Fin 2) * 512 ≤ (i 0).val ∧ (i 0).val < win0_10.index ⟨n, hlt⟩ (0 : Fin 2) * 512 + 512
    rw [e0]
    show n / 32 * 512 ≤ (i 0).val ∧ (i 0).val < n / 32 * 512 + 512
    omega
  | ⟨1, _⟩ =>
    show win0_10.index ⟨n, hlt⟩ (1 : Fin 2) * 512 ≤ (i 1).val ∧ (i 1).val < win0_10.index ⟨n, hlt⟩ (1 : Fin 2) * 512 + 512
    rw [e1]
    show n / 8 % 4 * 512 ≤ (i 1).val ∧ (i 1).val < n / 8 % 4 * 512 + 512
    omega

/-- An index of result 1's array is in point `t`'s block iff each coordinate is in the block's range on its axis. -/
theorem mem_blk_11 (t : Fin cfg0.N) (i : S8192x2048.Idx) :
    i ∈ ((cfg0.win 11).blk t).view.set ↔ ∀ a : Fin 2, win0_11.index t a * S512x512.size a ≤ (i a).val ∧ (i a).val < win0_11.index t a * S512x512.size a + S512x512.size a := by
  show i ∈ ((View.whole main_v10_1).slice (win0_11.rect t)).set ↔ _
  rw [View.set_slice_whole, Rect.mem_set_unit]
  exact Iff.rfl

/-- Every index of result 1's array is in the block of some point that writes back. -/
theorem covered_11 (i : S8192x2048.Idx) :
    ∃ t : Fin cfg0.N, (cfg0.win 11).flush t = true ∧ i ∈ ((cfg0.win 11).blk t).view.set := by
  have hi0 : (i 0).val < 8192 := (i 0).isLt
  have hi1 : (i 1).val < 2048 := (i 1).isLt
  obtain ⟨n, hn⟩ : ∃ n : ℕ, n = 32 * ((i 0).val / 512) + 8 * ((i 1).val / 512) + 7 := ⟨_, rfl⟩
  have hlt : n < cfg0.N := by rw [Index.points]; omega
  obtain ⟨e0, e1⟩ := Index.block_11 ⟨n, hlt⟩
  refine ⟨⟨n, hlt⟩, (flush0_11 ⟨n, hlt⟩).mpr (by show n % 8 = 7; omega), ?_⟩
  rw [mem_blk_11]
  intro a
  match a with
  | ⟨0, _⟩ =>
    show win0_11.index ⟨n, hlt⟩ (0 : Fin 2) * 512 ≤ (i 0).val ∧ (i 0).val < win0_11.index ⟨n, hlt⟩ (0 : Fin 2) * 512 + 512
    rw [e0]
    show n / 32 * 512 ≤ (i 0).val ∧ (i 0).val < n / 32 * 512 + 512
    omega
  | ⟨1, _⟩ =>
    show win0_11.index ⟨n, hlt⟩ (1 : Fin 2) * 512 ≤ (i 1).val ∧ (i 1).val < win0_11.index ⟨n, hlt⟩ (1 : Fin 2) * 512 + 512
    rw [e1]
    show n / 8 % 4 * 512 ≤ (i 1).val ∧ (i 1).val < n / 8 % 4 * 512 + 512
    omega

/-- An index of result 2's array is in point `t`'s block iff each coordinate is in the block's range on its axis. -/
theorem mem_blk_12 (t : Fin cfg0.N) (i : S8192x2048.Idx) :
    i ∈ ((cfg0.win 12).blk t).view.set ↔ ∀ a : Fin 2, win0_12.index t a * S512x512.size a ≤ (i a).val ∧ (i a).val < win0_12.index t a * S512x512.size a + S512x512.size a := by
  show i ∈ ((View.whole main_v10_2).slice (win0_12.rect t)).set ↔ _
  rw [View.set_slice_whole, Rect.mem_set_unit]
  exact Iff.rfl

/-- Every index of result 2's array is in the block of some point that writes back. -/
theorem covered_12 (i : S8192x2048.Idx) :
    ∃ t : Fin cfg0.N, (cfg0.win 12).flush t = true ∧ i ∈ ((cfg0.win 12).blk t).view.set := by
  have hi0 : (i 0).val < 8192 := (i 0).isLt
  have hi1 : (i 1).val < 2048 := (i 1).isLt
  obtain ⟨n, hn⟩ : ∃ n : ℕ, n = 32 * ((i 0).val / 512) + 8 * ((i 1).val / 512) + 7 := ⟨_, rfl⟩
  have hlt : n < cfg0.N := by rw [Index.points]; omega
  obtain ⟨e0, e1⟩ := Index.block_12 ⟨n, hlt⟩
  refine ⟨⟨n, hlt⟩, (flush0_12 ⟨n, hlt⟩).mpr (by show n % 8 = 7; omega), ?_⟩
  rw [mem_blk_12]
  intro a
  match a with
  | ⟨0, _⟩ =>
    show win0_12.index ⟨n, hlt⟩ (0 : Fin 2) * 512 ≤ (i 0).val ∧ (i 0).val < win0_12.index ⟨n, hlt⟩ (0 : Fin 2) * 512 + 512
    rw [e0]
    show n / 32 * 512 ≤ (i 0).val ∧ (i 0).val < n / 32 * 512 + 512
    omega
  | ⟨1, _⟩ =>
    show win0_12.index ⟨n, hlt⟩ (1 : Fin 2) * 512 ≤ (i 1).val ∧ (i 1).val < win0_12.index ⟨n, hlt⟩ (1 : Fin 2) * 512 + 512
    rw [e1]
    show n / 8 % 4 * 512 ≤ (i 1).val ∧ (i 1).val < n / 8 % 4 * 512 + 512
    omega

/-! ## The result arrays after the run -/

theorem final_out (c : Dev nD) : (dats m 0 c).arrAt 10 cfg0.N = outGate (inp m c) (hid m c) (wgtO m c) (biaO m c) :=
  (dats m 0 c).arrAt_eq_of_cover 10 (outGate (inp m c) (hid m c) (wgtO m c) (biaO m c)) (fun t hf => flushed_out m c t hf) covered_10

theorem final_hidden (c : Dev nD) : (dats m 0 c).arrAt 11 cfg0.N = hiddenState (inp m c) (hid m c) (cel m c) (wgtF m c) (biaF m c) (wgtC m c) (biaC m c) (wgtI m c) (biaI m c) (wgtO m c) (biaO m c) :=
  (dats m 0 c).arrAt_eq_of_cover 11 (hiddenState (inp m c) (hid m c) (cel m c) (wgtF m c) (biaF m c) (wgtC m c) (biaC m c) (wgtI m c) (biaI m c) (wgtO m c) (biaO m c)) (fun t hf => flushed_hidden m c t hf) covered_11

theorem final_cell (c : Dev nD) : (dats m 0 c).arrAt 12 cfg0.N = cellState (inp m c) (hid m c) (cel m c) (wgtF m c) (biaF m c) (wgtC m c) (biaC m c) (wgtI m c) (biaI m c) :=
  (dats m 0 c).arrAt_eq_of_cover 12 (cellState (inp m c) (hid m c) (cel m c) (wgtF m c) (biaF m c) (wgtC m c) (biaC m c) (wgtI m c) (biaI m c)) (fun t hf => flushed_cell m c t hf) covered_12

/-- The idealized kernel's run: the three result arrays end at the specification's arrays of the arguments, and the arguments are unchanged. -/
theorem run (ρ : Dev nD → PrngReg) : θ_run defs (onTc (τ := τ) (main (F := Ideal))) ⟨m, fun _ => 0, ρ⟩ fun r => ∀ c : Dev nD,
      r.2.mem ((c : Thread nD τ).loc main_v10_0) = outGate (inp m c) (hid m c) (wgtO m c) (biaO m c)
      ∧ r.2.mem ((c : Thread nD τ).loc main_v10_1) = hiddenState (inp m c) (hid m c) (cel m c) (wgtF m c) (biaF m c) (wgtC m c) (biaC m c) (wgtI m c) (biaI m c) (wgtO m c) (biaO m c)
      ∧ r.2.mem ((c : Thread nD τ).loc main_v10_2) = cellState (inp m c) (hid m c) (cel m c) (wgtF m c) (biaF m c) (wgtC m c) (biaC m c) (wgtI m c) (biaI m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final_out m c), (h c).2.1.trans (final_hidden m c),
      (h c).2.2.1.trans (final_cell m c), (h c).2.2.2⟩)
    (Value.run_blocks m ρ)

end Cert.KernelIdeal.Blocks

end
-- ==== Proof.RefIsSpec.lean ====
/-
  The reference computes the specification.

  The reference joins the four weight matrices side by side into one [4096, 8192] matrix and the four bias
  vectors end to end into one [8192] vector, forms the single affine map `s · W + b` over all 8192 columns,
  and cuts the result back into four [8192, 2048] pieces. Column `2048·g + c` of the joined matrix is column
  `c` of gate `g`'s matrix, and likewise for the bias, so piece `g` at `(r, c)` is gate `g`'s affine map at
  `(r, c)`. The reference then spells the logistic function as `1 / (1 + e^(-x))`; on the extended reals that
  quotient is the logistic function itself. The rest is the same products and sums as the specification.
-/
import proofs.«111009_j37924561224179_2_alg».proof.Proof.Gen.ReferenceIdeal.Read
import proofs.«111009_j37924561224179_2_alg».proof.Proof.Spec
import Idealize.ShloMosaic.Lib.Pipeline.Value
import Idealize.ShloMosaic.Lib.ValueIdx

noncomputable section

open scoped BigOperators

namespace Cert.ReferenceIdeal.RefValue

open Cert.ReferenceIdeal Cert.ReferenceIdeal.Gen Cert.ReferenceIdeal.Read Idealize.ShloMosaic Idealize.ShloMosaic.ValueIdx Cert.LstmSpec

/-- The joined weight matrix at column `0 + c` is the forget gate's matrix at column `c`. -/
theorem joined_weights_0 (x3 x5 x7 x9 : (⟨S4096x2048, .f32⟩ : BufTy).Contents (Elt Ideal)) (j : S4096x8192.Idx) (k : Fin 4096) (c : Fin 2048)
    (h0 : (j 0).val = k.val) (h1 : (j 1).val = 0 + c.val) :
    val_main_v1 (F := Ideal) x3 x5 x7 x9 j = x3 (ix2 k c) := by
  unfold val_main_v1
  refine concatenate_apply_piece (t := S4096x8192) (1 : Fin 2) _ _ j 0 ?_ S4096x2048 x3 ?_ rfl 0 ?_ (ix2 k c) ?_ ?_
  · show (0 : ℕ) < 4; omega
  · rfl
  · first | rfl | decide | simp
  · intro b hb
    match b with
    | ⟨0, _⟩ => exact h0.symm
    | ⟨1, _⟩ => exact absurd rfl hb
  · show 0 + c.val = (j 1).val; omega

/-- The joined bias vector at position `0 + c` is the forget gate's bias at `c`. -/
theorem joined_bias_0 (x4 x6 x8 x10 : (⟨S2048, .f32⟩ : BufTy).Contents (Elt Ideal)) (j : S8192.Idx) (c : Fin 2048)
    (h1 : (j 0).val = 0 + c.val) :
    val_main_v2 (F := Ideal) x4 x6 x8 x10 j = x4 (ix1 c) := by
  unfold val_main_v2
  refine concatenate_apply_piece (t := S8192) (0 : Fin 1) _ _ j 0 ?_ S2048 x4 ?_ rfl 0 ?_ (ix1 c) ?_ ?_
  · show (0 : ℕ) < 4; omega
  · rfl
  · first | rfl | decide | simp
  · intro b hb
    match b with
    | ⟨0, _⟩ => exact absurd rfl hb
  · show 0 + c.val = (j 0).val; omega

/-- The joined affine map at column `0 + c` is the forget gate at `(r, c)`. -/
theorem joined_gate_0 (x0 x1 : (⟨S8192x4096, .f32⟩ : BufTy).Contents (Elt Ideal)) (x3 : (⟨S4096x2048, .f32⟩ : BufTy).Contents (Elt Ideal)) (x4 : (⟨S2048, .f32⟩ : BufTy).Contents (Elt Ideal)) (x5 : (⟨S4096x2048, .f32⟩ : BufTy).Contents (Elt Ideal)) (x6 : (⟨S2048, .f32⟩ : BufTy).Contents (Elt Ideal)) (x7 : (⟨S4096x2048, .f32⟩ : BufTy).Contents (Elt Ideal)) (x8 : (⟨S2048, .f32⟩ : BufTy).Contents (Elt Ideal)) (x9 : (⟨S4096x2048, .f32⟩ : BufTy).Contents (Elt Ideal)) (x10 : (⟨S2048, .f32⟩ : BufTy).Contents (Elt Ideal)) (i : S8192x8192.Idx) (r : Fin 8192) (c : Fin 2048)
    (h0 : (i 0).val = r.val) (h1 : (i 1).val = 0 + c.val) :
    val_main_v6 (F := Ideal) x0 x1 x3 x4 x5 x6 x7 x8 x9 x10 i = gate x0 x1 x3 x4 r c := by
  rw [val_main_v6_apply, val_main_v3_apply, val_main_v5_apply, val_main_v4_apply,
    joined_bias_0 x4 x6 x8 x10 (idx_main_v4 (idx_main_v5 i)) c h1]
  unfold gate
  rw [Ideal.addf_def]
  congr 1
  refine Finset.sum_congr rfl fun k _ => ?_
  have hl : lidx_main_v3 i k = ix2 r k := funext fun a => Fin.ext (by
    match a with
    | ⟨0, _⟩ => exact h0
    | ⟨1, _⟩ => rfl)
  rw [val_main_v0_apply, joined_weights_0 x3 x5 x7 x9 (ridx_main_v3 i k) k c rfl h1, hl, Ideal.addf_def]

/-- Piece 0 of the cut, at row `r` and unit `c`, is the forget gate there. -/
theorem piece_gate_0 (x0 x1 : (⟨S8192x4096, .f32⟩ : BufTy).Contents (Elt Ideal)) (x3 : (⟨S4096x2048, .f32⟩ : BufTy).Contents (Elt Ideal)) (x4 : (⟨S2048, .f32⟩ : BufTy).Contents (Elt Ideal)) (x5 : (⟨S4096x2048, .f32⟩ : BufTy).Contents (Elt Ideal)) (x6 : (⟨S2048, .f32⟩ : BufTy).Contents (Elt Ideal)) (x7 : (⟨S4096x2048, .f32⟩ : BufTy).Contents (Elt Ideal)) (x8 : (⟨S2048, .f32⟩ : BufTy).Contents (Elt Ideal)) (x9 : (⟨S4096x2048, .f32⟩ : BufTy).Contents (Elt Ideal)) (x10 : (⟨S2048, .f32⟩ : BufTy).Contents (Elt Ideal)) (r : Fin 8192) (c : Fin 2048) :
    val_main_v7 (F := Ideal) x0 x1 x3 x4 x5 x6 x7 x8 x9 x10 (ix2 r c) = gate x0 x1 x3 x4 r c := by
  rw [val_main_v7_apply]
  exact joined_gate_0 x0 x1 x3 x4 x5 x6 x7 x8 x9 x10 (idx_main_v7 (ix2 r c)) r c rfl (Nat.zero_add _).symm

/-- The joined weight matrix at column `2048 + c` is the candidate gate's matrix at column `c`. -/
theorem joined_weights_1 (x3 x5 x7 x9 : (⟨S4096x2048, .f32⟩ : BufTy).Contents (Elt Ideal)) (j : S4096x8192.Idx) (k : Fin 4096) (c : Fin 2048)
    (h0 : (j 0).val = k.val) (h1 : (j 1).val = 2048 + c.val) :
    val_main_v1 (F := Ideal) x3 x5 x7 x9 j = x5 (ix2 k c) := by
  unfold val_main_v1
  refine concatenate_apply_piece (t := S4096x8192) (1 : Fin 2) _ _ j 1 ?_ S4096x2048 x5 ?_ rfl 2048 ?_ (ix2 k c) ?_ ?_
  · show (1 : ℕ) < 4; omega
  · rfl
  · first | rfl | decide | simp
  · intro b hb
    match b with
    | ⟨0, _⟩ => exact h0.symm
    | ⟨1, _⟩ => exact absurd rfl hb
  · show 2048 + c.val = (j 1).val; omega

/-- The joined bias vector at position `2048 + c` is the candidate gate's bias at `c`. -/
theorem joined_bias_1 (x4 x6 x8 x10 : (⟨S2048, .f32⟩ : BufTy).Contents (Elt Ideal)) (j : S8192.Idx) (c : Fin 2048)
    (h1 : (j 0).val = 2048 + c.val) :
    val_main_v2 (F := Ideal) x4 x6 x8 x10 j = x6 (ix1 c) := by
  unfold val_main_v2
  refine concatenate_apply_piece (t := S8192) (0 : Fin 1) _ _ j 1 ?_ S2048 x6 ?_ rfl 2048 ?_ (ix1 c) ?_ ?_
  · show (1 : ℕ) < 4; omega
  · rfl
  · first | rfl | decide | simp
  · intro b hb
    match b with
    | ⟨0, _⟩ => exact absurd rfl hb
  · show 2048 + c.val = (j 0).val; omega

/-- The joined affine map at column `2048 + c` is the candidate gate at `(r, c)`. -/
theorem joined_gate_1 (x0 x1 : (⟨S8192x4096, .f32⟩ : BufTy).Contents (Elt Ideal)) (x3 : (⟨S4096x2048, .f32⟩ : BufTy).Contents (Elt Ideal)) (x4 : (⟨S2048, .f32⟩ : BufTy).Contents (Elt Ideal)) (x5 : (⟨S4096x2048, .f32⟩ : BufTy).Contents (Elt Ideal)) (x6 : (⟨S2048, .f32⟩ : BufTy).Contents (Elt Ideal)) (x7 : (⟨S4096x2048, .f32⟩ : BufTy).Contents (Elt Ideal)) (x8 : (⟨S2048, .f32⟩ : BufTy).Contents (Elt Ideal)) (x9 : (⟨S4096x2048, .f32⟩ : BufTy).Contents (Elt Ideal)) (x10 : (⟨S2048, .f32⟩ : BufTy).Contents (Elt Ideal)) (i : S8192x8192.Idx) (r : Fin 8192) (c : Fin 2048)
    (h0 : (i 0).val = r.val) (h1 : (i 1).val = 2048 + c.val) :
    val_main_v6 (F := Ideal) x0 x1 x3 x4 x5 x6 x7 x8 x9 x10 i = gate x0 x1 x5 x6 r c := by
  rw [val_main_v6_apply, val_main_v3_apply, val_main_v5_apply, val_main_v4_apply,
    joined_bias_1 x4 x6 x8 x10 (idx_main_v4 (idx_main_v5 i)) c h1]
  unfold gate
  rw [Ideal.addf_def]
  congr 1
  refine Finset.sum_congr rfl fun k _ => ?_
  have hl : lidx_main_v3 i k = ix2 r k := funext fun a => Fin.ext (by
    match a with
    | ⟨0, _⟩ => exact h0
    | ⟨1, _⟩ => rfl)
  rw [val_main_v0_apply, joined_weights_1 x3 x5 x7 x9 (ridx_main_v3 i k) k c rfl h1, hl, Ideal.addf_def]

/-- Piece 1 of the cut, at row `r` and unit `c`, is the candidate gate there. -/
theorem piece_gate_1 (x0 x1 : (⟨S8192x4096, .f32⟩ : BufTy).Contents (Elt Ideal)) (x3 : (⟨S4096x2048, .f32⟩ : BufTy).Contents (Elt Ideal)) (x4 : (⟨S2048, .f32⟩ : BufTy).Contents (Elt Ideal)) (x5 : (⟨S4096x2048, .f32⟩ : BufTy).Contents (Elt Ideal)) (x6 : (⟨S2048, .f32⟩ : BufTy).Contents (Elt Ideal)) (x7 : (⟨S4096x2048, .f32⟩ : BufTy).Contents (Elt Ideal)) (x8 : (⟨S2048, .f32⟩ : BufTy).Contents (Elt Ideal)) (x9 : (⟨S4096x2048, .f32⟩ : BufTy).Contents (Elt Ideal)) (x10 : (⟨S2048, .f32⟩ : BufTy).Contents (Elt Ideal)) (r : Fin 8192) (c : Fin 2048) :
    val_main_v8 (F := Ideal) x0 x1 x3 x4 x5 x6 x7 x8 x9 x10 (ix2 r c) = gate x0 x1 x5 x6 r c := by
  rw [val_main_v8_apply]
  exact joined_gate_1 x0 x1 x3 x4 x5 x6 x7 x8 x9 x10 (idx_main_v8 (ix2 r c)) r c rfl rfl

/-- The joined weight matrix at column `4096 + c` is the input gate's matrix at column `c`. -/
theorem joined_weights_2 (x3 x5 x7 x9 : (⟨S4096x2048, .f32⟩ : BufTy).Contents (Elt Ideal)) (j : S4096x8192.Idx) (k : Fin 4096) (c : Fin 2048)
    (h0 : (j 0).val = k.val) (h1 : (j 1).val = 4096 + c.val) :
    val_main_v1 (F := Ideal) x3 x5 x7 x9 j = x7 (ix2 k c) := by
  unfold val_main_v1
  refine concatenate_apply_piece (t := S4096x8192) (1 : Fin 2) _ _ j 2 ?_ S4096x2048 x7 ?_ rfl 4096 ?_ (ix2 k c) ?_ ?_
  · show (2 : ℕ) < 4; omega
  · rfl
  · first | rfl | decide | simp
  · intro b hb
    match b with
    | ⟨0, _⟩ => exact h0.symm
    | ⟨1, _⟩ => exact absurd rfl hb
  · show 4096 + c.val = (j 1).val; omega

/-- The joined bias vector at position `4096 + c` is the input gate's bias at `c`. -/
theorem joined_bias_2 (x4 x6 x8 x10 : (⟨S2048, .f32⟩ : BufTy).Contents (Elt Ideal)) (j : S8192.Idx) (c : Fin 2048)
    (h1 : (j 0).val = 4096 + c.val) :
    val_main_v2 (F := Ideal) x4 x6 x8 x10 j = x8 (ix1 c) := by
  unfold val_main_v2
  refine concatenate_apply_piece (t := S8192) (0 : Fin 1) _ _ j 2 ?_ S2048 x8 ?_ rfl 4096 ?_ (ix1 c) ?_ ?_
  · show (2 : ℕ) < 4; omega
  · rfl
  · first | rfl | decide | simp
  · intro b hb
    match b with
    | ⟨0, _⟩ => exact absurd rfl hb
  · show 4096 + c.val = (j 0).val; omega

/-- The joined affine map at column `4096 + c` is the input gate at `(r, c)`. -/
theorem joined_gate_2 (x0 x1 : (⟨S8192x4096, .f32⟩ : BufTy).Contents (Elt Ideal)) (x3 : (⟨S4096x2048, .f32⟩ : BufTy).Contents (Elt Ideal)) (x4 : (⟨S2048, .f32⟩ : BufTy).Contents (Elt Ideal)) (x5 : (⟨S4096x2048, .f32⟩ : BufTy).Contents (Elt Ideal)) (x6 : (⟨S2048, .f32⟩ : BufTy).Contents (Elt Ideal)) (x7 : (⟨S4096x2048, .f32⟩ : BufTy).Contents (Elt Ideal)) (x8 : (⟨S2048, .f32⟩ : BufTy).Contents (Elt Ideal)) (x9 : (⟨S4096x2048, .f32⟩ : BufTy).Contents (Elt Ideal)) (x10 : (⟨S2048, .f32⟩ : BufTy).Contents (Elt Ideal)) (i : S8192x8192.Idx) (r : Fin 8192) (c : Fin 2048)
    (h0 : (i 0).val = r.val) (h1 : (i 1).val = 4096 + c.val) :
    val_main_v6 (F := Ideal) x0 x1 x3 x4 x5 x6 x7 x8 x9 x10 i = gate x0 x1 x7 x8 r c := by
  rw [val_main_v6_apply, val_main_v3_apply, val_main_v5_apply, val_main_v4_apply,
    joined_bias_2 x4 x6 x8 x10 (idx_main_v4 (idx_main_v5 i)) c h1]
  unfold gate
  rw [Ideal.addf_def]
  congr 1
  refine Finset.sum_congr rfl fun k _ => ?_
  have hl : lidx_main_v3 i k = ix2 r k := funext fun a => Fin.ext (by
    match a with
    | ⟨0, _⟩ => exact h0
    | ⟨1, _⟩ => rfl)
  rw [val_main_v0_apply, joined_weights_2 x3 x5 x7 x9 (ridx_main_v3 i k) k c rfl h1, hl, Ideal.addf_def]

/-- Piece 2 of the cut, at row `r` and unit `c`, is the input gate there. -/
theorem piece_gate_2 (x0 x1 : (⟨S8192x4096, .f32⟩ : BufTy).Contents (Elt Ideal)) (x3 : (⟨S4096x2048, .f32⟩ : BufTy).Contents (Elt Ideal)) (x4 : (⟨S2048, .f32⟩ : BufTy).Contents (Elt Ideal)) (x5 : (⟨S4096x2048, .f32⟩ : BufTy).Contents (Elt Ideal)) (x6 : (⟨S2048, .f32⟩ : BufTy).Contents (Elt Ideal)) (x7 : (⟨S4096x2048, .f32⟩ : BufTy).Contents (Elt Ideal)) (x8 : (⟨S2048, .f32⟩ : BufTy).Contents (Elt Ideal)) (x9 : (⟨S4096x2048, .f32⟩ : BufTy).Contents (Elt Ideal)) (x10 : (⟨S2048, .f32⟩ : BufTy).Contents (Elt Ideal)) (r : Fin 8192) (c : Fin 2048) :
    val_main_v9 (F := Ideal) x0 x1 x3 x4 x5 x6 x7 x8 x9 x10 (ix2 r c) = gate x0 x1 x7 x8 r c := by
  rw [val_main_v9_apply]
  exact joined_gate_2 x0 x1 x3 x4 x5 x6 x7 x8 x9 x10 (idx_main_v9 (ix2 r c)) r c rfl rfl

/-- The joined weight matrix at column `6144 + c` is the output gate's matrix at column `c`. -/
theorem joined_weights_3 (x3 x5 x7 x9 : (⟨S4096x2048, .f32⟩ : BufTy).Contents (Elt Ideal)) (j : S4096x8192.Idx) (k : Fin 4096) (c : Fin 2048)
    (h0 : (j 0).val = k.val) (h1 : (j 1).val = 6144 + c.val) :
    val_main_v1 (F := Ideal) x3 x5 x7 x9 j = x9 (ix2 k c) := by
  unfold val_main_v1
  refine concatenate_apply_piece (t := S4096x8192) (1 : Fin 2) _ _ j 3 ?_ S4096x2048 x9 ?_ rfl 6144 ?_ (ix2 k c) ?_ ?_
  · show (3 : ℕ) < 4; omega
  · rfl
  · first | rfl | decide | simp
  · intro b hb
    match b with
    | ⟨0, _⟩ => exact h0.symm
    | ⟨1, _⟩ => exact absurd rfl hb
  · show 6144 + c.val = (j 1).val; omega

/-- The joined bias vector at position `6144 + c` is the output gate's bias at `c`. -/
theorem joined_bias_3 (x4 x6 x8 x10 : (⟨S2048, .f32⟩ : BufTy).Contents (Elt Ideal)) (j : S8192.Idx) (c : Fin 2048)
    (h1 : (j 0).val = 6144 + c.val) :
    val_main_v2 (F := Ideal) x4 x6 x8 x10 j = x10 (ix1 c) := by
  unfold val_main_v2
  refine concatenate_apply_piece (t := S8192) (0 : Fin 1) _ _ j 3 ?_ S2048 x10 ?_ rfl 6144 ?_ (ix1 c) ?_ ?_
  · show (3 : ℕ) < 4; omega
  · rfl
  · first | rfl | decide | simp
  · intro b hb
    match b with
    | ⟨0, _⟩ => exact absurd rfl hb
  · show 6144 + c.val = (j 0).val; omega

/-- The joined affine map at column `6144 + c` is the output gate at `(r, c)`. -/
theorem joined_gate_3 (x0 x1 : (⟨S8192x4096, .f32⟩ : BufTy).Contents (Elt Ideal)) (x3 : (⟨S4096x2048, .f32⟩ : BufTy).Contents (Elt Ideal)) (x4 : (⟨S2048, .f32⟩ : BufTy).Contents (Elt Ideal)) (x5 : (⟨S4096x2048, .f32⟩ : BufTy).Contents (Elt Ideal)) (x6 : (⟨S2048, .f32⟩ : BufTy).Contents (Elt Ideal)) (x7 : (⟨S4096x2048, .f32⟩ : BufTy).Contents (Elt Ideal)) (x8 : (⟨S2048, .f32⟩ : BufTy).Contents (Elt Ideal)) (x9 : (⟨S4096x2048, .f32⟩ : BufTy).Contents (Elt Ideal)) (x10 : (⟨S2048, .f32⟩ : BufTy).Contents (Elt Ideal)) (i : S8192x8192.Idx) (r : Fin 8192) (c : Fin 2048)
    (h0 : (i 0).val = r.val) (h1 : (i 1).val = 6144 + c.val) :
    val_main_v6 (F := Ideal) x0 x1 x3 x4 x5 x6 x7 x8 x9 x10 i = gate x0 x1 x9 x10 r c := by
  rw [val_main_v6_apply, val_main_v3_apply, val_main_v5_apply, val_main_v4_apply,
    joined_bias_3 x4 x6 x8 x10 (idx_main_v4 (idx_main_v5 i)) c h1]
  unfold gate
  rw [Ideal.addf_def]
  congr 1
  refine Finset.sum_congr rfl fun k _ => ?_
  have hl : lidx_main_v3 i k = ix2 r k := funext fun a => Fin.ext (by
    match a with
    | ⟨0, _⟩ => exact h0
    | ⟨1, _⟩ => rfl)
  rw [val_main_v0_apply, joined_weights_3 x3 x5 x7 x9 (ridx_main_v3 i k) k c rfl h1, hl, Ideal.addf_def]

/-- Piece 3 of the cut, at row `r` and unit `c`, is the output gate there. -/
theorem piece_gate_3 (x0 x1 : (⟨S8192x4096, .f32⟩ : BufTy).Contents (Elt Ideal)) (x3 : (⟨S4096x2048, .f32⟩ : BufTy).Contents (Elt Ideal)) (x4 : (⟨S2048, .f32⟩ : BufTy).Contents (Elt Ideal)) (x5 : (⟨S4096x2048, .f32⟩ : BufTy).Contents (Elt Ideal)) (x6 : (⟨S2048, .f32⟩ : BufTy).Contents (Elt Ideal)) (x7 : (⟨S4096x2048, .f32⟩ : BufTy).Contents (Elt Ideal)) (x8 : (⟨S2048, .f32⟩ : BufTy).Contents (Elt Ideal)) (x9 : (⟨S4096x2048, .f32⟩ : BufTy).Contents (Elt Ideal)) (x10 : (⟨S2048, .f32⟩ : BufTy).Contents (Elt Ideal)) (r : Fin 8192) (c : Fin 2048) :
    val_main_v10 (F := Ideal) x0 x1 x3 x4 x5 x6 x7 x8 x9 x10 (ix2 r c) = gate x0 x1 x9 x10 r c := by
  rw [val_main_v10_apply]
  exact joined_gate_3 x0 x1 x3 x4 x5 x6 x7 x8 x9 x10 (idx_main_v10 (ix2 r c)) r c rfl rfl

/-- The reference's first result is the output gate. -/
theorem out_eq (x0 x1 : (⟨S8192x4096, .f32⟩ : BufTy).Contents (Elt Ideal)) (x3 : (⟨S4096x2048, .f32⟩ : BufTy).Contents (Elt Ideal)) (x4 : (⟨S2048, .f32⟩ : BufTy).Contents (Elt Ideal)) (x5 : (⟨S4096x2048, .f32⟩ : BufTy).Contents (Elt Ideal)) (x6 : (⟨S2048, .f32⟩ : BufTy).Contents (Elt Ideal)) (x7 : (⟨S4096x2048, .f32⟩ : BufTy).Contents (Elt Ideal)) (x8 : (⟨S2048, .f32⟩ : BufTy).Contents (Elt Ideal)) (x9 : (⟨S4096x2048, .f32⟩ : BufTy).Contents (Elt Ideal)) (x10 : (⟨S2048, .f32⟩ : BufTy).Contents (Elt Ideal)) :
    val_main_v38 (F := Ideal) x0 x1 x3 x4 x5 x6 x7 x8 x9 x10 = outGate x0 x1 x9 x10 := by
  funext i
  obtain ⟨r, c, rfl⟩ : ∃ (r : Fin 8192) (c : Fin 2048), i = ix2 r c := ⟨i 0, i 1, eq_ix2 i⟩
  rw [outGate_at]
  unfold outGateAt
  simp only [val_main_v38_apply, val_main_v37_apply, val_main_cst_6_apply, val_main_v36_apply, val_main_v35_apply, val_main_cst_5_apply, val_main_v34_apply, val_main_v33_apply, piece_gate_3, Ideal.hostDivf_def, Ideal.addf_def, Ideal.mulf_def, Ideal.hostUnary_exp_def, Ideal.hostUnary_tanh_def, Ideal.hostNegf_def, Ideal.negf_def, Ideal.ofBits_def, logistic_spelt]

/-- The reference's third result is the new cell state. -/
theorem cell_eq (x0 x1 : (⟨S8192x4096, .f32⟩ : BufTy).Contents (Elt Ideal)) (x2 : (⟨S8192x2048, .f32⟩ : BufTy).Contents (Elt Ideal)) (x3 : (⟨S4096x2048, .f32⟩ : BufTy).Contents (Elt Ideal)) (x4 : (⟨S2048, .f32⟩ : BufTy).Contents (Elt Ideal)) (x5 : (⟨S4096x2048, .f32⟩ : BufTy).Contents (Elt Ideal)) (x6 : (⟨S2048, .f32⟩ : BufTy).Contents (Elt Ideal)) (x7 : (⟨S4096x2048, .f32⟩ : BufTy).Contents (Elt Ideal)) (x8 : (⟨S2048, .f32⟩ : BufTy).Contents (Elt Ideal)) (x9 : (⟨S4096x2048, .f32⟩ : BufTy).Contents (Elt Ideal)) (x10 : (⟨S2048, .f32⟩ : BufTy).Contents (Elt Ideal)) :
    val_main_v32 (F := Ideal) x0 x1 x2 x3 x4 x5 x6 x7 x8 x9 x10 = cellState x0 x1 x2 x3 x4 x5 x6 x7 x8 := by
  funext i
  obtain ⟨r, c, rfl⟩ : ∃ (r : Fin 8192) (c : Fin 2048), i = ix2 r c := ⟨i 0, i 1, eq_ix2 i⟩
  rw [cellState_at]
  unfold cellStateAt
  simp only [val_main_v32_apply, val_main_v31_apply, val_main_v30_apply, val_main_v29_apply, val_main_v28_apply, val_main_cst_4_apply, val_main_v27_apply, val_main_v26_apply, val_main_cst_3_apply, val_main_v25_apply, val_main_v24_apply, val_main_v23_apply, val_main_v22_apply, val_main_cst_2_apply, val_main_v21_apply, val_main_v20_apply, val_main_cst_1_apply, val_main_v19_apply, val_main_v18_apply, val_main_v17_apply, val_main_v16_apply, val_main_v15_apply, val_main_cst_0_apply, val_main_v14_apply, val_main_v13_apply, val_main_cst_apply, val_main_v12_apply, val_main_v11_apply,
    piece_gate_0, piece_gate_1, piece_gate_2, Ideal.hostDivf_def, Ideal.addf_def, Ideal.mulf_def, Ideal.hostUnary_exp_def, Ideal.hostUnary_tanh_def, Ideal.hostNegf_def, Ideal.negf_def, Ideal.ofBits_def, logistic_spelt]

/-- The reference's second result is the new hidden state. -/
theorem hidden_eq (x0 x1 : (⟨S8192x4096, .f32⟩ : BufTy).Contents (Elt Ideal)) (x2 : (⟨S8192x2048, .f32⟩ : BufTy).Contents (Elt Ideal)) (x3 : (⟨S4096x2048, .f32⟩ : BufTy).Contents (Elt Ideal)) (x4 : (⟨S2048, .f32⟩ : BufTy).Contents (Elt Ideal)) (x5 : (⟨S4096x2048, .f32⟩ : BufTy).Contents (Elt Ideal)) (x6 : (⟨S2048, .f32⟩ : BufTy).Contents (Elt Ideal)) (x7 : (⟨S4096x2048, .f32⟩ : BufTy).Contents (Elt Ideal)) (x8 : (⟨S2048, .f32⟩ : BufTy).Contents (Elt Ideal)) (x9 : (⟨S4096x2048, .f32⟩ : BufTy).Contents (Elt Ideal)) (x10 : (⟨S2048, .f32⟩ : BufTy).Contents (Elt Ideal)) :
    val_main_v40 (F := Ideal) x0 x1 x2 x3 x4 x5 x6 x7 x8 x9 x10 = hiddenState x0 x1 x2 x3 x4 x5 x6 x7 x8 x9 x10 := by
  funext i
  obtain ⟨r, c, rfl⟩ : ∃ (r : Fin 8192) (c : Fin 2048), i = ix2 r c := ⟨i 0, i 1, eq_ix2 i⟩
  rw [hiddenState_at]
  unfold hiddenStateAt
  rw [val_main_v40_apply, val_main_v39_apply, cell_eq, out_eq, outGate_at, cellState_at, Ideal.mulf_def, Ideal.hostUnary_tanh_def]

end Cert.ReferenceIdeal.RefValue

end
-- ==== Proof.lean ====
/-
  An LSTM cell computed by a blocked kernel equals its reference on the extended reals.

  Both programs add the input and the previous hidden state, apply to the sum four affine maps (one per gate, each
  a [4096, 2048] weight matrix and a bias), and combine the gates with the previous cell state:

    out = σ(g_o),   cell_state = cell · σ(g_f) + tanh(g_c) · σ(σ(g_i)),   hidden_state = out · tanh(cell_state),

  σ the logistic function. The kernel computes each [512, 512] block of the results from eight partial products over
  blocks of 512 features, accumulated one grid point after another; the reference forms the four affine maps as one
  product with the four matrices joined side by side, and spells σ as `1 / (1 + e^(-x))`. On the extended reals a change
  of float format is the identity, the eight partial products regroup into the one sum over 4096 features (only
  commutativity and associativity of addition are used, so no finiteness of the inputs is needed), a column of the
  joined matrix is a column of one gate's matrix, and the quotient is the logistic function. So both programs end
  holding the same three arrays: the ones the specification module states index by index.

  The three frame claims are the generated ones (the reference's is its generated run with the results dropped); the
  idealization changed no operation, so its claim is trivially true; the value claim sets the kernel's run, read through
  the specification, beside the reference's run, read through the same specification.
-/
import proofs.«111009_j37924561224179_2_alg».proof.Defs
import proofs.«111009_j37924561224179_2_alg».proof.Proof.Gen.Kernel
import proofs.«111009_j37924561224179_2_alg».proof.Proof.Gen.Kernel.Skeleton
import proofs.«111009_j37924561224179_2_alg».proof.Proof.Gen.Kernel.Launch
import proofs.«111009_j37924561224179_2_alg».proof.Proof.Gen.Kernel.Points
import proofs.«111009_j37924561224179_2_alg».proof.Proof.Gen.Kernel.Frame
import proofs.«111009_j37924561224179_2_alg».proof.Proof.Gen.KernelIdeal
import proofs.«111009_j37924561224179_2_alg».proof.Proof.Gen.KernelIdeal.Skeleton
import proofs.«111009_j37924561224179_2_alg».proof.Proof.Gen.KernelIdeal.Launch
import proofs.«111009_j37924561224179_2_alg».proof.Proof.Gen.KernelIdeal.Points
import proofs.«111009_j37924561224179_2_alg».proof.Proof.Gen.KernelIdeal.Frame
import proofs.«111009_j37924561224179_2_alg».proof.Proof.Gen.ReferenceIdeal
import proofs.«111009_j37924561224179_2_alg».proof.Proof.Gen.Pre_finite_inputs
import proofs.«111009_j37924561224179_2_alg».proof.Proof.Gen.KernelIdeal.Value
import proofs.«111009_j37924561224179_2_alg».proof.Proof.Gen.ReferenceIdeal.Run
import proofs.«111009_j37924561224179_2_alg».proof.Proof.Gen.ReferenceIdeal.Read
import proofs.«111009_j37924561224179_2_alg».proof.Proof.Blocks
import proofs.«111009_j37924561224179_2_alg».proof.Proof.RefIsSpec
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference runs and leaves its arguments unchanged: its run, with the three results dropped. -/
theorem frame_reference_ideal : Cert.frame_ReferenceIdeal := fun m ρ _ =>
  (θ_run Cert.ReferenceIdeal.defs _ _).mono (fun _ h c => (h c).2.2.2) (Cert.ReferenceIdeal.Value.run (F := Ideal) m ρ)

/-- The idealization rewrote no operation. -/
theorem preserves : Cert.preserves_Kernel_KernelIdeal := trivial

/-- From memories agreeing on the eleven arguments, both programs end with the output gate, the new hidden state and
    the new cell state of the specification, as arrays of the kernel's arguments. -/
theorem algebraic : Cert.algebraic_KernelIdeal_ReferenceIdeal := by
  intro m ρ m' ρ' _ hagree
  refine ⟨_, _, _, Cert.KernelIdeal.Blocks.run m ρ, ?_⟩
  refine (θ_run Cert.ReferenceIdeal.defs _ _).mono (fun _ h c => ?_) (Cert.ReferenceIdeal.Value.run (F := Ideal) m' ρ')
  obtain ⟨a0, a1, a2, a3, a4, a5, a6, a7, a8, a9, a10⟩ := hagree c
  refine ⟨?_, ?_, ?_, (h c).2.2.2⟩
  · refine (h c).1.trans ?_
    rw [a0, a1, a3, a4, a5, a6, a7, a8, a9, a10]
    exact (Cert.ReferenceIdeal.Read.val_main_v38_eq (F := Ideal) _ _ _ _ _ _ _ _ _ _).trans
      (Cert.ReferenceIdeal.RefValue.out_eq _ _ _ _ _ _ _ _ _ _)
  · refine (h c).2.1.trans ?_
    rw [Cert.ReferenceIdeal.Read.val_main_v40_eq, a0, a1, a2, a3, a4, a5, a6, a7, a8, a9, a10]
    exact Cert.ReferenceIdeal.RefValue.hidden_eq _ _ _ _ _ _ _ _ _ _ _
  · refine (h c).2.2.1.trans ?_
    rw [a0, a1, a2, a3, a4, a5, a6, a7, a8]
    exact (Cert.ReferenceIdeal.Read.val_main_v32_eq (F := Ideal) _ _ _ _ _ _ _ _ _ _ _).trans
      (Cert.ReferenceIdeal.RefValue.cell_eq _ _ _ _ _ _ _ _ _ _ _)

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
